-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1000000 32) (main_arg2 : IVec S1000000 32) (main_arg3 : FVec F S128x128 .f32) (main_arg4 : FVec F S128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S_ : Shape := ⟨0, ![]⟩
abbrev S100000 : Shape := ⟨1, ![100000]⟩
abbrev S1000000x1 : Shape := ⟨2, ![1000000, 1]⟩
abbrev S1000000x128 : Shape := ⟨2, ![1000000, 128]⟩
abbrev S100000x1 : Shape := ⟨2, ![100000, 1]⟩
abbrev S1x128 : Shape := ⟨2, ![1, 128]⟩
abbrev S2x1x128 : Shape := ⟨3, ![2, 1, 128]⟩
abbrev S5000x128 : Shape := ⟨2, ![5000, 128]⟩
abbrev S1x1x128 : Shape := ⟨3, ![1, 1, 128]⟩

abbrev nBuf : Space → Nat
  | .hbm => 55
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1000000, .f32⟩
  | .hbm, ⟨9, _⟩ => ⟨S_, .f32⟩
  | .hbm, ⟨10, _⟩ => ⟨S100000, .f32⟩
  | .hbm, ⟨11, _⟩ => ⟨S1000000x1, .i32⟩
  | .hbm, ⟨12, _⟩ => ⟨S100000, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .f32⟩
  | .hbm, ⟨22, _⟩ => ⟨S_, .f32⟩
  | .hbm, ⟨23, _⟩ => ⟨S100000x128, .f32⟩
  | .hbm, ⟨24, _⟩ => ⟨S1000000x1, .i32⟩
  | .hbm, ⟨25, _⟩ => ⟨S100000x128, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x128, .bf16⟩
  | .hbm, ⟨33, _⟩ => ⟨S128x128, .bf16⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S2x1x128, .f32⟩
  | .hbm, ⟨38, _⟩ => ⟨S2x1x128, .f32⟩
  | .hbm, ⟨39, _⟩ => ⟨S_, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S100000x128, .f32⟩
  | .local _ .vmem, ⟨0, _⟩ => ⟨S5000x128, .bf16⟩
  | .local _ .vmem, ⟨1, _⟩ => ⟨S5000x128, .bf16⟩
  | .local _ .vmem, ⟨2, _⟩ => ⟨S128x128, .bf16⟩
  | .local _ .vmem, ⟨3, _⟩ => ⟨S1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x128, .f32⟩
  | .local _ .vmem, ⟨9, _⟩ => ⟨S1x128, .f32⟩
  | .local _ .vmem, ⟨10, _⟩ => ⟨S5000x128, .bf16⟩
  | .local _ .vmem, ⟨11, _⟩ => ⟨S5000x128, .bf16⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v28 : BitVec 1 := Scalar.cmpi .eq arg1 c9_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  broadcasts_S1x128_S5000x128 : S1x128.Broadcasts S5000x128
  reduces_S5000x128_S128 : S5000x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S2x1x128_S1x128_d0 : S2x1x128.ReducesTo [0] S1x128
  h_S_ : 0 < S_.numel
  bcast_S_S1x128 : S_.BroadcastsInDim S1x128 (![] : Fin 0 → Fin S1x128.rank)
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .bf16 = 32 ∨ (Rect.block (s := S100000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24_1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S_ : Shape := ⟨0, ![]⟩
abbrev S100000 : Shape := ⟨1, ![100000]⟩
abbrev S1000000x1 : Shape := ⟨2, ![1000000, 1]⟩
abbrev S1000000x128 : Shape := ⟨2, ![1000000, 128]⟩
abbrev S100000x1 : Shape := ⟨2, ![100000, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1000000, .f32⟩
  | .hbm, ⟨9, _⟩ => ⟨S_, .f32⟩
  | .hbm, ⟨10, _⟩ => ⟨S100000, .f32⟩
  | .hbm, ⟨11, _⟩ => ⟨S1000000x1, .i32⟩
  | .hbm, ⟨12, _⟩ => ⟨S100000, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .f32⟩
  | .hbm, ⟨22, _⟩ => ⟨S_, .f32⟩
  | .hbm, ⟨23, _⟩ => ⟨S100000x128, .f32⟩
  | .hbm, ⟨24, _⟩ => ⟨S1000000x1, .i32⟩
  | .hbm, ⟨25, _⟩ => ⟨S100000x128, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_7 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call1_cst : Ref sig .tc := ⟨.hbm, 81, rfl⟩
abbrev main_call1_v0 : Ref sig .tc := ⟨.hbm, 82, rfl⟩
abbrev main_v43 : Ref sig .tc := ⟨.hbm, 83, rfl⟩
abbrev main_v44 : Ref sig .tc := ⟨.hbm, 84, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.StatsRunB.lean ====
/-
  The first kernel region (the statistics pass): the body's branch conditions over its grid, where its two output
  windows are idle, and the body run once per case.
  The grid is 2 × 10: point t has coordinates (t / 10, t % 10); half c of the rows (50000 of them, ten blocks of 5000)
  is summed by the ten points with first coordinate c.  At every point the body loads the staged block of aggregated
  rows, the weights and the bias, forms y = agg · Wᵀ + b on the block, and adds the block's column sums of y and of y²
  to two one-row accumulators kept in scratch memory from point to point.  Under the first condition (second
  coordinate 0) it first clears both accumulators; under the second (second coordinate 9) it afterwards copies them
  into the two output blocks, which are written back there and only there.  So three cases occur: a half's first
  point (A), a middle point (B), a half's last point (C).  Each case's run, by the symbolic executor over the body's
  skeleton, finds as its witness the pieces each stored buffer ends with.
-/
import proofs.«155481_j76647986365164_2_alg».proof.Proof.Gen.Kernel.Launch
import proofs.«155481_j76647986365164_2_alg».proof.Proof.Gen.Kernel.Skeleton
import proofs.«155481_j76647986365164_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first condition (clear the accumulators), from the grid coordinates. -/
abbrev cond0_0 (i : grid0.Coords) : Prop := (Scalar.cmpi .ne (Scalar.extui (Scalar.cmpi .eq (BitVec.ofNat 32 (i 1).val) 0#32)) 0#32) = 1#1
/-- It holds at the first point of each half. -/
theorem hcond0_0 : ∀ t : Fin cfg0.N, cond0_0 (grid0.coords t) ↔ t.val % 10 = 0 :=
  (by decide +kernel : ∀ t : Fin grid0.N, cond0_0 (grid0.coords t) ↔ t.val % 10 = 0)

/-- The second condition (store the accumulators into the output blocks). -/
abbrev cond0_1 (i : grid0.Coords) : Prop := k0_cond2 i = 1#1
/-- It holds at the last point of each half. -/
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a half's last point the two outputs are idle and are not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a half's last point they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The body, case by case -/

set_option maxHeartbeats 1000000 in
/-- Case A (a half's first point): from the inputs' blocks `x·`, the idle outputs at `xi·` and the accumulators at
    anything, the body returns the inputs and the idle outputs untouched and each accumulator with the pieces `LS·`
    written: the cleared accumulator plus this block's column sums. -/
noncomputable def kernelRun0_A (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .bf16) (x1 : Vec F S128x128 .bf16) (x2 : Vec F S1x128 .f32) :
    Σ' (LS0 : List (View.Piece (Elt F) S1x128 .f32)), { LS1 : List (View.Piece (Elt F) S1x128 .f32) //
      ∀ (xi3 xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 1000000 in
/-- Case B (a middle point): as case A, but the accumulators come in at what the point before left (`xs·`) and go
    out with this block's column sums added. -/
noncomputable def kernelRun0_B (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .bf16) (x1 : Vec F S128x128 .bf16) (x2 : Vec F S1x128 .f32) (xs0 xs1 : Vec F S1x128 .f32) :
    Σ' (LS0 : List (View.Piece (Elt F) S1x128 .f32)), { LS1 : List (View.Piece (Elt F) S1x128 .f32) //
      ∀ (xi3 xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 1000000 in
/-- Case C (a half's last point): the accumulators come in at `xs·`, go out with this block's column sums added, and
    the two output blocks (at anything before) end with the pieces `L·` written: the accumulators' new contents. -/
noncomputable def kernelRun0_C (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .bf16) (x1 : Vec F S128x128 .bf16) (x2 : Vec F S1x128 .f32) (xs0 xs1 : Vec F S1x128 .f32) :
    Σ' (L3 : List (View.Piece (Elt F) S1x1x128 .f32)) (L4 : List (View.Piece (Elt F) S1x1x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.StatsB.lean ====
/-
  The first kernel region (the statistics pass), at any contents `V` of the buffers when the region is entered: what
  each case of the body leaves in the buffers it stores, what the two accumulators and the two output blocks hold after
  each point (a recursion on the point: a half's first point starts from cleared accumulators, every other point from
  what the point before left), the region's invariant (before the first point the scoped buffers at anything; from
  then on the two accumulators at exactly those contents, the other scoped buffers still at anything, and the
  generator register), the proof data and the body obligation, case by case.
-/
import proofs.«155481_j76647986365164_2_alg».proof.Proof.StatsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or kept from an earlier point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or kept from an earlier point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or kept from an earlier point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The memrefs the body is called with -/

abbrev ms0_0 (t : Fin cfg0.N) : Memref sig .tc .vmem S5000x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view
/-- One staging buffer of each output window, through which its contents are stated. -/
abbrev VO0_3 : View sig .tc .vmem S1x1x128 .f32 := (Memref.whole cc0_stg3_0 : Memref sig .tc .vmem S1x1x128 .f32).view
abbrev VO0_4 : View sig .tc .vmem S1x1x128 .f32 := (Memref.whole cc0_stg4_0 : Memref sig .tc .vmem S1x1x128 .f32).view

/-! ## The scoped buffers the region does not stage -/

/-- A scoped buffer held whole at some contents. -/
abbrev exb (c : Dev nD) (b : Ref sig .tc) : sProp 𝕄 :=
  iprop(∃ f : Buf (Elt F) ((c : Thread nD τ).loc b), ((c : Thread nD τ).loc b) ↦{fullShare} f)

/-- The other region's twelve staging buffers: scoped, touched by nothing here. -/
def restT (c : Dev nD) : sProp 𝕄 :=
  iprop(exb c cc1_stg0_0 ∗ exb c cc1_stg0_1 ∗ exb c cc1_stg1_0 ∗ exb c cc1_stg1_1 ∗ exb c cc1_stg2_0 ∗ exb c cc1_stg3_0 ∗ exb c cc1_stg4_0
    ∗ exb c cc1_stg5_0 ∗ exb c cc1_stg6_0 ∗ exb c cc1_stg7_0 ∗ exb c cc1_stg8_0 ∗ exb c cc1_stg8_1)

/-- The class's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restT c) ∗ (∃ r, prngReg c r)) := by
  unfold Pipeline.ΦA restT; rw [scopedRest0_eq]; simp only [scM0_0, scM0_1, owns_whole]; try rfl

/-! ## What each case leaves -/

/-- Case A's pieces for the first accumulator tile it, so they cover it. -/
theorem scover0_A_0 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .bf16) (x1 : Vec F S128x128 .bf16) (x2 : Vec F S1x128 .f32)  (y : S1x128.Idx) :
    ∃ pc ∈ (kernelRun0_A c i arg2 harg2 arg3 harg3 arg4 harg4 arg5 harg5 arg6 harg6 arg7 harg7 arg8 harg8 hc0 hc1 x0 x1 x2 ).1, y ∈ pc.1.set :=
  View.cover_of_tiledL (kernelRun0_A c i arg2 harg2 arg3 harg3 arg4 harg4 arg5 harg5 arg6 harg6 arg7 harg7 arg8 harg8 hc0 hc1 x0 x1 x2 ).1 S1x128.size (by sl_kernel_rfl) y

/-- What case A leaves in the first accumulator: its pieces read back. -/
def sout0_A_0 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .bf16) (x1 : Vec F S128x128 .bf16) (x2 : Vec F S1x128 .f32)  : Vec F S1x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 ).1)

/-- Case A's pieces for the second accumulator tile it, so they cover it. -/
theorem scover0_A_1 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .bf16) (x1 : Vec F S128x128 .bf16) (x2 : Vec F S1x128 .f32)  (y : S1x128.Idx) :
    ∃ pc ∈ (kernelRun0_A c i arg2 harg2 arg3 harg3 arg4 harg4 arg5 harg5 arg6 harg6 arg7 harg7 arg8 harg8 hc0 hc1 x0 x1 x2 ).2.1, y ∈ pc.1.set :=
  View.cover_of_tiledL (kernelRun0_A c i arg2 harg2 arg3 harg3 arg4 harg4 arg5 harg5 arg6 harg6 arg7 harg7 arg8 harg8 hc0 hc1 x0 x1 x2 ).2.1 S1x128.size (by sl_kernel_rfl) y

/-- What case A leaves in the second accumulator: its pieces read back. -/
def sout0_A_1 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .bf16) (x1 : Vec F S128x128 .bf16) (x2 : Vec F S1x128 .f32)  : Vec F S1x128 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 ).2.1)

/-- Case B's pieces for the first accumulator tile it, so they cover it. -/
theorem scover0_B_0 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .bf16) (x1 : Vec F S128x128 .bf16) (x2 : Vec F S1x128 .f32) (xs0 xs1 : Vec F S1x128 .f32) (y : S1x128.Idx) :
    ∃ pc ∈ (kernelRun0_B c i arg2 harg2 arg3 harg3 arg4 harg4 arg5 harg5 arg6 harg6 arg7 harg7 arg8 harg8 hc0 hc1 x0 x1 x2 xs0 xs1).1, y ∈ pc.1.set :=
  View.cover_of_tiledL (kernelRun0_B c i arg2 harg2 arg3 harg3 arg4 harg4 arg5 harg5 arg6 harg6 arg7 harg7 arg8 harg8 hc0 hc1 x0 x1 x2 xs0 xs1).1 S1x128.size (by sl_kernel_rfl) y

/-- What case B leaves in the first accumulator: its pieces read back. -/
def sout0_B_0 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .bf16) (x1 : Vec F S128x128 .bf16) (x2 : Vec F S1x128 .f32) (xs0 xs1 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).1)

/-- Case B's pieces for the second accumulator tile it, so they cover it. -/
theorem scover0_B_1 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .bf16) (x1 : Vec F S128x128 .bf16) (x2 : Vec F S1x128 .f32) (xs0 xs1 : Vec F S1x128 .f32) (y : S1x128.Idx) :
    ∃ pc ∈ (kernelRun0_B c i arg2 harg2 arg3 harg3 arg4 harg4 arg5 harg5 arg6 harg6 arg7 harg7 arg8 harg8 hc0 hc1 x0 x1 x2 xs0 xs1).2.1, y ∈ pc.1.set :=
  View.cover_of_tiledL (kernelRun0_B c i arg2 harg2 arg3 harg3 arg4 harg4 arg5 harg5 arg6 harg6 arg7 harg7 arg8 harg8 hc0 hc1 x0 x1 x2 xs0 xs1).2.1 S1x128.size (by sl_kernel_rfl) y

/-- What case B leaves in the second accumulator: its pieces read back. -/
def sout0_B_1 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .bf16) (x1 : Vec F S128x128 .bf16) (x2 : Vec F S1x128 .f32) (xs0 xs1 : Vec F S1x128 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.1)

/-- Case C's pieces for the first output block tile it, so they cover it. -/
theorem cover0_C_3 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) (y : S1x1x128.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1x1x128.size (by sl_kernel_rfl) y

/-- What case C leaves in the first output block: its pieces read back. -/
def out0_C_3 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) : Vec F S1x1x128 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

/-- Case C's pieces for the second output block tile it, so they cover it. -/
theorem cover0_C_4 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) (y : S1x1x128.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1x1x128.size (by sl_kernel_rfl) y

/-- What case C leaves in the second output block: its pieces read back. -/
def out0_C_4 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) : Vec F S1x1x128 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- Case C's pieces for the first accumulator tile it, so they cover it. -/
theorem scover0_C_0 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) (y : S1x128.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S1x128.size (by sl_kernel_rfl) y

/-- What case C leaves in the first accumulator: its pieces read back. -/
def sout0_C_0 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) : Vec F S1x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

/-- Case C's pieces for the second accumulator tile it, so they cover it. -/
theorem scover0_C_1 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) (y : S1x128.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S1x128.size (by sl_kernel_rfl) y

/-- What case C leaves in the second accumulator: its pieces read back. -/
def sout0_C_1 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) : Vec F S1x128 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-! ## The case a point is in -/

theorem cA0 (t : Fin cfg0.N) (h0 : t.val % 10 = 0) : cond0_0 (grid0.coords t) := (hcond0_0 t).mpr h0
theorem cA1 (t : Fin cfg0.N) (h0 : t.val % 10 = 0) : ¬cond0_1 (grid0.coords t) := fun h => by
  have h9 : t.val % 10 = 9 := (hcond0_1 t).mp h
  omega
theorem cB0 (t : Fin cfg0.N) (h0 : ¬t.val % 10 = 0) : ¬cond0_0 (grid0.coords t) := fun h => h0 ((hcond0_0 t).mp h)
theorem cB1 (t : Fin cfg0.N) (h1 : ¬t.val % 10 = 9) : ¬cond0_1 (grid0.coords t) := fun h => h1 ((hcond0_1 t).mp h)
theorem cC1 (t : Fin cfg0.N) (h1 : t.val % 10 = 9) : cond0_1 (grid0.coords t) := (hcond0_1 t).mpr h1

/-! ## What the buffers hold after each point -/

/-- The two output blocks and the two accumulators, in this order. -/
abbrev Outs0 (F : FTy → Type) [FloatOps F] : Type := Vec F S1x1x128 .f32 × Vec F S1x1x128 .f32 × Vec F S1x128 .f32 × Vec F S1x128 .f32

/-- A placeholder for an output block at a point where it is idle: nothing consults it (the block is neither
    written back there nor read at the next point). -/
def idle3 : Vec F S1x1x128 .f32 := VO0_3.read (Elt F) VO0_3.junk
def idle4 : Vec F S1x1x128 .f32 := VO0_4.read (Elt F) VO0_4.junk

def caseA (c : Dev nD) (t : Fin cfg0.N) (h0 : t.val % 10 = 0) : Outs0 F :=
  (idle3, idle4,
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cA0 t h0) (cA1 t h0) (iblk0 V c 0 t) (iblk0 V c 1 t) (iblk0 V c 2 t),
   sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cA0 t h0) (cA1 t h0) (iblk0 V c 0 t) (iblk0 V c 1 t) (iblk0 V c 2 t))

def caseB (c : Dev nD) (t : Fin cfg0.N) (h0 : ¬t.val % 10 = 0) (h1 : ¬t.val % 10 = 9) (s0 s1 : Vec F S1x128 .f32) : Outs0 F :=
  (idle3, idle4,
   sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cB1 t h1) (iblk0 V c 0 t) (iblk0 V c 1 t) (iblk0 V c 2 t) s0 s1,
   sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cB1 t h1) (iblk0 V c 0 t) (iblk0 V c 1 t) (iblk0 V c 2 t) s0 s1)

def caseC (c : Dev nD) (t : Fin cfg0.N) (h0 : ¬t.val % 10 = 0) (h1 : t.val % 10 = 9) (s0 s1 : Vec F S1x128 .f32) : Outs0 F :=
  (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (iblk0 V c 0 t) (iblk0 V c 1 t) (iblk0 V c 2 t) s0 s1,
   out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (iblk0 V c 0 t) (iblk0 V c 1 t) (iblk0 V c 2 t) s0 s1,
   sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (iblk0 V c 0 t) (iblk0 V c 1 t) (iblk0 V c 2 t) s0 s1,
   sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (iblk0 V c 0 t) (iblk0 V c 1 t) (iblk0 V c 2 t) s0 s1)

/-- THE ACCUMULATION: what the output blocks and the accumulators hold after the body at position `n`. -/
def outsAt0 (c : Dev nD) : (n : ℕ) → n < cfg0.N → Outs0 F
  | 0, hn => caseA V c ⟨0, hn⟩ (Nat.zero_mod _)
  | n + 1, hn =>
    if h0 : (n + 1) % 10 = 0 then caseA V c ⟨n + 1, hn⟩ h0
    else if h1 : (n + 1) % 10 = 9 then
      caseC V c ⟨n + 1, hn⟩ h0 h1 (outsAt0 c n (Nat.lt_of_succ_lt hn)).2.2.1 (outsAt0 c n (Nat.lt_of_succ_lt hn)).2.2.2
    else
      caseB V c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 10 = 0) : outsAt0 V c t.val t.isLt = caseA V c t h0 := by
  obtain ⟨n, hn⟩ := t
  cases n with
  | zero => rfl
  | succ n => exact dif_pos h0

theorem outsAt0_B (c : Dev nD) (t : Fin cfg0.N) (h0 : ¬t.val % 10 = 0) (h1 : ¬t.val % 10 = 9) :
    outsAt0 V c t.val t.isLt = caseB V c t h0 h1 (outsAt0 V c (t.val - 1) (Nat.lt_of_le_of_lt (Nat.sub_le _ _) t.isLt)).2.2.1
      (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 10 = 0) (h1 : t.val % 10 = 9) :
    outsAt0 V c t.val t.isLt = caseC V c t h0 h1 (outsAt0 V c (t.val - 1) (Nat.lt_of_le_of_lt (Nat.sub_le _ _) t.isLt)).2.2.1
      (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The region's invariant -/

/-- Before position `n`: at the first point the class's invariant (every scoped buffer at anything); afterwards the two
    accumulators at what the point before left, the other scoped buffers at anything, the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restT c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restT c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restT c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

/-- The three inputs' posts are their buffers at their blocks (the windows are never idle). -/
theorem leaves_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t) := by
  refine ⟨?_, ?_, ?_⟩
  · unfold Dat.leavesExact; rw [liveAt0_0 t, after0_0]
  · unfold Dat.leavesExact; rw [liveAt0_1 t, after0_1]
  · unfold Dat.leavesExact; rw [liveAt0_2 t, after0_2]

set_option maxHeartbeats 4800000 in
/-- The body at any point: the inputs' buffers hold their blocks; the point's position in its half says which case it
    is in; the invariant hands the body the accumulators at what the point before left (at anything at the very first
    point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [(leaves_in V c t).1, (leaves_in V c t).2.1, (leaves_in V c t).2.2]
  have hN : t.val < 20 := lt_of_lt_of_eq t.isLt (show cfg0.N = 20 from N_0)
  by_cases h0 : t.val % 10 = 0
  · -- a half's first point
    rw [Dat.leavesExact_idle (dat0 V c) 3 t (idleAt0_3 t (cA1 t h0)) (noFlush0_3 t (cA1 t h0)),
      Dat.leavesExact_idle (dat0 V c) 4 t (idleAt0_4 t (cA1 t h0)) (noFlush0_4 t (cA1 t h0))]
    rw [outsAt0_A V c t h0]
    unfold caseA sout0_A_0 sout0_A_1; (try dsimp only)
    by_cases hz : t.val = 0
    · rw [PhiS_castSucc V c t, PhiS_zero V c _ _ hz, PhiA0_eq]
      iintro ⟨⟨⟨HS0, HS1, HT⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ (cA0 t h0) (cA1 t h0) (iblk0 V c 0 t) (iblk0 V c 1 t) (iblk0 V c 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HT Hg]
      · isplitl [HS0 HS1 HT]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          iexact HT
        iexact Hg
      isplitl [Ho]; · iexact Ho
      isplitl [H0]; · iexact H0
      isplitl [H1]; · iexact H1
      isplitl [H2]; · iexact H2
      isplitl [H3]; · iexists _; iexact H3
      iexists _; iexact H4
    · rw [PhiS_castSucc V c t, PhiS_pos V c _ _ hz]
      iintro ⟨⟨⟨HS0, HS1, HT⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ (cA0 t h0) (cA1 t h0) (iblk0 V c 0 t) (iblk0 V c 1 t) (iblk0 V c 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HT Hg]
      · isplitl [HS0 HS1 HT]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          iexact HT
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 10 = 9
    · -- a half's last point
      rw [show (dat0 V c).leavesExact 3 t = owns (c : Thread nD τ) (ms0_3 t) fullShare ((dat0 V c).after 3 t) from by
        unfold Dat.leavesExact; rw [liveAt0_3 t (cC1 t h1)], after0_3]
      rw [show (dat0 V c).leavesExact 4 t = owns (c : Thread nD τ) (ms0_4 t) fullShare ((dat0 V c).after 4 t) from by
        unfold Dat.leavesExact; rw [liveAt0_4 t (cC1 t h1)], after0_4]
      rw [outsAt0_C V c t h0 h1]
      unfold caseC out0_C_3 out0_C_4 sout0_C_0 sout0_C_1; (try dsimp only)
      rw [PhiS_castSucc V c t, PhiS_pos V c _ _ hz]
      iintro ⟨⟨⟨HS0, HS1, HT⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (cB0 t h0) (cC1 t h1) (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HT Hg]
      · isplitl [HS0 HS1 HT]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _)
          iexact HT
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · -- a middle point
      rw [Dat.leavesExact_idle (dat0 V c) 3 t (idleAt0_3 t (cB1 t h1)) (noFlush0_3 t (cB1 t h1)),
        Dat.leavesExact_idle (dat0 V c) 4 t (idleAt0_4 t (cB1 t h1)) (noFlush0_4 t (cB1 t h1))]
      rw [outsAt0_B V c t h0 h1]
      unfold caseB sout0_B_0 sout0_B_1; (try dsimp only)
      rw [PhiS_castSucc V c t, PhiS_pos V c _ _ hz]
      iintro ⟨⟨⟨HS0, HS1, HT⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (cB0 t h0) (cB1 t h1) (iblk0 V c 0 t) (iblk0 V c 1 t) (iblk0 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HT Hg]
      · isplitl [HS0 HS1 HT]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact HT
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA0_eq]
  iintro ⟨⟨HS0, HS1, HT⟩, Hg⟩
  isplitl [HS0 HS1 HT]
  · isplitl [HS0]; · iexists _; iexact HS0
    isplitl [HS1]; · iexists _; iexact HS1
    iexact HT
  iexact Hg

end Cert.Kernel.Hand

end
-- ==== Proof.ApplyB.lean ====
/-
  The second kernel region (the normalising pass), at any contents `V` of the buffers when the region is entered.
  Its grid has 20 points; point t stages rows [5000 t, 5000 t + 5000) of the aggregated features (window 0) and of the
  input features (window 1), the whole weight table (window 2) and the five one-row tables: bias, mean, variance,
  scale, shift (windows 3-7); the body loads all eight blocks, computes in one pure term
      x + max(((agg · Wᵀ + b − mean) · rsqrt(var + ε)) · γ + β, 0)
  over the block and stores it whole into the output block (window 8), which is written back at every point.
  Nothing is carried from one point to the next, so the region's invariant is the class's own (the scoped buffers no
  window stages, at any contents, and the generator register).  Stated here: each window's block at a point as the
  region finds it, what the body leaves in the output block as a function of the eight input blocks, the body's
  triple (run by the symbolic executor over the body's skeleton), the proof data and the body obligation.
-/
import proofs.«155481_j76647986365164_2_alg».proof.Proof.Gen.Kernel.Launch
import proofs.«155481_j76647986365164_2_alg».proof.Proof.Gen.Kernel.Skeleton
import proofs.«155481_j76647986365164_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it was fetched there or stays from
    an earlier point (its block index has not moved since), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether it was fetched there or stays from
    an earlier point (its block index has not moved since), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether it was fetched there or stays from
    an earlier point (its block index has not moved since), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether it was fetched there or stays from
    an earlier point (its block index has not moved since), for any proof data over `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether it was fetched there or stays from
    an earlier point (its block index has not moved since), for any proof data over `V` whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether it was fetched there or stays from
    an earlier point (its block index has not moved since), for any proof data over `V` whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether it was fetched there or stays from
    an earlier point (its block index has not moved since), for any proof data over `V` whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether it was fetched there or stays from
    an earlier point (its block index has not moved since), for any proof data over `V` whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The whole-block rectangles the body's loads and its one store go through. -/
abbrev rT : Rect S5000x128 := Rect.unit (s := S5000x128) ![0, 0] S5000x128.size inb_S5000x128_S5000x128_0_0
abbrev rW : Rect S128x128 := Rect.unit (s := S128x128) ![0, 0] S128x128.size inb_S128x128_S128x128_0_0
abbrev rR : Rect S1x128 := Rect.unit (s := S1x128) ![0, 0] S1x128.size inb_S1x128_S1x128_0_0

/-- The output block after the body, from the eight input blocks: its one store, of the body's pure term over what
    the loads return (the loads in the body's order: aggregated rows, weights, bias, variance, mean, scale, shift,
    feature rows). -/
def out1_8 (x0 : Vec F S5000x128 .bf16) (x1 : Vec F S5000x128 .f32) (x2 : Vec F S128x128 .bf16) (x3 x4 x5 x6 x7 : Vec F S1x128 .f32) :
    Vec F S5000x128 .f32 :=
  View.canon [⟨rT, k1_pay1 (View.ld x0 rT) (View.ld x2 rW) (View.ld x3 rR) (View.ld x5 rR) (View.ld x4 rR) (View.ld x6 rR) (View.ld x7 rR) (View.ld x1 rT)⟩]

/-- That one store is of the whole block, so it covers it. -/
theorem cover1_8 (p0 : Vec F S5000x128 .f32) (y : S5000x128.Idx) :
    ∃ pc ∈ ([⟨rT, p0⟩] : List (View.Piece (Elt F) S5000x128 .f32)), y ∈ pc.1.set :=
  View.cover_of_tiled [⟨rT, p0⟩] S5000x128.size (by rfl) y

/-! ## The body's triple -/

set_option maxHeartbeats 1000000 in
/-- On whole staging memrefs, the inputs' at contents `x·` and the output's at anything, the body runs to its return
    with the inputs' as they were and the output's at `out1_8` of them. -/
theorem sound_kernel1 (c : Dev nD) (E : Set ℕ) (i : grid1.Coords)
    (arg1 : Memref sig .tc .vmem S5000x128 .bf16) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S5000x128 .f32) (harg9 : arg9.IsWhole)
    (x0 : Vec F S5000x128 .bf16) (x1 : Vec F S5000x128 .f32) (x2 : Vec F S128x128 .bf16) (x3 x4 x5 x6 x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E (cc1__apply_kernel i arg1 harg1 arg2 harg2 arg3 harg3 arg4 harg4 arg5 harg5 arg6 harg6 arg7 harg7 arg8 harg8 arg9 harg9) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The proof data -/

/-- The proof data of the region on core `c`: the arrays as the region finds them; after the body at point `t` each
    input's buffer at its block and the output's at `out1_8` of the input blocks; the class's invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunB.lean ====
/-
  The whole program's run: host operations, the statistics region, host operations, the normalising region.
  The buffers' contents at the five boundaries are a fold from the launch memory: each host stretch applies its
  operations; each region leaves its windows' arrays at what its write-backs make of them and every other buffer as
  it found it.  Each region is entered with every unscoped buffer at the boundary's contents beside the generator
  register and a core that owes nothing, and is left the same way at the next boundary's contents; the statistics
  region's invariant is its own (the accumulators' contents, point by point), entered from and left at the class's.
  Read off the last boundary: the seven argument arrays hold what they held at launch (no host operation writes one,
  no region stores into one), and the result array holds what the second region's write-backs leave in it.
-/
import proofs.«155481_j76647986365164_2_alg».proof.Proof.StatsB
import proofs.«155481_j76647986365164_2_alg».proof.Proof.ApplyB
import proofs.«155481_j76647986365164_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Y0 : Dev nD → Valuation τ sig (Elt F) := fun c b => m ((c : Dev nD), b)
/-- After the first host stretch: the first region's entry. -/
abbrev Y1 : Dev nD → Valuation τ sig (Elt F) := fun c => StableHlo.after hostOps0 (Y0 m c)
abbrev Z1 : (c : Dev nD) → (b : Ref sig .tc) → Buf (Elt F) ((c : Thread nD τ).loc b) := fun c b => Y1 m c b
/-- At the first region's exit: its arrays at what the pipeline leaves, every other buffer as entered. -/
def Y2 (c : Dev nD) : Valuation τ sig (Elt F) :=
  Pipeline.withArrays spec0 c (Y1 m c) fun w => (dat0 (Z1 m) c).arrAt w cfg0.N
theorem Y2_arr (c : Dev nD) (w : Fin cfg0.W) :
    Y2 m c (Proc.devRef .tc (Pipeline.arrRef spec0 w)) = (dat0 (Z1 m) c).arrAt w cfg0.N := by
  unfold Y2; exact Pipeline.withArrays_arr spec0 launch0.win.arr_inj c _ _ w
theorem Y2_of_ne (c : Dev nD) (b : Ref sig .tc) (hb : ∀ w, Pipeline.arrRef spec0 w ≠ b) :
    Y2 m c (Proc.devRef .tc b) = Y1 m c (Proc.devRef .tc b) := by
  unfold Y2; exact Pipeline.withArrays_of_ne spec0 c _ _ b hb
abbrev Z2 : (c : Dev nD) → (b : Ref sig .tc) → Buf (Elt F) ((c : Thread nD τ).loc b) := fun c b => Y2 m c b
theorem hF0 (c : Dev nD) (w : Fin cfg0.W) : (dat0 (Z1 m) c).arrAt w cfg0.N = Z2 m c (Pipeline.arrRef spec0 w) :=
  (Y2_arr m c w).symm
theorem hrest0 (c : Dev nD) : ∀ b, b ∉ Finset.univ.image (Pipeline.arrRef spec0) → Z2 m c b = Z1 m c b :=
  fun b hb => Y2_of_ne m c b fun w e => hb (Finset.mem_image.mpr ⟨w, Finset.mem_univ _, e⟩)

/-- After the second host stretch: the second region's entry. -/
abbrev Y3 : Dev nD → Valuation τ sig (Elt F) := fun c => StableHlo.after hostOps1 (Y2 m c)
abbrev Z3 : (c : Dev nD) → (b : Ref sig .tc) → Buf (Elt F) ((c : Thread nD τ).loc b) := fun c b => Y3 m c b
/-- At the second region's exit. -/
def Y4 (c : Dev nD) : Valuation τ sig (Elt F) :=
  Pipeline.withArrays spec1 c (Y3 m c) fun w => (dat1 (Z3 m) c).arrAt w cfg1.N
theorem Y4_arr (c : Dev nD) (w : Fin cfg1.W) :
    Y4 m c (Proc.devRef .tc (Pipeline.arrRef spec1 w)) = (dat1 (Z3 m) c).arrAt w cfg1.N := by
  unfold Y4; exact Pipeline.withArrays_arr spec1 launch1.win.arr_inj c _ _ w
theorem Y4_of_ne (c : Dev nD) (b : Ref sig .tc) (hb : ∀ w, Pipeline.arrRef spec1 w ≠ b) :
    Y4 m c (Proc.devRef .tc b) = Y3 m c (Proc.devRef .tc b) := by
  unfold Y4; exact Pipeline.withArrays_of_ne spec1 c _ _ b hb
abbrev Z4 : (c : Dev nD) → (b : Ref sig .tc) → Buf (Elt F) ((c : Thread nD τ).loc b) := fun c b => Y4 m c b
theorem hF1 (c : Dev nD) (w : Fin cfg1.W) : (dat1 (Z3 m) c).arrAt w cfg1.N = Z4 m c (Pipeline.arrRef spec1 w) :=
  (Y4_arr m c w).symm
theorem hrest1 (c : Dev nD) : ∀ b, b ∉ Finset.univ.image (Pipeline.arrRef spec1) → Z4 m c b = Z3 m c b :=
  fun b hb => Y4_of_ne m c b fun w e => hb (Finset.mem_image.mpr ⟨w, Finset.mem_univ _, e⟩)

/-! ## The arguments end as launched -/

/-- A buffer no host operation writes and no region's window has as its array is at the end what it was at launch. -/
theorem Y4_untouched (c : Dev nD) (b : Ref sig .tc) (h0 : b ∉ hostOps0_W) (h1 : b ∉ hostOps1_W)
    (hw0 : ∀ w, Pipeline.arrRef spec0 w ≠ b) (hw1 : ∀ w, Pipeline.arrRef spec1 w ≠ b) :
    Y4 m c (Proc.devRef .tc b) = m ((c : Thread nD τ).loc b) :=
  calc Y4 m c (Proc.devRef .tc b)
    _ = Y3 m c (Proc.devRef .tc b) := Y4_of_ne m c b hw1
    _ = Y2 m c (Proc.devRef .tc b) := StableHlo.after_of_writes_sub hostOps1 _ hostOps1_writes h1
    _ = Y1 m c (Proc.devRef .tc b) := Y2_of_ne m c b hw0
    _ = Y0 m c (Proc.devRef .tc b) := StableHlo.after_of_writes_sub hostOps0 _ hostOps0_writes h0
    _ = m ((c : Thread nD τ).loc b) := rfl

/-- The input features are the second region's window 1, an input: its array ends as the region found it. -/
theorem Y4_main_arg0 (c : Dev nD) : Y4 m c (Proc.devRef .tc main_arg0) = m ((c : Thread nD τ).loc main_arg0) :=
  calc Y4 m c (Proc.devRef .tc main_arg0)
    _ = Y3 m c (Proc.devRef .tc main_arg0) := (Y4_arr m c 1).trans (((dat1 (Z3 m) c).arrAt_in 1 rfl _).trans (A_eq1 (Z3 m) c 1))
    _ = Y2 m c (Proc.devRef .tc main_arg0) := StableHlo.after_of_writes_sub hostOps1 _ hostOps1_writes (by decide)
    _ = Y1 m c (Proc.devRef .tc main_arg0) := Y2_of_ne m c main_arg0 (by decide)
    _ = Y0 m c (Proc.devRef .tc main_arg0) := StableHlo.after_of_writes_sub hostOps0 _ hostOps0_writes (by decide)
    _ = m ((c : Thread nD τ).loc main_arg0) := rfl

/-! ## The proof data family and the thread state -/

/-- Each region's proof data at its entry contents — a literal match on the region's number. -/
def pdats : (p : Fin 2) → (c : Dev nD) → Dat τ (Elt F) Unit ℕ (UR sig nD τ) ℕ (Pipeline.pin (pcfgs (F := F)) adm p) c
  | ⟨0, _⟩ => fun c => dat0 (Z1 m) c
  | ⟨1, _⟩ => fun c => dat1 (Z3 m) c
abbrev 𝒱₀ : Variants := Variants.none
abbrev Lh : GSem nD τ sig → Finset Unit := fun _ => ∅
abbrev lvh : GSem nD τ sig → Unit → ℕ := fun _ _ => 0
/-- What rides beside the buffers through every segment: the generator register at some state and a core that owes nothing. -/
abbrev Rr (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tn (c : Dev nD) : sProp 𝕄 := iprop(StableHlo.held (c : Thread nD τ) (Pipeline.ucRefs τ sig) (Y4 m c) ∗ ∃ r, prngReg c r)

/-! ## The regions as segments -/

set_option backward.isDefEq.respectTransparency.types false in
/-- The statistics region over the thread state: its arrays split out of the unscoped buffers and put back at the exit
    contents; the generator register and the scoped buffers into its invariant and out. -/
def reg0 : Pipeline.RegionSeg (pcfgs (F := F)) adm (pdats m) () defs₀ 𝒱₀ Lh lvh 0 where
  win := launch0.win.to₀
  block_pos := launch0.block_pos
  stage_whole := launch0.stage_whole
  K := PEmpty
  osem k := k.elim
  ho := Pipeline.OwnSemFacts.none _
  hbody c := (body_obligation0 (Z1 m) c).loose
  hwaits := Pipeline.hwaits_of_owed_zero _ _ _ _ Lh lvh 0 fun _ _ => rfl
  pre c := iprop(StableHlo.held (c : Thread nD τ) (Pipeline.ucRefs τ sig) (Y1 m c) ∗ Rr c)
  post c := iprop(StableHlo.held (c : Thread nD τ) (Pipeline.ucRefs τ sig) (Y2 m c) ∗ Rr c)
  X c := iprop(∃ r, prngReg c r)
  Y c := iprop(∃ r, prngReg c r)
  Z c := Pipeline.unscopedRest (Ix := Unit) (Name := ℕ) (U := UR sig nD τ) (Lvl := ℕ) spec0 c (Z1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Z1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (Z1 m) c)
    unfold Pipeline.ΦA
    iintro ⟨Hp, -, Hr⟩
    isplitl [Hr]; · iexact Hr
    iexact Hp
  hout c := by
    rw [Pipeline.ownSems0_none]
    refine (hout0 (Z1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Z1 m c) (Z2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region over the thread state, the class's invariant throughout. -/
def reg1 : Pipeline.RegionSeg (pcfgs (F := F)) adm (pdats m) () defs₀ 𝒱₀ Lh lvh 1 where
  win := launch1.win.to₀
  block_pos := launch1.block_pos
  stage_whole := launch1.stage_whole
  K := PEmpty
  osem k := k.elim
  ho := Pipeline.OwnSemFacts.none _
  hbody c := (body_obligation1 (Z3 m) c).loose
  hwaits := Pipeline.hwaits_of_owed_zero _ _ _ _ Lh lvh 1 fun _ _ => rfl
  pre c := iprop(StableHlo.held (c : Thread nD τ) (Pipeline.ucRefs τ sig) (Y3 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Z3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Z3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Z3 m c) (Z4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev hsegs : List (Pipeline.Seg (pcfgs (F := F)) adm (pdats m) () defs₀ 𝒱₀ Lh lvh) :=
  [ .host (hseg hostOps0 hostOps0_sub hostOps0_fresh (Y0 m)),
    .region (reg0 m),
    .host (hseg hostOps1 hostOps1_sub hostOps1_fresh (Y2 m)),
    .region (reg1 m) ]

theorem main_run (c : Dev nD) : main (F := F) c = Pipeline.Seg.run (hsegs m) := (main_chain c).trans (by chain_rfl)

set_option backward.isDefEq.respectTransparency.types false in
/-- THE RUN. From any memory with zero counters every weakly fair execution of the program terminates, nothing
    faulting, and every final state has the result array at what the second region's write-backs leave in it and the
    seven argument arrays as launched. -/
theorem run : θ_run defs (onTc (τ := τ) (main (F := F))) ⟨m, fun _ => 0, ρ⟩ (fun r => ∀ c : Dev nD,
      r.2.mem ((c.tc : Thread nD τ).loc main_v35) = (dat1 (Z3 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ Lh lvh m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Y0 m c) ∗ Rr c)) (Tₙ := Tn m)
    (hch := ⟨fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Y0 m c)
        from Pipeline.unscopedBufs_held c (Y0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y4 m c b)
    (hfin := fun c s' => by
      iintro ⟨⟨Hh, -⟩, HSI⟩
      unfold StableHlo.held
      imodintro
      iapply (pointsTo_read_all (Pipeline.ucRefs τ sig) (fun b => (((c : Thread nD τ)).1, b)) (Y4 m c) s')
      isplitl [Hh] <;> iassumption)
    (hQ := fun s h c =>
      ⟨(h c _ (mem_uc main_v35 (by decide))).trans (Y4_arr m c 8),
       (h c _ (mem_uc main_arg0 (by decide))).trans (Y4_main_arg0 m c),
       (h c _ (mem_uc main_arg1 (by decide))).trans (Y4_untouched m c main_arg1 (by decide) (by decide) (by decide) (by decide)),
       (h c _ (mem_uc main_arg2 (by decide))).trans (Y4_untouched m c main_arg2 (by decide) (by decide) (by decide) (by decide)),
       (h c _ (mem_uc main_arg3 (by decide))).trans (Y4_untouched m c main_arg3 (by decide) (by decide) (by decide) (by decide)),
       (h c _ (mem_uc main_arg4 (by decide))).trans (Y4_untouched m c main_arg4 (by decide) (by decide) (by decide) (by decide)),
       (h c _ (mem_uc main_arg5 (by decide))).trans (Y4_untouched m c main_arg5 (by decide) (by decide) (by decide) (by decide)),
       (h c _ (mem_uc main_arg6 (by decide))).trans (Y4_untouched m c main_arg6 (by decide) (by decide) (by decide) (by decide))⟩)

end Cert.Kernel.Hand

end
-- ==== Proof.StatsRunI.lean ====
/-
  The first kernel region (the statistics pass): the body's branch conditions over its grid, where its two output
  windows are idle, and the body run once per case.
  The grid is 2 × 10: point t has coordinates (t / 10, t % 10); half c of the rows (50000 of them, ten blocks of 5000)
  is summed by the ten points with first coordinate c.  At every point the body loads the staged block of aggregated
  rows, the weights and the bias, forms y = agg · Wᵀ + b on the block, and adds the block's column sums of y and of y²
  to two one-row accumulators kept in scratch memory from point to point.  Under the first condition (second
  coordinate 0) it first clears both accumulators; under the second (second coordinate 9) it afterwards copies them
  into the two output blocks, which are written back there and only there.  So three cases occur: a half's first
  point (A), a middle point (B), a half's last point (C).  Each case's run, by the symbolic executor over the body's
  skeleton, finds as its witness the pieces each stored buffer ends with.
-/
import proofs.«155481_j76647986365164_2_alg».proof.Proof.Gen.KernelIdeal.Launch
import proofs.«155481_j76647986365164_2_alg».proof.Proof.Gen.KernelIdeal.Skeleton
import proofs.«155481_j76647986365164_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first condition (clear the accumulators), from the grid coordinates. -/
abbrev cond0_0 (i : grid0.Coords) : Prop := (Scalar.cmpi .ne (Scalar.extui (Scalar.cmpi .eq (BitVec.ofNat 32 (i 1).val) 0#32)) 0#32) = 1#1
/-- It holds at the first point of each half. -/
theorem hcond0_0 : ∀ t : Fin cfg0.N, cond0_0 (grid0.coords t) ↔ t.val % 10 = 0 :=
  (by decide +kernel : ∀ t : Fin grid0.N, cond0_0 (grid0.coords t) ↔ t.val % 10 = 0)

/-- The second condition (store the accumulators into the output blocks). -/
abbrev cond0_1 (i : grid0.Coords) : Prop := k0_cond2 i = 1#1
/-- It holds at the last point of each half. -/
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a half's last point the two outputs are idle and are not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a half's last point they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The body, case by case -/

set_option maxHeartbeats 1000000 in
/-- Case A (a half's first point): from the inputs' blocks `x·`, the idle outputs at `xi·` and the accumulators at
    anything, the body returns the inputs and the idle outputs untouched and each accumulator with the pieces `LS·`
    written: the cleared accumulator plus this block's column sums. -/
noncomputable def kernelRun0_A (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .bf16) (x1 : Vec F S128x128 .bf16) (x2 : Vec F S1x128 .f32) :
    Σ' (LS0 : List (View.Piece (Elt F) S1x128 .f32)), { LS1 : List (View.Piece (Elt F) S1x128 .f32) //
      ∀ (xi3 xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 1000000 in
/-- Case B (a middle point): as case A, but the accumulators come in at what the point before left (`xs·`) and go
    out with this block's column sums added. -/
noncomputable def kernelRun0_B (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .bf16) (x1 : Vec F S128x128 .bf16) (x2 : Vec F S1x128 .f32) (xs0 xs1 : Vec F S1x128 .f32) :
    Σ' (LS0 : List (View.Piece (Elt F) S1x128 .f32)), { LS1 : List (View.Piece (Elt F) S1x128 .f32) //
      ∀ (xi3 xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 1000000 in
/-- Case C (a half's last point): the accumulators come in at `xs·`, go out with this block's column sums added, and
    the two output blocks (at anything before) end with the pieces `L·` written: the accumulators' new contents. -/
noncomputable def kernelRun0_C (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .bf16) (x1 : Vec F S128x128 .bf16) (x2 : Vec F S1x128 .f32) (xs0 xs1 : Vec F S1x128 .f32) :
    Σ' (L3 : List (View.Piece (Elt F) S1x1x128 .f32)) (L4 : List (View.Piece (Elt F) S1x1x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.StatsI.lean ====
/-
  The first kernel region (the statistics pass), at any contents `V` of the buffers when the region is entered: what
  each case of the body leaves in the buffers it stores, what the two accumulators and the two output blocks hold after
  each point (a recursion on the point: a half's first point starts from cleared accumulators, every other point from
  what the point before left), the region's invariant (before the first point the scoped buffers at anything; from
  then on the two accumulators at exactly those contents, the other scoped buffers still at anything, and the
  generator register), the proof data and the body obligation, case by case.
-/
import proofs.«155481_j76647986365164_2_alg».proof.Proof.StatsRunI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or kept from an earlier point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or kept from an earlier point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or kept from an earlier point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The memrefs the body is called with -/

abbrev ms0_0 (t : Fin cfg0.N) : Memref sig .tc .vmem S5000x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view
/-- One staging buffer of each output window, through which its contents are stated. -/
abbrev VO0_3 : View sig .tc .vmem S1x1x128 .f32 := (Memref.whole cc0_stg3_0 : Memref sig .tc .vmem S1x1x128 .f32).view
abbrev VO0_4 : View sig .tc .vmem S1x1x128 .f32 := (Memref.whole cc0_stg4_0 : Memref sig .tc .vmem S1x1x128 .f32).view

/-! ## The scoped buffers the region does not stage -/

/-- A scoped buffer held whole at some contents. -/
abbrev exb (c : Dev nD) (b : Ref sig .tc) : sProp 𝕄 :=
  iprop(∃ f : Buf (Elt F) ((c : Thread nD τ).loc b), ((c : Thread nD τ).loc b) ↦{fullShare} f)

/-- The other region's twelve staging buffers: scoped, touched by nothing here. -/
def restT (c : Dev nD) : sProp 𝕄 :=
  iprop(exb c cc1_stg0_0 ∗ exb c cc1_stg0_1 ∗ exb c cc1_stg1_0 ∗ exb c cc1_stg1_1 ∗ exb c cc1_stg2_0 ∗ exb c cc1_stg3_0 ∗ exb c cc1_stg4_0
    ∗ exb c cc1_stg5_0 ∗ exb c cc1_stg6_0 ∗ exb c cc1_stg7_0 ∗ exb c cc1_stg8_0 ∗ exb c cc1_stg8_1)

/-- The class's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restT c) ∗ (∃ r, prngReg c r)) := by
  unfold Pipeline.ΦA restT; rw [scopedRest0_eq]; simp only [scM0_0, scM0_1, owns_whole]; try rfl

/-! ## What each case leaves -/

/-- Case A's pieces for the first accumulator tile it, so they cover it. -/
theorem scover0_A_0 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .bf16) (x1 : Vec F S128x128 .bf16) (x2 : Vec F S1x128 .f32)  (y : S1x128.Idx) :
    ∃ pc ∈ (kernelRun0_A c i arg2 harg2 arg3 harg3 arg4 harg4 arg5 harg5 arg6 harg6 arg7 harg7 arg8 harg8 hc0 hc1 x0 x1 x2 ).1, y ∈ pc.1.set :=
  View.cover_of_tiledL (kernelRun0_A c i arg2 harg2 arg3 harg3 arg4 harg4 arg5 harg5 arg6 harg6 arg7 harg7 arg8 harg8 hc0 hc1 x0 x1 x2 ).1 S1x128.size (by sl_kernel_rfl) y

/-- What case A leaves in the first accumulator: its pieces read back. -/
def sout0_A_0 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .bf16) (x1 : Vec F S128x128 .bf16) (x2 : Vec F S1x128 .f32)  : Vec F S1x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 ).1)

/-- Case A's pieces for the second accumulator tile it, so they cover it. -/
theorem scover0_A_1 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .bf16) (x1 : Vec F S128x128 .bf16) (x2 : Vec F S1x128 .f32)  (y : S1x128.Idx) :
    ∃ pc ∈ (kernelRun0_A c i arg2 harg2 arg3 harg3 arg4 harg4 arg5 harg5 arg6 harg6 arg7 harg7 arg8 harg8 hc0 hc1 x0 x1 x2 ).2.1, y ∈ pc.1.set :=
  View.cover_of_tiledL (kernelRun0_A c i arg2 harg2 arg3 harg3 arg4 harg4 arg5 harg5 arg6 harg6 arg7 harg7 arg8 harg8 hc0 hc1 x0 x1 x2 ).2.1 S1x128.size (by sl_kernel_rfl) y

/-- What case A leaves in the second accumulator: its pieces read back. -/
def sout0_A_1 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .bf16) (x1 : Vec F S128x128 .bf16) (x2 : Vec F S1x128 .f32)  : Vec F S1x128 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 ).2.1)

/-- Case B's pieces for the first accumulator tile it, so they cover it. -/
theorem scover0_B_0 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .bf16) (x1 : Vec F S128x128 .bf16) (x2 : Vec F S1x128 .f32) (xs0 xs1 : Vec F S1x128 .f32) (y : S1x128.Idx) :
    ∃ pc ∈ (kernelRun0_B c i arg2 harg2 arg3 harg3 arg4 harg4 arg5 harg5 arg6 harg6 arg7 harg7 arg8 harg8 hc0 hc1 x0 x1 x2 xs0 xs1).1, y ∈ pc.1.set :=
  View.cover_of_tiledL (kernelRun0_B c i arg2 harg2 arg3 harg3 arg4 harg4 arg5 harg5 arg6 harg6 arg7 harg7 arg8 harg8 hc0 hc1 x0 x1 x2 xs0 xs1).1 S1x128.size (by sl_kernel_rfl) y

/-- What case B leaves in the first accumulator: its pieces read back. -/
def sout0_B_0 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .bf16) (x1 : Vec F S128x128 .bf16) (x2 : Vec F S1x128 .f32) (xs0 xs1 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).1)

/-- Case B's pieces for the second accumulator tile it, so they cover it. -/
theorem scover0_B_1 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .bf16) (x1 : Vec F S128x128 .bf16) (x2 : Vec F S1x128 .f32) (xs0 xs1 : Vec F S1x128 .f32) (y : S1x128.Idx) :
    ∃ pc ∈ (kernelRun0_B c i arg2 harg2 arg3 harg3 arg4 harg4 arg5 harg5 arg6 harg6 arg7 harg7 arg8 harg8 hc0 hc1 x0 x1 x2 xs0 xs1).2.1, y ∈ pc.1.set :=
  View.cover_of_tiledL (kernelRun0_B c i arg2 harg2 arg3 harg3 arg4 harg4 arg5 harg5 arg6 harg6 arg7 harg7 arg8 harg8 hc0 hc1 x0 x1 x2 xs0 xs1).2.1 S1x128.size (by sl_kernel_rfl) y

/-- What case B leaves in the second accumulator: its pieces read back. -/
def sout0_B_1 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .bf16) (x1 : Vec F S128x128 .bf16) (x2 : Vec F S1x128 .f32) (xs0 xs1 : Vec F S1x128 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.1)

/-- Case C's pieces for the first output block tile it, so they cover it. -/
theorem cover0_C_3 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) (y : S1x1x128.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1x1x128.size (by sl_kernel_rfl) y

/-- What case C leaves in the first output block: its pieces read back. -/
def out0_C_3 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) : Vec F S1x1x128 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

/-- Case C's pieces for the second output block tile it, so they cover it. -/
theorem cover0_C_4 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) (y : S1x1x128.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1x1x128.size (by sl_kernel_rfl) y

/-- What case C leaves in the second output block: its pieces read back. -/
def out0_C_4 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) : Vec F S1x1x128 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- Case C's pieces for the first accumulator tile it, so they cover it. -/
theorem scover0_C_0 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) (y : S1x128.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S1x128.size (by sl_kernel_rfl) y

/-- What case C leaves in the first accumulator: its pieces read back. -/
def sout0_C_0 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) : Vec F S1x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

/-- Case C's pieces for the second accumulator tile it, so they cover it. -/
theorem scover0_C_1 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) (y : S1x128.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S1x128.size (by sl_kernel_rfl) y

/-- What case C leaves in the second accumulator: its pieces read back. -/
def sout0_C_1 (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) : Vec F S1x128 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-! ## The case a point is in -/

theorem cA0 (t : Fin cfg0.N) (h0 : t.val % 10 = 0) : cond0_0 (grid0.coords t) := (hcond0_0 t).mpr h0
theorem cA1 (t : Fin cfg0.N) (h0 : t.val % 10 = 0) : ¬cond0_1 (grid0.coords t) := fun h => by
  have h9 : t.val % 10 = 9 := (hcond0_1 t).mp h
  omega
theorem cB0 (t : Fin cfg0.N) (h0 : ¬t.val % 10 = 0) : ¬cond0_0 (grid0.coords t) := fun h => h0 ((hcond0_0 t).mp h)
theorem cB1 (t : Fin cfg0.N) (h1 : ¬t.val % 10 = 9) : ¬cond0_1 (grid0.coords t) := fun h => h1 ((hcond0_1 t).mp h)
theorem cC1 (t : Fin cfg0.N) (h1 : t.val % 10 = 9) : cond0_1 (grid0.coords t) := (hcond0_1 t).mpr h1

/-! ## What the buffers hold after each point -/

/-- The two output blocks and the two accumulators, in this order. -/
abbrev Outs0 (F : FTy → Type) [FloatOps F] : Type := Vec F S1x1x128 .f32 × Vec F S1x1x128 .f32 × Vec F S1x128 .f32 × Vec F S1x128 .f32

/-- A placeholder for an output block at a point where it is idle: nothing consults it (the block is neither
    written back there nor read at the next point). -/
def idle3 : Vec F S1x1x128 .f32 := VO0_3.read (Elt F) VO0_3.junk
def idle4 : Vec F S1x1x128 .f32 := VO0_4.read (Elt F) VO0_4.junk

def caseA (c : Dev nD) (t : Fin cfg0.N) (h0 : t.val % 10 = 0) : Outs0 F :=
  (idle3, idle4,
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cA0 t h0) (cA1 t h0) (iblk0 V c 0 t) (iblk0 V c 1 t) (iblk0 V c 2 t),
   sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cA0 t h0) (cA1 t h0) (iblk0 V c 0 t) (iblk0 V c 1 t) (iblk0 V c 2 t))

def caseB (c : Dev nD) (t : Fin cfg0.N) (h0 : ¬t.val % 10 = 0) (h1 : ¬t.val % 10 = 9) (s0 s1 : Vec F S1x128 .f32) : Outs0 F :=
  (idle3, idle4,
   sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cB1 t h1) (iblk0 V c 0 t) (iblk0 V c 1 t) (iblk0 V c 2 t) s0 s1,
   sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cB1 t h1) (iblk0 V c 0 t) (iblk0 V c 1 t) (iblk0 V c 2 t) s0 s1)

def caseC (c : Dev nD) (t : Fin cfg0.N) (h0 : ¬t.val % 10 = 0) (h1 : t.val % 10 = 9) (s0 s1 : Vec F S1x128 .f32) : Outs0 F :=
  (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (iblk0 V c 0 t) (iblk0 V c 1 t) (iblk0 V c 2 t) s0 s1,
   out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (iblk0 V c 0 t) (iblk0 V c 1 t) (iblk0 V c 2 t) s0 s1,
   sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (iblk0 V c 0 t) (iblk0 V c 1 t) (iblk0 V c 2 t) s0 s1,
   sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (iblk0 V c 0 t) (iblk0 V c 1 t) (iblk0 V c 2 t) s0 s1)

/-- THE ACCUMULATION: what the output blocks and the accumulators hold after the body at position `n`. -/
def outsAt0 (c : Dev nD) : (n : ℕ) → n < cfg0.N → Outs0 F
  | 0, hn => caseA V c ⟨0, hn⟩ (Nat.zero_mod _)
  | n + 1, hn =>
    if h0 : (n + 1) % 10 = 0 then caseA V c ⟨n + 1, hn⟩ h0
    else if h1 : (n + 1) % 10 = 9 then
      caseC V c ⟨n + 1, hn⟩ h0 h1 (outsAt0 c n (Nat.lt_of_succ_lt hn)).2.2.1 (outsAt0 c n (Nat.lt_of_succ_lt hn)).2.2.2
    else
      caseB V c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 10 = 0) : outsAt0 V c t.val t.isLt = caseA V c t h0 := by
  obtain ⟨n, hn⟩ := t
  cases n with
  | zero => rfl
  | succ n => exact dif_pos h0

theorem outsAt0_B (c : Dev nD) (t : Fin cfg0.N) (h0 : ¬t.val % 10 = 0) (h1 : ¬t.val % 10 = 9) :
    outsAt0 V c t.val t.isLt = caseB V c t h0 h1 (outsAt0 V c (t.val - 1) (Nat.lt_of_le_of_lt (Nat.sub_le _ _) t.isLt)).2.2.1
      (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 10 = 0) (h1 : t.val % 10 = 9) :
    outsAt0 V c t.val t.isLt = caseC V c t h0 h1 (outsAt0 V c (t.val - 1) (Nat.lt_of_le_of_lt (Nat.sub_le _ _) t.isLt)).2.2.1
      (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The region's invariant -/

/-- Before position `n`: at the first point the class's invariant (every scoped buffer at anything); afterwards the two
    accumulators at what the point before left, the other scoped buffers at anything, the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restT c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restT c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restT c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

/-- The three inputs' posts are their buffers at their blocks (the windows are never idle). -/
theorem leaves_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t) := by
  refine ⟨?_, ?_, ?_⟩
  · unfold Dat.leavesExact; rw [liveAt0_0 t, after0_0]
  · unfold Dat.leavesExact; rw [liveAt0_1 t, after0_1]
  · unfold Dat.leavesExact; rw [liveAt0_2 t, after0_2]

set_option maxHeartbeats 4800000 in
/-- The body at any point: the inputs' buffers hold their blocks; the point's position in its half says which case it
    is in; the invariant hands the body the accumulators at what the point before left (at anything at the very first
    point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [(leaves_in V c t).1, (leaves_in V c t).2.1, (leaves_in V c t).2.2]
  have hN : t.val < 20 := lt_of_lt_of_eq t.isLt (show cfg0.N = 20 from N_0)
  by_cases h0 : t.val % 10 = 0
  · -- a half's first point
    rw [Dat.leavesExact_idle (dat0 V c) 3 t (idleAt0_3 t (cA1 t h0)) (noFlush0_3 t (cA1 t h0)),
      Dat.leavesExact_idle (dat0 V c) 4 t (idleAt0_4 t (cA1 t h0)) (noFlush0_4 t (cA1 t h0))]
    rw [outsAt0_A V c t h0]
    unfold caseA sout0_A_0 sout0_A_1; (try dsimp only)
    by_cases hz : t.val = 0
    · rw [PhiS_castSucc V c t, PhiS_zero V c _ _ hz, PhiA0_eq]
      iintro ⟨⟨⟨HS0, HS1, HT⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ (cA0 t h0) (cA1 t h0) (iblk0 V c 0 t) (iblk0 V c 1 t) (iblk0 V c 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HT Hg]
      · isplitl [HS0 HS1 HT]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          iexact HT
        iexact Hg
      isplitl [Ho]; · iexact Ho
      isplitl [H0]; · iexact H0
      isplitl [H1]; · iexact H1
      isplitl [H2]; · iexact H2
      isplitl [H3]; · iexists _; iexact H3
      iexists _; iexact H4
    · rw [PhiS_castSucc V c t, PhiS_pos V c _ _ hz]
      iintro ⟨⟨⟨HS0, HS1, HT⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ (cA0 t h0) (cA1 t h0) (iblk0 V c 0 t) (iblk0 V c 1 t) (iblk0 V c 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HT Hg]
      · isplitl [HS0 HS1 HT]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          iexact HT
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 10 = 9
    · -- a half's last point
      rw [show (dat0 V c).leavesExact 3 t = owns (c : Thread nD τ) (ms0_3 t) fullShare ((dat0 V c).after 3 t) from by
        unfold Dat.leavesExact; rw [liveAt0_3 t (cC1 t h1)], after0_3]
      rw [show (dat0 V c).leavesExact 4 t = owns (c : Thread nD τ) (ms0_4 t) fullShare ((dat0 V c).after 4 t) from by
        unfold Dat.leavesExact; rw [liveAt0_4 t (cC1 t h1)], after0_4]
      rw [outsAt0_C V c t h0 h1]
      unfold caseC out0_C_3 out0_C_4 sout0_C_0 sout0_C_1; (try dsimp only)
      rw [PhiS_castSucc V c t, PhiS_pos V c _ _ hz]
      iintro ⟨⟨⟨HS0, HS1, HT⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (cB0 t h0) (cC1 t h1) (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HT Hg]
      · isplitl [HS0 HS1 HT]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _)
          iexact HT
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · -- a middle point
      rw [Dat.leavesExact_idle (dat0 V c) 3 t (idleAt0_3 t (cB1 t h1)) (noFlush0_3 t (cB1 t h1)),
        Dat.leavesExact_idle (dat0 V c) 4 t (idleAt0_4 t (cB1 t h1)) (noFlush0_4 t (cB1 t h1))]
      rw [outsAt0_B V c t h0 h1]
      unfold caseB sout0_B_0 sout0_B_1; (try dsimp only)
      rw [PhiS_castSucc V c t, PhiS_pos V c _ _ hz]
      iintro ⟨⟨⟨HS0, HS1, HT⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (cB0 t h0) (cB1 t h1) (iblk0 V c 0 t) (iblk0 V c 1 t) (iblk0 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HT Hg]
      · isplitl [HS0 HS1 HT]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact HT
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA0_eq]
  iintro ⟨⟨HS0, HS1, HT⟩, Hg⟩
  isplitl [HS0 HS1 HT]
  · isplitl [HS0]; · iexists _; iexact HS0
    isplitl [HS1]; · iexists _; iexact HS1
    iexact HT
  iexact Hg

end Cert.KernelIdeal.Hand

end
-- ==== Proof.ApplyI.lean ====
/-
  The second kernel region (the normalising pass), at any contents `V` of the buffers when the region is entered.
  Its grid has 20 points; point t stages rows [5000 t, 5000 t + 5000) of the aggregated features (window 0) and of the
  input features (window 1), the whole weight table (window 2) and the five one-row tables: bias, mean, variance,
  scale, shift (windows 3-7); the body loads all eight blocks, computes in one pure term
      x + max(((agg · Wᵀ + b − mean) · rsqrt(var + ε)) · γ + β, 0)
  over the block and stores it whole into the output block (window 8), which is written back at every point.
  Nothing is carried from one point to the next, so the region's invariant is the class's own (the scoped buffers no
  window stages, at any contents, and the generator register).  Stated here: each window's block at a point as the
  region finds it, what the body leaves in the output block as a function of the eight input blocks, the body's
  triple (run by the symbolic executor over the body's skeleton), the proof data and the body obligation.
-/
import proofs.«155481_j76647986365164_2_alg».proof.Proof.Gen.KernelIdeal.Launch
import proofs.«155481_j76647986365164_2_alg».proof.Proof.Gen.KernelIdeal.Skeleton
import proofs.«155481_j76647986365164_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it was fetched there or stays from
    an earlier point (its block index has not moved since), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether it was fetched there or stays from
    an earlier point (its block index has not moved since), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether it was fetched there or stays from
    an earlier point (its block index has not moved since), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether it was fetched there or stays from
    an earlier point (its block index has not moved since), for any proof data over `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether it was fetched there or stays from
    an earlier point (its block index has not moved since), for any proof data over `V` whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether it was fetched there or stays from
    an earlier point (its block index has not moved since), for any proof data over `V` whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether it was fetched there or stays from
    an earlier point (its block index has not moved since), for any proof data over `V` whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether it was fetched there or stays from
    an earlier point (its block index has not moved since), for any proof data over `V` whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The whole-block rectangles the body's loads and its one store go through. -/
abbrev rT : Rect S5000x128 := Rect.unit (s := S5000x128) ![0, 0] S5000x128.size inb_S5000x128_S5000x128_0_0
abbrev rW : Rect S128x128 := Rect.unit (s := S128x128) ![0, 0] S128x128.size inb_S128x128_S128x128_0_0
abbrev rR : Rect S1x128 := Rect.unit (s := S1x128) ![0, 0] S1x128.size inb_S1x128_S1x128_0_0

/-- The output block after the body, from the eight input blocks: its one store, of the body's pure term over what
    the loads return (the loads in the body's order: aggregated rows, weights, bias, variance, mean, scale, shift,
    feature rows). -/
def out1_8 (x0 : Vec F S5000x128 .bf16) (x1 : Vec F S5000x128 .f32) (x2 : Vec F S128x128 .bf16) (x3 x4 x5 x6 x7 : Vec F S1x128 .f32) :
    Vec F S5000x128 .f32 :=
  View.canon [⟨rT, k1_pay1 (View.ld x0 rT) (View.ld x2 rW) (View.ld x3 rR) (View.ld x5 rR) (View.ld x4 rR) (View.ld x6 rR) (View.ld x7 rR) (View.ld x1 rT)⟩]

/-- That one store is of the whole block, so it covers it. -/
theorem cover1_8 (p0 : Vec F S5000x128 .f32) (y : S5000x128.Idx) :
    ∃ pc ∈ ([⟨rT, p0⟩] : List (View.Piece (Elt F) S5000x128 .f32)), y ∈ pc.1.set :=
  View.cover_of_tiled [⟨rT, p0⟩] S5000x128.size (by rfl) y

/-! ## The body's triple -/

set_option maxHeartbeats 1000000 in
/-- On whole staging memrefs, the inputs' at contents `x·` and the output's at anything, the body runs to its return
    with the inputs' as they were and the output's at `out1_8` of them. -/
theorem sound_kernel1 (c : Dev nD) (E : Set ℕ) (i : grid1.Coords)
    (arg1 : Memref sig .tc .vmem S5000x128 .bf16) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S5000x128 .f32) (harg9 : arg9.IsWhole)
    (x0 : Vec F S5000x128 .bf16) (x1 : Vec F S5000x128 .f32) (x2 : Vec F S128x128 .bf16) (x3 x4 x5 x6 x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E (cc1__apply_kernel i arg1 harg1 arg2 harg2 arg3 harg3 arg4 harg4 arg5 harg5 arg6 harg6 arg7 harg7 arg8 harg8 arg9 harg9) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The proof data -/

/-- The proof data of the region on core `c`: the arrays as the region finds them; after the body at point `t` each
    input's buffer at its block and the output's at `out1_8` of the input blocks; the class's invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunI.lean ====
/-
  The whole program's run: host operations, the statistics region, host operations, the normalising region.
  The buffers' contents at the five boundaries are a fold from the launch memory: each host stretch applies its
  operations; each region leaves its windows' arrays at what its write-backs make of them and every other buffer as
  it found it.  Each region is entered with every unscoped buffer at the boundary's contents beside the generator
  register and a core that owes nothing, and is left the same way at the next boundary's contents; the statistics
  region's invariant is its own (the accumulators' contents, point by point), entered from and left at the class's.
  Read off the last boundary: the seven argument arrays hold what they held at launch (no host operation writes one,
  no region stores into one), and the result array holds what the second region's write-backs leave in it.
-/
import proofs.«155481_j76647986365164_2_alg».proof.Proof.StatsI
import proofs.«155481_j76647986365164_2_alg».proof.Proof.ApplyI
import proofs.«155481_j76647986365164_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Y0 : Dev nD → Valuation τ sig (Elt F) := fun c b => m ((c : Dev nD), b)
/-- After the first host stretch: the first region's entry. -/
abbrev Y1 : Dev nD → Valuation τ sig (Elt F) := fun c => StableHlo.after hostOps0 (Y0 m c)
abbrev Z1 : (c : Dev nD) → (b : Ref sig .tc) → Buf (Elt F) ((c : Thread nD τ).loc b) := fun c b => Y1 m c b
/-- At the first region's exit: its arrays at what the pipeline leaves, every other buffer as entered. -/
def Y2 (c : Dev nD) : Valuation τ sig (Elt F) :=
  Pipeline.withArrays spec0 c (Y1 m c) fun w => (dat0 (Z1 m) c).arrAt w cfg0.N
theorem Y2_arr (c : Dev nD) (w : Fin cfg0.W) :
    Y2 m c (Proc.devRef .tc (Pipeline.arrRef spec0 w)) = (dat0 (Z1 m) c).arrAt w cfg0.N := by
  unfold Y2; exact Pipeline.withArrays_arr spec0 launch0.win.arr_inj c _ _ w
theorem Y2_of_ne (c : Dev nD) (b : Ref sig .tc) (hb : ∀ w, Pipeline.arrRef spec0 w ≠ b) :
    Y2 m c (Proc.devRef .tc b) = Y1 m c (Proc.devRef .tc b) := by
  unfold Y2; exact Pipeline.withArrays_of_ne spec0 c _ _ b hb
abbrev Z2 : (c : Dev nD) → (b : Ref sig .tc) → Buf (Elt F) ((c : Thread nD τ).loc b) := fun c b => Y2 m c b
theorem hF0 (c : Dev nD) (w : Fin cfg0.W) : (dat0 (Z1 m) c).arrAt w cfg0.N = Z2 m c (Pipeline.arrRef spec0 w) :=
  (Y2_arr m c w).symm
theorem hrest0 (c : Dev nD) : ∀ b, b ∉ Finset.univ.image (Pipeline.arrRef spec0) → Z2 m c b = Z1 m c b :=
  fun b hb => Y2_of_ne m c b fun w e => hb (Finset.mem_image.mpr ⟨w, Finset.mem_univ _, e⟩)

/-- After the second host stretch: the second region's entry. -/
abbrev Y3 : Dev nD → Valuation τ sig (Elt F) := fun c => StableHlo.after hostOps1 (Y2 m c)
abbrev Z3 : (c : Dev nD) → (b : Ref sig .tc) → Buf (Elt F) ((c : Thread nD τ).loc b) := fun c b => Y3 m c b
/-- At the second region's exit. -/
def Y4 (c : Dev nD) : Valuation τ sig (Elt F) :=
  Pipeline.withArrays spec1 c (Y3 m c) fun w => (dat1 (Z3 m) c).arrAt w cfg1.N
theorem Y4_arr (c : Dev nD) (w : Fin cfg1.W) :
    Y4 m c (Proc.devRef .tc (Pipeline.arrRef spec1 w)) = (dat1 (Z3 m) c).arrAt w cfg1.N := by
  unfold Y4; exact Pipeline.withArrays_arr spec1 launch1.win.arr_inj c _ _ w
theorem Y4_of_ne (c : Dev nD) (b : Ref sig .tc) (hb : ∀ w, Pipeline.arrRef spec1 w ≠ b) :
    Y4 m c (Proc.devRef .tc b) = Y3 m c (Proc.devRef .tc b) := by
  unfold Y4; exact Pipeline.withArrays_of_ne spec1 c _ _ b hb
abbrev Z4 : (c : Dev nD) → (b : Ref sig .tc) → Buf (Elt F) ((c : Thread nD τ).loc b) := fun c b => Y4 m c b
theorem hF1 (c : Dev nD) (w : Fin cfg1.W) : (dat1 (Z3 m) c).arrAt w cfg1.N = Z4 m c (Pipeline.arrRef spec1 w) :=
  (Y4_arr m c w).symm
theorem hrest1 (c : Dev nD) : ∀ b, b ∉ Finset.univ.image (Pipeline.arrRef spec1) → Z4 m c b = Z3 m c b :=
  fun b hb => Y4_of_ne m c b fun w e => hb (Finset.mem_image.mpr ⟨w, Finset.mem_univ _, e⟩)

/-! ## The arguments end as launched -/

/-- A buffer no host operation writes and no region's window has as its array is at the end what it was at launch. -/
theorem Y4_untouched (c : Dev nD) (b : Ref sig .tc) (h0 : b ∉ hostOps0_W) (h1 : b ∉ hostOps1_W)
    (hw0 : ∀ w, Pipeline.arrRef spec0 w ≠ b) (hw1 : ∀ w, Pipeline.arrRef spec1 w ≠ b) :
    Y4 m c (Proc.devRef .tc b) = m ((c : Thread nD τ).loc b) :=
  calc Y4 m c (Proc.devRef .tc b)
    _ = Y3 m c (Proc.devRef .tc b) := Y4_of_ne m c b hw1
    _ = Y2 m c (Proc.devRef .tc b) := StableHlo.after_of_writes_sub hostOps1 _ hostOps1_writes h1
    _ = Y1 m c (Proc.devRef .tc b) := Y2_of_ne m c b hw0
    _ = Y0 m c (Proc.devRef .tc b) := StableHlo.after_of_writes_sub hostOps0 _ hostOps0_writes h0
    _ = m ((c : Thread nD τ).loc b) := rfl

/-- The input features are the second region's window 1, an input: its array ends as the region found it. -/
theorem Y4_main_arg0 (c : Dev nD) : Y4 m c (Proc.devRef .tc main_arg0) = m ((c : Thread nD τ).loc main_arg0) :=
  calc Y4 m c (Proc.devRef .tc main_arg0)
    _ = Y3 m c (Proc.devRef .tc main_arg0) := (Y4_arr m c 1).trans (((dat1 (Z3 m) c).arrAt_in 1 rfl _).trans (A_eq1 (Z3 m) c 1))
    _ = Y2 m c (Proc.devRef .tc main_arg0) := StableHlo.after_of_writes_sub hostOps1 _ hostOps1_writes (by decide)
    _ = Y1 m c (Proc.devRef .tc main_arg0) := Y2_of_ne m c main_arg0 (by decide)
    _ = Y0 m c (Proc.devRef .tc main_arg0) := StableHlo.after_of_writes_sub hostOps0 _ hostOps0_writes (by decide)
    _ = m ((c : Thread nD τ).loc main_arg0) := rfl

/-! ## The proof data family and the thread state -/

/-- Each region's proof data at its entry contents — a literal match on the region's number. -/
def pdats : (p : Fin 2) → (c : Dev nD) → Dat τ (Elt F) Unit ℕ (UR sig nD τ) ℕ (Pipeline.pin (pcfgs (F := F)) adm p) c
  | ⟨0, _⟩ => fun c => dat0 (Z1 m) c
  | ⟨1, _⟩ => fun c => dat1 (Z3 m) c
abbrev 𝒱₀ : Variants := Variants.none
abbrev Lh : GSem nD τ sig → Finset Unit := fun _ => ∅
abbrev lvh : GSem nD τ sig → Unit → ℕ := fun _ _ => 0
/-- What rides beside the buffers through every segment: the generator register at some state and a core that owes nothing. -/
abbrev Rr (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tn (c : Dev nD) : sProp 𝕄 := iprop(StableHlo.held (c : Thread nD τ) (Pipeline.ucRefs τ sig) (Y4 m c) ∗ ∃ r, prngReg c r)

/-! ## The regions as segments -/

set_option backward.isDefEq.respectTransparency.types false in
/-- The statistics region over the thread state: its arrays split out of the unscoped buffers and put back at the exit
    contents; the generator register and the scoped buffers into its invariant and out. -/
def reg0 : Pipeline.RegionSeg (pcfgs (F := F)) adm (pdats m) () defs₀ 𝒱₀ Lh lvh 0 where
  win := launch0.win.to₀
  block_pos := launch0.block_pos
  stage_whole := launch0.stage_whole
  K := PEmpty
  osem k := k.elim
  ho := Pipeline.OwnSemFacts.none _
  hbody c := (body_obligation0 (Z1 m) c).loose
  hwaits := Pipeline.hwaits_of_owed_zero _ _ _ _ Lh lvh 0 fun _ _ => rfl
  pre c := iprop(StableHlo.held (c : Thread nD τ) (Pipeline.ucRefs τ sig) (Y1 m c) ∗ Rr c)
  post c := iprop(StableHlo.held (c : Thread nD τ) (Pipeline.ucRefs τ sig) (Y2 m c) ∗ Rr c)
  X c := iprop(∃ r, prngReg c r)
  Y c := iprop(∃ r, prngReg c r)
  Z c := Pipeline.unscopedRest (Ix := Unit) (Name := ℕ) (U := UR sig nD τ) (Lvl := ℕ) spec0 c (Z1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Z1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (Z1 m) c)
    unfold Pipeline.ΦA
    iintro ⟨Hp, -, Hr⟩
    isplitl [Hr]; · iexact Hr
    iexact Hp
  hout c := by
    rw [Pipeline.ownSems0_none]
    refine (hout0 (Z1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Z1 m c) (Z2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region over the thread state, the class's invariant throughout. -/
def reg1 : Pipeline.RegionSeg (pcfgs (F := F)) adm (pdats m) () defs₀ 𝒱₀ Lh lvh 1 where
  win := launch1.win.to₀
  block_pos := launch1.block_pos
  stage_whole := launch1.stage_whole
  K := PEmpty
  osem k := k.elim
  ho := Pipeline.OwnSemFacts.none _
  hbody c := (body_obligation1 (Z3 m) c).loose
  hwaits := Pipeline.hwaits_of_owed_zero _ _ _ _ Lh lvh 1 fun _ _ => rfl
  pre c := iprop(StableHlo.held (c : Thread nD τ) (Pipeline.ucRefs τ sig) (Y3 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Z3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Z3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Z3 m c) (Z4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev hsegs : List (Pipeline.Seg (pcfgs (F := F)) adm (pdats m) () defs₀ 𝒱₀ Lh lvh) :=
  [ .host (hseg hostOps0 hostOps0_sub hostOps0_fresh (Y0 m)),
    .region (reg0 m),
    .host (hseg hostOps1 hostOps1_sub hostOps1_fresh (Y2 m)),
    .region (reg1 m) ]

theorem main_run (c : Dev nD) : main (F := F) c = Pipeline.Seg.run (hsegs m) := (main_chain c).trans (by chain_rfl)

set_option backward.isDefEq.respectTransparency.types false in
/-- THE RUN. From any memory with zero counters every weakly fair execution of the program terminates, nothing
    faulting, and every final state has the result array at what the second region's write-backs leave in it and the
    seven argument arrays as launched. -/
theorem run : θ_run defs (onTc (τ := τ) (main (F := F))) ⟨m, fun _ => 0, ρ⟩ (fun r => ∀ c : Dev nD,
      r.2.mem ((c.tc : Thread nD τ).loc main_v35) = (dat1 (Z3 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ Lh lvh m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Y0 m c) ∗ Rr c)) (Tₙ := Tn m)
    (hch := ⟨fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Y0 m c)
        from Pipeline.unscopedBufs_held c (Y0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y4 m c b)
    (hfin := fun c s' => by
      iintro ⟨⟨Hh, -⟩, HSI⟩
      unfold StableHlo.held
      imodintro
      iapply (pointsTo_read_all (Pipeline.ucRefs τ sig) (fun b => (((c : Thread nD τ)).1, b)) (Y4 m c) s')
      isplitl [Hh] <;> iassumption)
    (hQ := fun s h c =>
      ⟨(h c _ (mem_uc main_v35 (by decide))).trans (Y4_arr m c 8),
       (h c _ (mem_uc main_arg0 (by decide))).trans (Y4_main_arg0 m c),
       (h c _ (mem_uc main_arg1 (by decide))).trans (Y4_untouched m c main_arg1 (by decide) (by decide) (by decide) (by decide)),
       (h c _ (mem_uc main_arg2 (by decide))).trans (Y4_untouched m c main_arg2 (by decide) (by decide) (by decide) (by decide)),
       (h c _ (mem_uc main_arg3 (by decide))).trans (Y4_untouched m c main_arg3 (by decide) (by decide) (by decide) (by decide)),
       (h c _ (mem_uc main_arg4 (by decide))).trans (Y4_untouched m c main_arg4 (by decide) (by decide) (by decide) (by decide)),
       (h c _ (mem_uc main_arg5 (by decide))).trans (Y4_untouched m c main_arg5 (by decide) (by decide) (by decide) (by decide)),
       (h c _ (mem_uc main_arg6 (by decide))).trans (Y4_untouched m c main_arg6 (by decide) (by decide) (by decide) (by decide))⟩)

end Cert.KernelIdeal.Hand

end
-- ==== Proof.RefOps.lean ====
/-
  The reference program as a list of operations.

  The program is a straight line of tensor operations once its two outlined functions — the column variance (which
  itself calls the three-operation selection) and the rectifier — are unfolded at their calls over the calls' own
  buffers: seventy-eight operations, in order.
-/
import proofs.«155481_j76647986365164_2_alg».proof.ReferenceIdeal
import proofs.«155481_j76647986365164_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable [Cert.ReferenceIdeal.Facts]

section Program

variable {F : FTy → Type} [FloatOps F]

/-- @main's seventy-eight operations in order, the calls unfolded: the column variance is nineteen operations into
    its call's buffers followed by the selection's three (the fallback value converted to its own type, repeated
    along the columns, the select); the rectifier is three (the zero, its table, the maximum). -/
abbrev ops : List (HloOp τ sig (Elt F)) :=
  [ StableHlo.nullary main_cst (constant S_ .f32 0x3F800000#32),
    StableHlo.unary main_cst main_v0 (broadcastInDim S1000000 ![] bcast_S_S1000000 : (⟨S_, .f32⟩ : BufTy).Contents (Elt F) → (⟨S1000000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg2 main_v2 (broadcastInDim S1000000x1 ![0] bcast_S1000000_S1000000x1_0 : (⟨S1000000, .i32⟩ : BufTy).Contents (Elt F) → (⟨S1000000x1, .i32⟩ : BufTy).Contents (Elt F)),
    StableHlo.ternary main_v1 main_v2 main_v0 main_v3 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_arg1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_1 (constantI S_ 32 100000#32),
    StableHlo.unary main_c_1 main_v6 (broadcastInDim S1000000 ![] bcast_S_S1000000 : (⟨S_, .i32⟩ : BufTy).Contents (Elt F) → (⟨S1000000, .i32⟩ : BufTy).Contents (Elt F)),
    StableHlo.binary main_arg1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_arg1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.nullary main_cst_2 (constant S_ .f32 0x00000000#32),
    StableHlo.unary main_cst_2 main_v11 (broadcastInDim S100000x128 ![] bcast_S_S100000x128 : (⟨S_, .f32⟩ : BufTy).Contents (Elt F) → (⟨S100000x128, .f32⟩ : BufTy).Contents (Elt F)),
    StableHlo.unary main_arg2 main_v12 (broadcastInDim S1000000x1 ![0] bcast_S1000000_S1000000x1_0 : (⟨S1000000, .i32⟩ : BufTy).Contents (Elt F) → (⟨S1000000x1, .i32⟩ : BufTy).Contents (Elt F)),
    StableHlo.ternary main_v11 main_v12 main_v10 main_v13 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_3 (constant S_ .f32 0x3F800000#32),
    StableHlo.unary main_cst_3 main_v14 (broadcastInDim S100000 ![] bcast_S_S100000 : (⟨S_, .f32⟩ : BufTy).Contents (Elt F) → (⟨S100000, .f32⟩ : BufTy).Contents (Elt F)),
    StableHlo.binary main_v3 main_v14 main_v15 (maximumf : (⟨S100000, .f32⟩ : BufTy).Contents (Elt F) → (⟨S100000, .f32⟩ : BufTy).Contents (Elt F) → (⟨S100000, .f32⟩ : BufTy).Contents (Elt F)),
    StableHlo.unary main_v15 main_v16 (broadcastInDim S100000x1 ![0] bcast_S100000_S100000x1_0 : (⟨S100000, .f32⟩ : BufTy).Contents (Elt F) → (⟨S100000x1, .f32⟩ : BufTy).Contents (Elt F)),
    StableHlo.unary main_v16 main_v17 (broadcastInDim S100000x128 ![0, 1] bcast_S100000x1_S100000x128_0_1 : (⟨S100000x1, .f32⟩ : BufTy).Contents (Elt F) → (⟨S100000x128, .f32⟩ : BufTy).Contents (Elt F)),
    StableHlo.binary main_v13 main_v17 main_v18 (Host.divf : (⟨S100000x128, .f32⟩ : BufTy).Contents (Elt F) → (⟨S100000x128, .f32⟩ : BufTy).Contents (Elt F) → (⟨S100000x128, .f32⟩ : BufTy).Contents (Elt F)),
    StableHlo.unary main_arg3 main_v19 ((transpose S128x128 [1, 0] · transposes_S128x128_S128x128_1_0) : (⟨S128x128, .f32⟩ : BufTy).Contents (Elt F) → (⟨S128x128, .f32⟩ : BufTy).Contents (Elt F)),
    StableHlo.binary main_v18 main_v19 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x00000000#32),
    StableHlo.binary main_v23 main_cst_4 main_v24 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v25 (broadcastInDim S128 ![] bcast_S_S128 : (⟨S_, .f32⟩ : BufTy).Contents (Elt F) → (⟨S128, .f32⟩ : BufTy).Contents (Elt F)),
    StableHlo.binary main_v24 main_v25 main_v26 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call0.cst (constant S_ .f32 0x00000000#32),
    StableHlo.TRef.binary (.of main_v23) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v23) main_call0.v4 main_call0.v5 subf,
    StableHlo.TRef.binary main_call0.v5 main_call0.v5 main_call0.v6 mulf,
    StableHlo.TRef.unary (.of main_c_6) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v26 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v29 main_v30 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v31 (broadcastInDim S128 ![] bcast_S_S128 : (⟨S_, .f32⟩ : BufTy).Contents (Elt F) → (⟨S128, .f32⟩ : BufTy).Contents (Elt F)),
    StableHlo.binary main_v27 main_v31 main_v32 (addf : (⟨S128, .f32⟩ : BufTy).Contents (Elt F) → (⟨S128, .f32⟩ : BufTy).Contents (Elt F) → (⟨S128, .f32⟩ : BufTy).Contents (Elt F)),
    StableHlo.unary main_v32 main_v33 (Host.rsqrt : (⟨S128, .f32⟩ : BufTy).Contents (Elt F) → (⟨S128, .f32⟩ : BufTy).Contents (Elt F)),
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v35 main_v36 (mulf : (⟨S100000x128, .f32⟩ : BufTy).Contents (Elt F) → (⟨S100000x128, .f32⟩ : BufTy).Contents (Elt F) → (⟨S100000x128, .f32⟩ : BufTy).Contents (Elt F)),
    StableHlo.unary main_arg5 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (mulf : (⟨S100000x128, .f32⟩ : BufTy).Contents (Elt F) → (⟨S100000x128, .f32⟩ : BufTy).Contents (Elt F) → (⟨S100000x128, .f32⟩ : BufTy).Contents (Elt F)),
    StableHlo.unary main_arg6 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v42) main_call1.v0 main_call1.v1 maximumf,
    StableHlo.binary main_arg0 main_v43 main_v44 (addf : (⟨S100000x128, .f32⟩ : BufTy).Contents (Elt F) → (⟨S100000x128, .f32⟩ : BufTy).Contents (Elt F) → (⟨S100000x128, .f32⟩ : BufTy).Contents (Elt F)) ]

/-- @main is that straight line: the functions' definitions unfolded at their calls and the records at their fields,
    both sides are one chain of steps once sequencing is re-associated. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., unary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..⟩

end Program

end Cert.ReferenceIdeal.RefRun

end
-- ==== Proof.RefRun.lean ====
/-
  The reference program's run, written out.

  The program is a straight line of tensor operations once its two outlined functions — the column variance (which
  itself calls the three-operation selection) and the rectifier — are unfolded at their calls over the calls' own
  buffers: seventy-eight operations. Every weakly fair execution terminates, the result buffer holds the operations'
  composed term of the arguments' launch contents, and the arguments are unchanged.

  The composed term is stated in stages, each a function of the stage before:
    aggTerm   the table of neighbourhood means (two scatter-additions over the edges, a gather, a maximum, a quotient);
    linTerm   its product with the transposed weights, plus the bias laid along the rows;
    meanTerm  the column means of that;
    varTerm   the column variances (the count 100000 − 0 compared with zero selects the quotient);
    normTerm  centred, scaled by the reciprocal root of variance plus ε, times gamma, plus beta;
    tail      the input plus the rectified normalised table.
-/
import proofs.«155481_j76647986365164_2_alg».proof.Proof.RefOps
import Idealize.ShloMosaic.Lib.StableHlo.Run
import Idealize.ShloMosaic.PureOps.Ideal

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable [Cert.ReferenceIdeal.Facts]

/-! ## The composed term, in stages -/

/-- A per-column vector laid along every row of the table. -/
def rows (v : FVec Ideal S128 .f32) : FVec Ideal S100000x128 .f32 :=
  broadcastInDim S100000x128 ![0, 1] bcast_S1x128_S100000x128_0_1 (broadcastInDim S1x128 ![1] bcast_S128_S1x128_1 v)

/-- The table of neighbourhood means: per destination node the sum of its sources' feature rows (source indices
    below zero wrapped by the node count before the gather), divided by the larger of its in-degree and one. -/
def aggTerm (a0 : FVec Ideal S100000x128 .f32) (a1 a2 : IVec S1000000 32) : FVec Ideal S100000x128 .f32 :=
  Host.divf (F := Ideal)
    (Host.scatterAdd (F := Ideal) scatter_S100000x128_S1000000x1_S1000000x128_1_0_0_1
      (broadcastInDim S100000x128 ![] bcast_S_S100000x128 (constant (F := Ideal) S_ .f32 0x00000000#32))
      (broadcastInDim S1000000x1 ![0] bcast_S1000000_S1000000x1_0 a2)
      (Host.gather gather_S100000x128_S1000000x1_S1000000x128_1_0_n_n_0_1_1128 a0
        (broadcastInDim S1000000x1 ![0] bcast_S1000000_S1000000x1_0
          (select (cmpi .slt a1 (broadcastInDim S1000000 ![] bcast_S_S1000000 (constantI S_ 32 0#32)))
            (addi a1 (broadcastInDim S1000000 ![] bcast_S_S1000000 (constantI S_ 32 100000#32))) a1))))
    (broadcastInDim S100000x128 ![0, 1] bcast_S100000x1_S100000x128_0_1
      (broadcastInDim S100000x1 ![0] bcast_S100000_S100000x1_0
        (maximumf
          (Host.scatterAdd (F := Ideal) scatter_S100000_S1000000x1_S1000000_n_0_0_1
            (broadcastInDim S100000 ![] bcast_S_S100000 (constant (F := Ideal) S_ .f32 0x00000000#32))
            (broadcastInDim S1000000x1 ![0] bcast_S1000000_S1000000x1_0 a2)
            (broadcastInDim S1000000 ![] bcast_S_S1000000 (constant (F := Ideal) S_ .f32 0x3F800000#32)))
          (broadcastInDim S100000 ![] bcast_S_S100000 (constant (F := Ideal) S_ .f32 0x3F800000#32)))))

/-- The linear map: the table times the transposed weights, plus the bias along the rows. -/
def linTerm (g : FVec Ideal S100000x128 .f32) (a3 : FVec Ideal S128x128 .f32) (a4 : FVec Ideal S128 .f32) :
    FVec Ideal S100000x128 .f32 :=
  addf (Host.dotGeneral (F := Ideal) dot_S100000x128_S128x128_S100000x128_1_0_0_1_n_n none g
      (transpose S128x128 [1, 0] a3 transposes_S128x128_S128x128_1_0))
    (broadcastInDim S100000x128 ![0, 1] bcast_S1x128_S100000x128_0_1 (broadcastInDim S1x128 ![1] bcast_S128_S1x128_1 a4))

/-- The column totals from zero. -/
def colSum (h : FVec Ideal S100000x128 .f32) : FVec Ideal S128 .f32 :=
  Host.reduceAdd (F := Ideal) h (constant (F := Ideal) S_ .f32 0x00000000#32) reducesTo_S100000x128_S128_d0 h_S_

/-- The column means: the totals over the literal 100000. -/
def meanTerm (h : FVec Ideal S100000x128 .f32) : FVec Ideal S128 .f32 :=
  Host.divf (F := Ideal) (colSum h) (broadcastInDim S128 ![] bcast_S_S128 (constant (F := Ideal) S_ .f32 0x47C35000#32))

/-- The table minus its column means, as the variance computes them (the totals laid as one row before the division). -/
def centred (h : FVec Ideal S100000x128 .f32) : FVec Ideal S100000x128 .f32 :=
  subf h (broadcastInDim S100000x128 ![0, 1] bcast_S1x128_S100000x128_0_1
    (Host.divf (F := Ideal) (broadcastInDim S1x128 ![1] bcast_S128_S1x128_1 (colSum h))
      (broadcastInDim S1x128 ![] bcast_S_S1x128 (constant (F := Ideal) S_ .f32 0x47C35000#32))))

/-- The variance's divisor: the literal 100000 minus the conversion of the integer zero. -/
def count : FVec Ideal S_ .f32 :=
  subf (constant (F := Ideal) S_ .f32 0x47C35000#32) (sitofp (F := Ideal) .f32 (constantI S_ 32 0#32))

/-- The column variances: the totals of the squared centred entries over the divisor, selected where the divisor is
    above zero (else the pattern 0x7FC00000's value). -/
def varTerm (h : FVec Ideal S100000x128 .f32) : FVec Ideal S128 .f32 :=
  select (broadcastInDim S128 ![] bcast_S_S128 (cmpf .ogt count (constant (F := Ideal) S_ .f32 0x00000000#32)))
    (Host.divf (F := Ideal) (colSum (mulf (centred h) (centred h))) (broadcastInDim S128 ![] bcast_S_S128 count))
    (broadcastInDim S128 ![] bcast_S_S128 (constant (F := Ideal) S_ .f32 0x7FC00000#32))

/-- Normalised, scaled and shifted. -/
def normTerm (h : FVec Ideal S100000x128 .f32) (a5 a6 : FVec Ideal S128 .f32) : FVec Ideal S100000x128 .f32 :=
  addf (mulf (mulf (subf h (rows (meanTerm h)))
      (rows (Host.rsqrt (F := Ideal) (addf (varTerm h) (broadcastInDim S128 ![] bcast_S_S128 (constant (F := Ideal) S_ .f32 0x3727C5AC#32))))))
    (rows a5)) (rows a6)

/-- Everything after the aggregation: the input plus the rectified normalised linear map of the table `g`. -/
def tail (g a0 : FVec Ideal S100000x128 .f32) (a3 : FVec Ideal S128x128 .f32) (a4 a5 a6 : FVec Ideal S128 .f32) :
    FVec Ideal S100000x128 .f32 :=
  addf a0 (maximumf (normTerm (linTerm g a3 a4) a5 a6)
    (broadcastInDim S100000x128 ![] bcast_S_S100000x128 (constant (F := Ideal) S_ .f32 0x00000000#32)))

/-- The result buffer's contents as a function of the seven arguments. -/
def result (a0 : FVec Ideal S100000x128 .f32) (a1 a2 : IVec S1000000 32) (a3 : FVec Ideal S128x128 .f32)
    (a4 a5 a6 : FVec Ideal S128 .f32) : FVec Ideal S100000x128 .f32 :=
  tail (aggTerm a0 a1 a2) a0 a3 a4 a5 a6

/-! ## The fold at the result and at the arguments -/

set_option maxRecDepth 8192 in
set_option maxHeartbeats 1600000 in
/-- After the line, the result buffer holds `result` of the arguments' contents: each operation's result at its own
    buffer is its function's value and elsewhere what was there; the typed references' transports are the identity
    at literal references. -/
theorem out_eq (V : Valuation τ sig (Elt Ideal)) :
    after (ops (F := Ideal)) V (main_v44 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  after_results_simp
  rfl

set_option maxRecDepth 8192 in
set_option maxHeartbeats 1600000 in
theorem main_arg0_eq (V : Valuation τ sig (Elt Ideal)) :
    after (ops (F := Ideal)) V (main_arg0 : DevRef τ sig) = V (main_arg0 : DevRef τ sig) := by
  after_results_simp

set_option maxRecDepth 8192 in
set_option maxHeartbeats 1600000 in
theorem main_arg1_eq (V : Valuation τ sig (Elt Ideal)) :
    after (ops (F := Ideal)) V (main_arg1 : DevRef τ sig) = V (main_arg1 : DevRef τ sig) := by
  after_results_simp

set_option maxRecDepth 8192 in
set_option maxHeartbeats 1600000 in
theorem main_arg2_eq (V : Valuation τ sig (Elt Ideal)) :
    after (ops (F := Ideal)) V (main_arg2 : DevRef τ sig) = V (main_arg2 : DevRef τ sig) := by
  after_results_simp

set_option maxRecDepth 8192 in
set_option maxHeartbeats 1600000 in
theorem main_arg3_eq (V : Valuation τ sig (Elt Ideal)) :
    after (ops (F := Ideal)) V (main_arg3 : DevRef τ sig) = V (main_arg3 : DevRef τ sig) := by
  after_results_simp

set_option maxRecDepth 8192 in
set_option maxHeartbeats 1600000 in
theorem main_arg4_eq (V : Valuation τ sig (Elt Ideal)) :
    after (ops (F := Ideal)) V (main_arg4 : DevRef τ sig) = V (main_arg4 : DevRef τ sig) := by
  after_results_simp

set_option maxRecDepth 8192 in
set_option maxHeartbeats 1600000 in
theorem main_arg5_eq (V : Valuation τ sig (Elt Ideal)) :
    after (ops (F := Ideal)) V (main_arg5 : DevRef τ sig) = V (main_arg5 : DevRef τ sig) := by
  after_results_simp

set_option maxRecDepth 8192 in
set_option maxHeartbeats 1600000 in
theorem main_arg6_eq (V : Valuation τ sig (Elt Ideal)) :
    after (ops (F := Ideal)) V (main_arg6 : DevRef τ sig) = V (main_arg6 : DevRef τ sig) := by
  after_results_simp

/-! ## The run -/

/-- On every device, from any memory with zero counters: every weakly fair execution of @main terminates with the
    result buffer at `result` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v44).trans (out_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _)⟩)
    (run_seq scopedRefs_eq scopedSems_eq defs main (fun _ => ops) main_eq (fun _ => ops_sub) m ρ)

end Cert.ReferenceIdeal.RefRun

end
-- ==== Proof.Spec.lean ====
/-
  The layer's result as one function of its tables, index by index, over the extended reals.

  A graph-convolution layer followed by batch normalisation, a rectifier and a residual sum. With agg the table of
  neighbourhood means (100000 rows, 128 columns), wt the transposed weight table, b the bias, gamma and beta the
  normalisation's scale and shift, and x the input features:

    y(r, j)    = (Σ_k agg(r, k) · wt(k, j)) + b(j)
    mean(j)    = (0 + Σ_r y(r, j)) / N
    var(j)     = (0 + Σ_r (y(r, j) − mean(j))²) / N                   N = 100000
    out(r, j)  = x(r, j) + max (((y(r, j) − mean(j)) · rsqrt (var(j) + ε)) · gamma(j) + beta(j)) 0

  where ε is the value of the single-precision pattern 0x3727C5AC (about 1e-5), division and the reciprocal square
  root are the extended reals' (with their conventions at zero and the infinities), and each sum starts from the
  zero the reduction is seeded with.
-/
import Idealize.ShloMosaic.PureOps.Ideal
import Idealize.ShloMosaic.Lib.ValueIdx

noncomputable section

open scoped BigOperators

namespace Cert.Spec

open Idealize.ShloMosaic Idealize.ShloMosaic.ValueIdx

/-- Rows by columns of the feature, aggregation and result tables. -/
abbrev SA : Shape := ⟨2, ![100000, 128]⟩
/-- The weight table. -/
abbrev SW : Shape := ⟨2, ![128, 128]⟩
/-- A per-column vector: bias, scale, shift. -/
abbrev SV : Shape := ⟨1, ![128]⟩

/-- The linear map at entry (r, j): row r of agg against column j of wt (the transposed weights), plus the bias. -/
def lin (agg : SA.Idx → EReal) (wt : SW.Idx → EReal) (b : SV.Idx → EReal) (r : Fin 100000) (j : Fin 128) : EReal :=
  (∑ k : Fin 128, agg (ix2 r k) * wt (ix2 k j)) + b (ix1 j)

/-- The number of rows, as an extended real. -/
def N : EReal := ((100000 : ℝ) : EReal)

/-- Column j's mean over the rows. -/
def mean (y : Fin 100000 → Fin 128 → EReal) (j : Fin 128) : EReal :=
  Ideal.div (0 + ∑ r, y r j) N

/-- Column j's (biased) variance over the rows. -/
def var (y : Fin 100000 → Fin 128 → EReal) (j : Fin 128) : EReal :=
  Ideal.div (0 + ∑ r, (y r j - mean y j) * (y r j - mean y j)) N

/-- The stabilising constant added to the variance. -/
def eps : EReal := Ideal.ofBits .f32 0x3727C5AC#32

/-- The result at entry (r, j): the input plus the rectified, normalised, scaled and shifted linear map. -/
def out (x : SA.Idx → EReal) (y : Fin 100000 → Fin 128 → EReal) (gamma beta : SV.Idx → EReal)
    (r : Fin 100000) (j : Fin 128) : EReal :=
  x (ix2 r j) + max (((y r j - mean y j) * Ideal.rsqrt (var y j + eps)) * gamma (ix1 j) + beta (ix1 j)) 0

end Cert.Spec

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.LibDenseRef.lean ====
/-
  One dense layer in the host's spelling, read at an entry.

  On the host a dense layer is a matrix product, a bias vector placed along the rows (first as a one-row table, then
  repeated down the rows) and, for a rectified layer, the maximum with a table of zeros made from a scalar zero.
  Entry (a, j) is  Σ_k x(a, k) · w(k, j) + b(j)  (and its maximum with 0): the same value as the vector unit's
  spelling of the layer (LibDense), whose bias is a one-row table. No finiteness is assumed.
-/
import Idealize.ShloMosaic.Lib.ValueIdx
import Idealize.ShloMosaic.Lib.ValueLayout
import Idealize.ShloMosaic.Lib.Pipeline.Value
import Idealize.ShloMosaic.PureOps.Ideal.Laws
import proofs.«155481_j76647986365164_2_alg».proof.Proof.LibDot

noncomputable section

open scoped BigOperators

namespace Cert.LibDenseRef

open Idealize.ShloMosaic Idealize.ShloMosaic.ValueIdx

/-- A scalar repeated over a whole table: every entry is the scalar. -/
theorem scalar_apply {α : Type} {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

/-- The linear part of the layer at entry (a, j). -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨1, ![p]⟩ .f32)
    (hd : (⟨1, ![p]⟩ : Shape).BroadcastsInDim ⟨2, ![1, p]⟩ ![1])
    (hbc : (⟨2, ![1, p]⟩ : Shape).BroadcastsInDim ⟨2, ![m, p]⟩ ![0, 1]) (a : Fin m) (j : Fin p) :
    addf (Host.dotGeneral d none x w) (broadcastInDim ⟨2, ![m, p]⟩ ![0, 1] hbc (broadcastInDim ⟨2, ![1, p]⟩ ![1] hd b)) (ix2 a j)
      = (∑ k : Fin n, x (ix2 a k) * w (ix2 k j)) + b (ix1 j) := by
  rw [addf_apply, Cert.Sage.LibDot.row_dims_apply b hd hbc a j]
  congr 1
  simp only [Host.dotGeneral]
  rw [Ideal.dotGeneral_apply]
  exact Cert.Sage.LibDot.sum_plain d hr hs hl0 hl1 hr0 hr1 (fun i => x i) (fun i => w i) a j

/-- The rectified layer at entry (a, j). -/
theorem relu_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨1, ![p]⟩ .f32)
    (hd : (⟨1, ![p]⟩ : Shape).BroadcastsInDim ⟨2, ![1, p]⟩ ![1])
    (hbc : (⟨2, ![1, p]⟩ : Shape).BroadcastsInDim ⟨2, ![m, p]⟩ ![0, 1])
    (hz : (⟨0, ![]⟩ : Shape).BroadcastsInDim ⟨2, ![m, p]⟩ ![]) (a : Fin m) (j : Fin p) :
    maximumf (addf (Host.dotGeneral d none x w) (broadcastInDim ⟨2, ![m, p]⟩ ![0, 1] hbc (broadcastInDim ⟨2, ![1, p]⟩ ![1] hd b)))
        (broadcastInDim ⟨2, ![m, p]⟩ ![] hz (constant (F := Ideal) ⟨0, ![]⟩ .f32 0x00000000#32)) (ix2 a j)
      = max ((∑ k : Fin n, x (ix2 a k) * w (ix2 k j)) + b (ix1 j)) 0 := by
  refine (maximumf_apply _ _ (ix2 a j)).trans ?_
  refine congrArg₂ max (lin_apply d hr hs hl0 hl1 hr0 hr1 x w b hd hbc a j) ?_
  rw [scalar_apply]
  exact Ideal.ofBits_zero_f32

end Cert.LibDenseRef

end
-- ==== Proof.LibHostReads.lean ====
/-
  Host operations read at an index, for tables of any size, at the ideal values.

  Laying out: a vector of n entries placed along axis 1 of a one-row table reads, at (u, j), its entry j; a one-column
  table repeated along n columns reads, at (r, t), the column's entry r.

  A plain product: the host's product of an m × n table with an n × p table, whose dimension record has one contracted
  axis of extent n, rows free on the left and columns free on the right (the record's coordinate facts, bundled as
  `PlainDot`), reads at (a, b) the sum over k of l(a, k) · r(k, b). No finiteness is assumed.
-/
import proofs.«155481_j76647986365164_2_alg».proof.Proof.LibDot
import Idealize.ShloMosaic.Lib.IdealHost

noncomputable section

open scoped BigOperators

namespace Cert.LibHostReads

open Idealize.ShloMosaic Idealize.ShloMosaic.ValueIdx

section Reads
variable {α : Type}

/-- A vector of n entries laid along axis 1 of a one-row table reads, at (u, j), its entry j. -/
theorem bcast_row_apply {n : Nat} (hd : (⟨1, ![n]⟩ : Shape).BroadcastsInDim ⟨2, ![1, n]⟩ ![1])
    (x : (⟨1, ![n]⟩ : Shape).Idx → α) (u : Fin 1) (j : Fin n) :
    broadcastInDim ⟨2, ![1, n]⟩ ![1] hd x (ix2 u j) = x (ix1 j) := by
  refine broadcastInDim_apply ![1] hd x (ix2 u j) (ix1 j) ?_
  intro a
  match a with
  | ⟨0, _⟩ =>
    show j.val = if n = 1 then 0 else j.val
    split
    · have := j.isLt; omega
    · rfl

/-- A one-column table repeated along n columns reads, at (r, t), the column's entry r. -/
theorem bcast_col_apply {m n : Nat} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro a
  match a with
  | ⟨0, _⟩ =>
    show r.val = if m = 1 then 0 else r.val
    split
    · have := r.isLt; omega
    · rfl
  | ⟨1, _⟩ =>
    show (0 : ℕ) = if (1 : ℕ) = 1 then 0 else t.val
    rw [if_pos rfl]

end Reads

/-- The coordinate facts of a plain [m, n] × [n, p] product's record: one contracted axis of extent n, the left index
    at output (a, b) and position q being (a, q), the right index (q, b). -/
structure PlainDot {m n p : Nat} (d : DotDims ⟨2, ![m, n]⟩ ⟨2, ![n, p]⟩ ⟨2, ![m, p]⟩) : Prop where
  rank : d.contr.rank = 1
  size : d.contr.size ⟨0, by omega⟩ = n
  l0 : ∀ (i : (⟨2, ![m, p]⟩ : Shape).Idx) (q : d.contr.Idx), (d.lhsIdx i q 0).val = (i 0).val
  l1 : ∀ (i : (⟨2, ![m, p]⟩ : Shape).Idx) (q : d.contr.Idx), (d.lhsIdx i q 1).val = (q ⟨0, by omega⟩).val
  r0 : ∀ (i : (⟨2, ![m, p]⟩ : Shape).Idx) (q : d.contr.Idx), (d.rhsIdx i q 0).val = (q ⟨0, by omega⟩).val
  r1 : ∀ (i : (⟨2, ![m, p]⟩ : Shape).Idx) (q : d.contr.Idx), (d.rhsIdx i q 1).val = (i 1).val

/-- A plain product on the host read at (a, b): the sum over the shared coordinate. -/
theorem dot_apply {m n p : Nat} {d : DotDims ⟨2, ![m, n]⟩ ⟨2, ![n, p]⟩ ⟨2, ![m, p]⟩} (hd : PlainDot d)
    (l : (⟨2, ![m, n]⟩ : Shape).Idx → EReal) (r : (⟨2, ![n, p]⟩ : Shape).Idx → EReal) (a : Fin m) (b : Fin p) :
    Host.dotGeneral (F := Ideal) (φ₁ := .f32) (φ₂ := .f32) d none l r (ix2 a b) = ∑ k : Fin n, l (ix2 a k) * r (ix2 k b) :=
  (Ideal.dotGeneral_apply d none _ l r (ix2 a b)).trans
    (Cert.Sage.LibDot.sum_plain d hd.rank hd.size hd.l0 hd.l1 hd.r0 hd.r1 l r a b)

end Cert.LibHostReads

end
-- ==== Proof.LibMoments.lean ====
/-
  Second moments on the extended reals. For finitely many REAL entries x i (an extended-real table all of
  whose entries are finite) and their count n > 0:

    max (Σ x² / n − (Σ x / n)·(Σ x / n)) 0  =  Σ (x − Σ x / n)·(x − Σ x / n) / n

  — the "mean of squares minus squared mean, clamped at zero" form of a variance equals the "mean squared
  deviation" form. Over the reals the two are one polynomial identity (expand the square, use Σ 1 = n) and the
  common value is a sum of squares over a positive number, so the clamp is the identity; the extended-real
  statement follows because every operation involved (sum, product, difference, quotient by the nonzero real
  n) sends finite values to the finite value the reals give. Finiteness is NEEDED: at an infinite entry the
  left side is ⊤ − ⊤ = ⊥, clamped to 0, while the right side is ⊤.
  The quotient is Ideal.div (the quotient of the ideal float instance), so the statement applies verbatim to
  a batch-normalisation's statistics computed either way.
-/
import Idealize.ShloMosaic.PureOps.Ideal
import Mathlib.Algebra.BigOperators.Ring.Finset
import Mathlib.Algebra.Order.BigOperators.Ring.Finset
import Mathlib.Tactic.FieldSimp
import Mathlib.Tactic.Ring
import Mathlib.Tactic.Positivity

namespace Cert.LibMoments

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real, in the ideal instance, is the real quotient. -/
theorem div_coe_coe (a : ℝ) {n : ℝ} (hn : n ≠ 0) : Ideal.div (a : EReal) (n : EReal) = ((a / n : ℝ) : EReal) := by
  rw [Ideal.div_coe hn, ← EReal.coe_mul]; congr 1; field_simp

/-- Over the reals: mean of squares minus squared mean is the mean squared deviation. -/
theorem real_moments {ι : Type*} [Fintype ι] (x : ι → ℝ) {n : ℝ} (hn : n = (Fintype.card ι : ℝ)) (h0 : n ≠ 0) :
    (∑ i, x i * x i) / n - (∑ i, x i) / n * ((∑ i, x i) / n)
      = (∑ i, (x i - (∑ j, x j) / n) * (x i - (∑ j, x j) / n)) / n := by
  have hexp : ∀ i, (x i - (∑ j, x j) / n) * (x i - (∑ j, x j) / n)
      = x i * x i - 2 * ((∑ j, x j) / n) * x i + ((∑ j, x j) / n) * ((∑ j, x j) / n) := fun i => by ring
  simp only [hexp, Finset.sum_add_distrib, Finset.sum_sub_distrib, ← Finset.mul_sum, Finset.sum_const,
    Finset.card_univ, nsmul_eq_mul, ← hn]
  field_simp
  ring

/-- … and that common value is not negative. -/
theorem real_moments_nonneg {ι : Type*} [Fintype ι] (x : ι → ℝ) {n : ℝ} (hn : n = (Fintype.card ι : ℝ)) (h0 : 0 < n) :
    0 ≤ (∑ i, x i * x i) / n - (∑ i, x i) / n * ((∑ i, x i) / n) := by
  rw [real_moments x hn h0.ne']
  exact div_nonneg (Finset.sum_nonneg fun i _ => mul_self_nonneg _) h0.le

/-- The two forms of the variance of finitely many finite entries agree on the extended reals. -/
theorem moments {ι : Type*} [Fintype ι] (x : ι → ℝ) {n : ℝ} (hn : n = (Fintype.card ι : ℝ)) (h0 : 0 < n) :
    max (Ideal.div (∑ i, (x i : EReal) * (x i : EReal)) (n : EReal)
          - Ideal.div (∑ i, (x i : EReal)) (n : EReal) * Ideal.div (∑ i, (x i : EReal)) (n : EReal)) 0
      = Ideal.div (∑ i, ((x i : EReal) - Ideal.div (∑ j, (x j : EReal)) (n : EReal))
          * ((x i : EReal) - Ideal.div (∑ j, (x j : EReal)) (n : EReal))) (n : EReal) := by
  have hs : (∑ i, (x i : EReal)) = ((∑ i, x i : ℝ) : EReal) := (coe_sum _ _).symm
  have hq : (∑ i, (x i : EReal) * (x i : EReal)) = ((∑ i, x i * x i : ℝ) : EReal) := by
    rw [coe_sum]; exact Finset.sum_congr rfl fun i _ => (EReal.coe_mul _ _).symm
  rw [hs, hq, div_coe_coe _ h0.ne', div_coe_coe _ h0.ne']
  have hd : (∑ i, ((x i : EReal) - (((∑ j, x j) / n : ℝ) : EReal)) * ((x i : EReal) - (((∑ j, x j) / n : ℝ) : EReal)))
      = ((∑ i, (x i - (∑ j, x j) / n) * (x i - (∑ j, x j) / n) : ℝ) : EReal) := by
    rw [coe_sum]; exact Finset.sum_congr rfl fun i _ => by rw [← EReal.coe_sub, ← EReal.coe_mul]
  rw [hd, div_coe_coe _ h0.ne', ← EReal.coe_mul, ← EReal.coe_sub, ← real_moments x hn h0.ne']
  exact max_eq_left (by exact_mod_cast real_moments_nonneg x hn h0)

end Cert.LibMoments
-- ==== Proof.LibFinite.lean ====
/-
  Finite extended reals: the entries of a table that are real numbers, and the operations that keep them so.

  An extended real is FINITE when it is the image of a real. Sums (binary and over a finite index set),
  differences, products and maxima of finite values are finite, and each is the image of the real sum,
  difference, product, maximum; the quotient by a nonzero real is finite; the reciprocal square root of a
  positive real is a positive real. These are the steps by which finiteness of a program's inputs is carried
  through its arithmetic to the place where an algebraic law (one that fails at the infinities) is used.
-/
import Idealize.ShloMosaic.PureOps.Ideal
import Mathlib.Algebra.BigOperators.Ring.Finset
import Mathlib.Tactic.FieldSimp
import Mathlib.Tactic.Positivity

namespace Cert.LibFinite

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.neg {x : EReal} (hx : IsReal x) : IsReal (-x) := by
  obtain ⟨a, rfl⟩ := hx; exact ⟨-a, (EReal.coe_neg a).symm⟩

/-- A finite sum of finite values is finite. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero real is finite. -/
theorem IsReal.div_coe {x : EReal} (hx : IsReal x) {n : ℝ} (hn : n ≠ 0) : IsReal (Ideal.div x (n : EReal)) := by
  obtain ⟨a, rfl⟩ := hx
  rw [Ideal.div_coe hn]; exact ⟨a * (1 / n), (EReal.coe_mul _ _).symm⟩

/-- The reciprocal square root of a positive real is a positive real. -/
theorem rsqrt_pos {r : ℝ} (hr : 0 < r) : ∃ s : ℝ, 0 < s ∧ Ideal.rsqrt (r : EReal) = (s : EReal) := by
  refine ⟨(Real.sqrt r)⁻¹, inv_pos.mpr (Real.sqrt_pos.mpr hr), ?_⟩
  show (if r < 0 then (⊥ : EReal) else if r = 0 then ⊤ else ((Real.sqrt r)⁻¹ : ℝ)) = _
  rw [if_neg (not_lt.mpr hr.le), if_neg hr.ne']

theorem isReal_rsqrt_pos {r : ℝ} (hr : 0 < r) : IsReal (Ideal.rsqrt (r : EReal)) := by
  obtain ⟨s, -, hs⟩ := rsqrt_pos hr; exact ⟨s, hs⟩

/-- A finite table, as a table of reals. -/
theorem exists_real {ι : Type*} (f : ι → EReal) (h : ∀ i, IsReal (f i)) : ∃ g : ι → ℝ, ∀ i, f i = (g i : EReal) :=
  ⟨fun i => (h i).choose, fun i => (h i).choose_spec⟩

/-- A value strictly between the two infinities in absolute value is finite: |x| < +∞ means x is a real. -/
theorem isReal_of_abs_lt_top {x : EReal} (h : max x (-x) < ⊤) : IsReal x := by
  induction x using EReal.rec with
  | bot => simp at h
  | coe r => exact ⟨r, rfl⟩
  | top => simp at h

end Cert.LibFinite
-- ==== Proof.LibBatchNorm.lean ====
/-
  Batch statistics: the two ways of computing a column's mean and variance agree on finite entries.

  From the column total s and the total of squares q of n finite entries the kernel's host code computes the mean s / n
  and the variance max (q / n − (s / n)²) 0; the reference computes the mean (0 + Σ y) / n and the variance
  (0 + Σ (y − mean)²) / n. The means are one value; the variances are equal because the entries are real numbers
  (LibMoments), and the common value is a non-negative real. Also: the literal 100000.0.
-/
import proofs.«155481_j76647986365164_2_alg».proof.Proof.LibMoments
import proofs.«155481_j76647986365164_2_alg».proof.Proof.LibFinite
import Mathlib.Tactic.NormNum
import Mathlib.Tactic.Positivity

noncomputable section

open scoped BigOperators

namespace Cert.LibBatchNorm

open Idealize.ShloMosaic Cert.LibFinite

/-- The float literal 0x47C35000 is 100000. -/
theorem ofBits_100000 : Ideal.ofBits .f32 0x47C35000#32 = ((100000 : ℝ) : EReal) := by
  simp [Ideal.ofBits, Ideal.ieee]
  rw [← EReal.coe_mul]; norm_num

/-- The two variance forms of n finite entries agree. -/
theorem var_eq {n : ℕ} (y : Fin n → EReal) (hy : ∀ r, IsReal (y r)) (hn : 0 < n) (N : EReal) (hN : N = ((n : ℝ) : EReal)) :
    max (Ideal.div (∑ r, y r * y r) N - Ideal.div (∑ r, y r) N * Ideal.div (∑ r, y r) N) 0
      = Ideal.div (0 + ∑ r, (y r - Ideal.div (0 + ∑ r', y r') N) * (y r - Ideal.div (0 + ∑ r', y r') N)) N := by
  obtain ⟨x, hx⟩ := exists_real y hy
  have hyx : y = fun r => (x r : EReal) := funext hx
  subst hyx hN
  simp only [zero_add]
  exact Cert.LibMoments.moments x (by simp) (by exact_mod_cast hn)

/-- The kernel's variance of n finite entries is a non-negative real. -/
theorem var_nonneg {n : ℕ} (y : Fin n → EReal) (hy : ∀ r, IsReal (y r)) (hn : 0 < n) (N : EReal) (hN : N = ((n : ℝ) : EReal)) :
    ∃ v : ℝ, 0 ≤ v ∧ max (Ideal.div (∑ r, y r * y r) N - Ideal.div (∑ r, y r) N * Ideal.div (∑ r, y r) N) 0 = (v : EReal) := by
  have hn0 : (n : ℝ) ≠ 0 := by exact_mod_cast hn.ne'
  have h1 : IsReal (Ideal.div (∑ r, y r * y r) N - Ideal.div (∑ r, y r) N * Ideal.div (∑ r, y r) N) := by
    subst hN
    exact ((isReal_sum _ _ fun r _ => (hy r).mul (hy r)).div_coe hn0).sub
      (((isReal_sum _ _ fun r _ => hy r).div_coe hn0).mul ((isReal_sum _ _ fun r _ => hy r).div_coe hn0))
  obtain ⟨a, ha⟩ := h1
  refine ⟨max a 0, le_max_right _ _, ?_⟩
  rw [ha]
  rcases le_total a 0 with h | h
  · rw [max_eq_right h, max_eq_right (by exact_mod_cast h)]; rfl
  · rw [max_eq_left h, max_eq_left (by exact_mod_cast h)]

/-- The mean of n finite entries is finite. -/
theorem mean_real {n : ℕ} (y : Fin n → EReal) (hy : ∀ r, IsReal (y r)) (hn : 0 < n) (N : EReal) (hN : N = ((n : ℝ) : EReal)) :
    IsReal (Ideal.div (∑ r, y r) N) := by
  subst hN
  exact (isReal_sum _ _ fun r _ => hy r).div_coe (by exact_mod_cast hn.ne')

end Cert.LibBatchNorm

end
-- ==== Proof.RefValue.lean ====
/-
  The reference's result read at an entry: it is the specification.

  Each stage of the composed term is read at an index. A per-column vector laid along the rows reads its entry; a
  scalar repeated over a table reads the scalar; the product with the transposed weights plus the bias is the
  specification's linear map; a column total from zero is 0 + Σ_r of the column's entries; the literal 0x47C35000 is
  100000, and 100000 minus the conversion of the integer zero is 100000, which is above zero, so the selection in the
  variance takes the quotient. No finiteness is assumed anywhere.
-/
import proofs.«155481_j76647986365164_2_alg».proof.Proof.Spec
import proofs.«155481_j76647986365164_2_alg».proof.Proof.RefRun
import proofs.«155481_j76647986365164_2_alg».proof.Proof.LibDot
import proofs.«155481_j76647986365164_2_alg».proof.Proof.LibDenseRef
import proofs.«155481_j76647986365164_2_alg».proof.Proof.LibHostReads
import proofs.«155481_j76647986365164_2_alg».proof.Proof.LibBatchNorm
import Idealize.ShloMosaic.PureOps.Ideal.Laws
import Idealize.ShloMosaic.Lib.ValueIdx
import Idealize.ShloMosaic.Lib.KernelVsHost

noncomputable section

open scoped BigOperators

namespace Cert.ReferenceIdeal.RefValue

open Cert.ReferenceIdeal Cert.ReferenceIdeal.Facts₀ Cert.ReferenceIdeal.RefRun Idealize.ShloMosaic Idealize.ShloMosaic.ValueIdx

variable [Cert.ReferenceIdeal.Facts]

/-! ## Laying out and literals -/

/-- A per-column vector laid along the rows reads, at (r, j), its entry j. -/
theorem rows_apply (v : FVec Ideal S128 .f32) (r : Fin 100000) (j : Fin 128) : rows v (ix2 r j) = v (ix1 j) :=
  Cert.Sage.LibDot.row_dims_apply v bcast_S128_S1x128_1 bcast_S1x128_S100000x128_0_1 r j

/-- The zero literal reads 0 everywhere. -/
theorem zero_apply {s : Shape} (i : s.Idx) : constant (F := Ideal) s .f32 0x00000000#32 i = 0 := by
  rw [constant_apply]; exact Ideal.ofBits_zero_f32

/-- The literal 0x47C35000 reads the row count everywhere. -/
theorem n_apply {s : Shape} (i : s.Idx) : constant (F := Ideal) s .f32 0x47C35000#32 i = Cert.Spec.N := by
  rw [constant_apply]; exact Cert.LibBatchNorm.ofBits_100000

/-! ## The linear map -/

/-- The product's record is a plain one: one contracted axis of extent 128, rows free on the left, columns on the right. -/
theorem dot_plain : Cert.LibHostReads.PlainDot dot_S100000x128_S128x128_S100000x128_1_0_0_1_n_n :=
  ⟨rfl, rfl, fun _ _ => rfl, fun _ _ => rfl, fun _ _ => rfl, fun _ _ => rfl⟩

/-- The linear stage at (r, j) is the specification's linear map of the same table, the transposed weights and the bias. -/
theorem linTerm_apply (g : FVec Ideal S100000x128 .f32) (a3 : FVec Ideal S128x128 .f32) (a4 : FVec Ideal S128 .f32)
    (r : Fin 100000) (j : Fin 128) :
    linTerm g a3 a4 (ix2 r j)
      = Cert.Spec.lin g (transpose S128x128 [1, 0] a3 transposes_S128x128_S128x128_1_0) a4 r j := by
  unfold linTerm Cert.Spec.lin
  exact Cert.LibDenseRef.lin_apply _ dot_plain.rank dot_plain.size dot_plain.l0 dot_plain.l1 dot_plain.r0 dot_plain.r1
    g _ a4 bcast_S128_S1x128_1 bcast_S1x128_S100000x128_0_1 r j

/-! ## Column totals -/

/-- The table's shape with its row axis dropped is the column vector's. -/
theorem reduces : S100000x128.Reduces [0] S128 := by decide

/-- The table index over column j with row coordinate k is (k, j). -/
theorem lift_eq (j : Fin 128) (k : Fin 100000) : reduces.lift (ix1 j) k = ix2 k j := by
  funext a
  match a with
  | ⟨0, _⟩ => exact Fin.ext rfl
  | ⟨1, _⟩ => exact Fin.ext rfl

/-- A column total from zero, at column j: 0 + Σ_r of the column's entries. -/
theorem colSum_apply (h : FVec Ideal S100000x128 .f32) (j : Fin 128) :
    colSum h (ix1 j) = 0 + ∑ r : Fin 100000, h (ix2 r j) := by
  unfold colSum Host.reduceAdd
  rw [Ideal.hostReduceAdd_def, Ideal.hostReduceAdd_single reducesTo_S100000x128_S128_d0 reduces, zero_apply]
  exact congrArg (fun s => (0 : EReal) + s) (Finset.sum_congr rfl fun k _ => congrArg h (lift_eq j k))

/-! ## Mean and variance

Stated for a table `h` and any function `y` of row and column that agrees with it entry by entry. -/

section Moments

variable (h : FVec Ideal S100000x128 .f32) (y : Fin 100000 → Fin 128 → EReal) (hy : ∀ r j, h (ix2 r j) = y r j)

include hy

/-- The column total of the table is the total of `y`'s column. -/
theorem colSum_eq (j : Fin 128) : colSum h (ix1 j) = 0 + ∑ r : Fin 100000, y r j := by
  rw [colSum_apply]
  exact congrArg (fun s => (0 : EReal) + s) (Finset.sum_congr rfl fun r _ => hy r j)

/-- The mean stage at column j is the specification's mean. -/
theorem meanTerm_apply (j : Fin 128) : meanTerm h (ix1 j) = Cert.Spec.mean y j := by
  unfold meanTerm Cert.Spec.mean
  show Ideal.div (colSum h (ix1 j))
      (broadcastInDim S128 ![] bcast_S_S128 (constant (F := Ideal) S_ .f32 0x47C35000#32) (ix1 j)) = _
  rw [colSum_eq h y hy, Cert.LibDenseRef.scalar_apply, n_apply]

/-- The centred table at (r, j) is the entry minus the specification's mean. -/
theorem centred_apply (r : Fin 100000) (j : Fin 128) : centred h (ix2 r j) = y r j - Cert.Spec.mean y j := by
  unfold centred
  rw [subf_apply, hy r j, broadcastInDim_oneRow_apply]
  show y r j - Ideal.div (broadcastInDim S1x128 ![1] bcast_S128_S1x128_1 (colSum h) (ix2 (0 : Fin 1) j))
      (broadcastInDim S1x128 ![] bcast_S_S1x128 (constant (F := Ideal) S_ .f32 0x47C35000#32) (ix2 (0 : Fin 1) j)) = _
  rw [Cert.LibHostReads.bcast_row_apply, Cert.LibDenseRef.scalar_apply, n_apply, colSum_eq h y hy]
  rfl

omit hy in
/-- The variance's divisor is the row count: 100000 minus the conversion of the integer zero. -/
theorem count_apply : RefRun.count ix0 = Cert.Spec.N := by
  unfold RefRun.count
  rw [subf_apply, n_apply]
  have e : (((0#32 : BitVec 32).toInt : ℝ) : EReal) = 0 := by
    rw [BitVec.toInt_zero, Int.cast_zero, EReal.coe_zero]
  show Cert.Spec.N - (((0#32 : BitVec 32).toInt : ℝ) : EReal) = Cert.Spec.N
  rw [e, sub_zero]

omit hy in
/-- The row count is above zero. -/
theorem zero_lt_N : (0 : EReal) < Cert.Spec.N := by
  unfold Cert.Spec.N
  exact_mod_cast (by norm_num : (0 : ℝ) < 100000)

/-- The variance stage at column j is the specification's variance: the divisor is above zero, so the selection takes
    the quotient. -/
theorem varTerm_apply (j : Fin 128) : varTerm h (ix1 j) = Cert.Spec.var y j := by
  unfold varTerm
  rw [select_apply]
  have hc : broadcastInDim S128 ![] bcast_S_S128 (cmpf .ogt RefRun.count (constant (F := Ideal) S_ .f32 0x00000000#32)) (ix1 j) = 1#1 := by
    rw [Cert.LibDenseRef.scalar_apply, cmpf_apply, count_apply, zero_apply]
    show BitVec.ofBool (decide ((0 : EReal) < Cert.Spec.N)) = 1#1
    rw [decide_eq_true zero_lt_N]
    rfl
  rw [hc, select_one]
  show Ideal.div (colSum (mulf (centred h) (centred h)) (ix1 j)) (broadcastInDim S128 ![] bcast_S_S128 RefRun.count (ix1 j)) = _
  rw [colSum_apply, Cert.LibDenseRef.scalar_apply, count_apply]
  unfold Cert.Spec.var
  refine congrArg (fun s => Ideal.div ((0 : EReal) + s) Cert.Spec.N) (Finset.sum_congr rfl fun r _ => ?_)
  rw [mulf_apply, centred_apply h y hy]

/-- The normalised, scaled and shifted stage at (r, j). -/
theorem normTerm_apply (a5 a6 : FVec Ideal S128 .f32) (r : Fin 100000) (j : Fin 128) :
    normTerm h a5 a6 (ix2 r j)
      = ((y r j - Cert.Spec.mean y j) * Ideal.rsqrt (Cert.Spec.var y j + Cert.Spec.eps)) * a5 (ix1 j) + a6 (ix1 j) := by
  unfold normTerm
  rw [addf_apply, mulf_apply, mulf_apply, subf_apply, rows_apply, rows_apply, rows_apply, rows_apply, hy r j,
    meanTerm_apply h y hy]
  show (y r j - Cert.Spec.mean y j)
      * Ideal.rsqrt (varTerm h (ix1 j) + broadcastInDim S128 ![] bcast_S_S128 (constant (F := Ideal) S_ .f32 0x3727C5AC#32) (ix1 j))
      * a5 (ix1 j) + a6 (ix1 j) = _
  rw [varTerm_apply h y hy, Cert.LibDenseRef.scalar_apply, constant_apply]
  rfl

end Moments

/-! ## The result -/

/-- The reference's result at entry (r, j) is the specification's, of the input, the linear map of the aggregated table
    with the transposed weights and the bias, the scale and the shift. -/
theorem result_apply (a0 : FVec Ideal S100000x128 .f32) (a1 a2 : IVec S1000000 32) (a3 : FVec Ideal S128x128 .f32)
    (a4 a5 a6 : FVec Ideal S128 .f32) (r : Fin 100000) (j : Fin 128) :
    result a0 a1 a2 a3 a4 a5 a6 (ix2 r j)
      = Cert.Spec.out a0
          (Cert.Spec.lin (aggTerm a0 a1 a2) (transpose S128x128 [1, 0] a3 transposes_S128x128_S128x128_1_0) a4) a5 a6 r j := by
  have hy : ∀ r j, linTerm (aggTerm a0 a1 a2) a3 a4 (ix2 r j)
      = Cert.Spec.lin (aggTerm a0 a1 a2) (transpose S128x128 [1, 0] a3 transposes_S128x128_S128x128_1_0) a4 r j :=
    fun r j => linTerm_apply _ a3 a4 r j
  unfold result tail Cert.Spec.out
  rw [addf_apply, maximumf_apply, normTerm_apply _ _ hy, Cert.LibDenseRef.scalar_apply, zero_apply]

end Cert.ReferenceIdeal.RefValue

end
-- ==== Proof.RefFrame.lean ====
/-
  The reference's frame: it runs and leaves its arguments as they were.

  The run ends with the result buffer at the composed term and every argument buffer at its launch contents; the
  frame claim is the second half of that.
-/
import proofs.«155481_j76647986365164_2_alg».proof.Defs
import proofs.«155481_j76647986365164_2_alg».proof.Proof.RefRun

noncomputable section

namespace Cert.ReferenceIdeal.RefFrame

open Idealize.ShloMosaic Idealize.SL.Sem

/-- Every weakly fair execution of the reference terminates with its seven arguments unchanged. -/
theorem frame_ri [hReferenceIdeal : Cert.ReferenceIdeal.Facts] [hPre_finite_inputs : Cert.Pre_finite_inputs.Facts] :
    Cert.frame_ReferenceIdeal :=
  fun m ρ _ => (θ_run (Cert.ReferenceIdeal.defs (F := Ideal)) _ _).mono (fun _ h c => (h c).2)
    (Cert.ReferenceIdeal.RefRun.run m ρ)

end Cert.ReferenceIdeal.RefFrame

end
-- ==== Proof.HostI.lean ====
/-
  What the two kernel regions find in the arrays they stage, in terms of the launch memory.
  The first host stretch computes the table of neighbourhood means (count the edges into each node, gather the source
  rows, add them into their destination rows, divide each row by its count or by one) and lays the bias, scale and
  shift vectors as one-row tables; the narrowing of the means and of the weights to the matmul's input format changes
  nothing at the extended reals.  The first region only reads these.  The second host stretch adds the two halves'
  column totals of y and of y², divides both by the row count, and forms max(Σy²/N − mean², 0); the second region
  reads them as one-row tables.  Each of these host terms is read here at a column.
-/
import proofs.«155481_j76647986365164_2_alg».proof.Proof.RunI
import proofs.«155481_j76647986365164_2_alg».proof.Proof.Spec
import proofs.«155481_j76647986365164_2_alg».proof.Proof.LibBatchNorm
import proofs.«155481_j76647986365164_2_alg».proof.Proof.LibDenseRef
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.StableHlo Idealize.ShloMosaic.ValueIdx Idealize.SL.Sem
open Idealize.ShloMosaic.Pipeline (Dat)

variable (m : (ℓ : Loc nD τ sig) → Buf (Elt Ideal) ℓ)

/-! ## The host terms -/

/-- The table of neighbourhood means, from the features, the edges' sources and the edges' destinations. -/
def aggK (a0 : FVec Ideal S100000x128 .f32) (a1 a2 : IVec S1000000 32) : FVec Ideal S100000x128 .f32 :=
  Host.divf (F := Ideal)
    (Host.scatterAdd (F := Ideal) scatter_S100000x128_S1000000x1_S1000000x128_1_0_0_1
      (broadcastInDim S100000x128 ![] bcast_S_S100000x128 (constant (F := Ideal) S_ .f32 0x00000000#32))
      (broadcastInDim S1000000x1 ![0] bcast_S1000000_S1000000x1_0 a2)
      (Host.gather gather_S100000x128_S1000000x1_S1000000x128_1_0_n_n_0_1_1128 a0
        (broadcastInDim S1000000x1 ![0] bcast_S1000000_S1000000x1_0
          (select (cmpi .slt a1 (broadcastInDim S1000000 ![] bcast_S_S1000000 (constantI S_ 32 0#32)))
            (addi a1 (broadcastInDim S1000000 ![] bcast_S_S1000000 (constantI S_ 32 100000#32))) a1))))
    (broadcastInDim S100000x128 ![0, 1] bcast_S100000x1_S100000x128_0_1
      (broadcastInDim S100000x1 ![0] bcast_S100000_S100000x1_0
        (maximumf
          (Host.scatterAdd (F := Ideal) scatter_S100000_S1000000x1_S1000000_n_0_0_1
            (broadcastInDim S100000 ![] bcast_S_S100000 (constant (F := Ideal) S_ .f32 0x00000000#32))
            (broadcastInDim S1000000x1 ![0] bcast_S1000000_S1000000x1_0 a2)
            (broadcastInDim S1000000 ![] bcast_S_S1000000 (constant (F := Ideal) S_ .f32 0x3F800000#32)))
          (broadcastInDim S100000 ![] bcast_S_S100000 (constant (F := Ideal) S_ .f32 0x3F800000#32)))))

/-- The two halves' totals added from zero and divided by the literal 100000, as a one-row table. -/
def meanK (s : FVec Ideal S2x1x128 .f32) : FVec Ideal S1x128 .f32 :=
  Host.divf (F := Ideal)
    (Host.reduceAdd (F := Ideal) s (constant (F := Ideal) S_ .f32 0x00000000#32) reducesTo_S2x1x128_S1x128_d0 h_S_)
    (broadcastInDim S1x128 ![] bcast_S_S1x128 (constant (F := Ideal) S_ .f32 0x47C35000#32))

/-- The variance as the host forms it: the mean of the squares less the square of the mean, not below zero. -/
def varK (s1 s2 : FVec Ideal S2x1x128 .f32) : FVec Ideal S1x128 .f32 :=
  maximumf (subf (meanK s2) (mulf (meanK s1) (meanK s1)))
    (broadcastInDim S1x128 ![] bcast_S_S1x128 (constant (F := Ideal) S_ .f32 0x00000000#32))

/-! ## What the first host stretch leaves -/

/-- Narrowing a table to the matmul's input format changes nothing at the extended reals. -/
theorem truncf_id {s : Shape} (x : FVec Ideal s .f32) (h : FTy.bf16.bits < FTy.f32.bits) :
    (truncf .bf16 x h : s.Idx → EReal) = x := rfl

set_option maxRecDepth 8192 in
set_option maxHeartbeats 1600000 in
theorem ops0_v19 (W : Valuation τ sig (Elt Ideal)) :
    after (hostOps0 (F := Ideal)) W (main_v19 : DevRef τ sig)
      = truncf .bf16 (aggK (W (main_arg0 : DevRef τ sig)) (W (main_arg1 : DevRef τ sig)) (W (main_arg2 : DevRef τ sig))) bitsLt_bf16_f32 := by
  after_results_simp
  rfl

set_option maxRecDepth 8192 in
set_option maxHeartbeats 1600000 in
theorem ops0_v20 (W : Valuation τ sig (Elt Ideal)) :
    (after (hostOps0 (F := Ideal)) W (main_v20 : DevRef τ sig) : FVec Ideal S128x128 .bf16)
      = (fun x : FVec Ideal S128x128 .f32 => (truncf .bf16 x bitsLt_bf16_f32 : FVec Ideal S128x128 .bf16)) (W (main_arg3 : DevRef τ sig)) := by
  after_results_simp
  all_goals rfl

set_option maxRecDepth 8192 in
set_option maxHeartbeats 1600000 in
theorem ops0_v21 (W : Valuation τ sig (Elt Ideal)) :
    (after (hostOps0 (F := Ideal)) W (main_v21 : DevRef τ sig) : S1x128.Idx → EReal) = shapeCast S1x128 (W (main_arg4 : DevRef τ sig)) shapeCasts_S128_S1x128 := by
  after_results_simp
  rfl

set_option maxRecDepth 8192 in
set_option maxHeartbeats 1600000 in
theorem ops0_v22 (W : Valuation τ sig (Elt Ideal)) :
    (after (hostOps0 (F := Ideal)) W (main_v22 : DevRef τ sig) : S1x128.Idx → EReal) = shapeCast S1x128 (W (main_arg5 : DevRef τ sig)) shapeCasts_S128_S1x128 := by
  after_results_simp
  rfl

set_option maxRecDepth 8192 in
set_option maxHeartbeats 1600000 in
theorem ops0_v23 (W : Valuation τ sig (Elt Ideal)) :
    (after (hostOps0 (F := Ideal)) W (main_v23 : DevRef τ sig) : S1x128.Idx → EReal) = shapeCast S1x128 (W (main_arg6 : DevRef τ sig)) shapeCasts_S128_S1x128 := by
  after_results_simp
  rfl

theorem Y1_v19 (c : Dev nD) :
    (Y1 m c (Proc.devRef .tc main_v19) : S100000x128.Idx → EReal) = aggK (m ((c : Thread nD τ).loc main_arg0)) (m ((c : Thread nD τ).loc main_arg1)) (m ((c : Thread nD τ).loc main_arg2)) :=
  (ops0_v19 (Y0 m c)).trans (truncf_id _ _)
theorem Y1_v20 (c : Dev nD) : (Y1 m c (Proc.devRef .tc main_v20) : S128x128.Idx → EReal) = (m ((c : Thread nD τ).loc main_arg3)) := (ops0_v20 (Y0 m c)).trans (truncf_id _ _)
theorem Y1_v21 (c : Dev nD) : (Y1 m c (Proc.devRef .tc main_v21) : S1x128.Idx → EReal) = shapeCast S1x128 (m ((c : Thread nD τ).loc main_arg4)) shapeCasts_S128_S1x128 :=
  ops0_v21 (Y0 m c)
theorem Y1_v22 (c : Dev nD) : (Y1 m c (Proc.devRef .tc main_v22) : S1x128.Idx → EReal) = shapeCast S1x128 (m ((c : Thread nD τ).loc main_arg5)) shapeCasts_S128_S1x128 :=
  ops0_v22 (Y0 m c)
theorem Y1_v23 (c : Dev nD) : (Y1 m c (Proc.devRef .tc main_v23) : S1x128.Idx → EReal) = shapeCast S1x128 (m ((c : Thread nD τ).loc main_arg6)) shapeCasts_S128_S1x128 :=
  ops0_v23 (Y0 m c)

/-! ## What the second region finds -/

/-- The first region's three inputs reach the second region as the first found them. -/
theorem Y3_v19 (c : Dev nD) : Y3 m c (Proc.devRef .tc main_v19) = Y1 m c (Proc.devRef .tc main_v19) :=
  (StableHlo.after_of_writes_sub hostOps1 _ hostOps1_writes (by decide)).trans
    ((Y2_arr m c 0).trans (((dat0 (Z1 m) c).arrAt_in 0 rfl _).trans (A_eq0 (Z1 m) c 0)))
theorem Y3_v20 (c : Dev nD) : Y3 m c (Proc.devRef .tc main_v20) = Y1 m c (Proc.devRef .tc main_v20) :=
  (StableHlo.after_of_writes_sub hostOps1 _ hostOps1_writes (by decide)).trans
    ((Y2_arr m c 1).trans (((dat0 (Z1 m) c).arrAt_in 1 rfl _).trans (A_eq0 (Z1 m) c 1)))
theorem Y3_v21 (c : Dev nD) : Y3 m c (Proc.devRef .tc main_v21) = Y1 m c (Proc.devRef .tc main_v21) :=
  (StableHlo.after_of_writes_sub hostOps1 _ hostOps1_writes (by decide)).trans
    ((Y2_arr m c 2).trans (((dat0 (Z1 m) c).arrAt_in 2 rfl _).trans (A_eq0 (Z1 m) c 2)))
/-- The scale and shift tables and the features are touched by neither the first region nor the second stretch. -/
theorem Y3_v22 (c : Dev nD) : Y3 m c (Proc.devRef .tc main_v22) = Y1 m c (Proc.devRef .tc main_v22) :=
  (StableHlo.after_of_writes_sub hostOps1 _ hostOps1_writes (by decide)).trans (Y2_of_ne m c main_v22 (by decide))
theorem Y3_v23 (c : Dev nD) : Y3 m c (Proc.devRef .tc main_v23) = Y1 m c (Proc.devRef .tc main_v23) :=
  (StableHlo.after_of_writes_sub hostOps1 _ hostOps1_writes (by decide)).trans (Y2_of_ne m c main_v23 (by decide))
theorem Y3_arg0 (c : Dev nD) : Y3 m c (Proc.devRef .tc main_arg0) = m ((c : Thread nD τ).loc main_arg0) :=
  (StableHlo.after_of_writes_sub hostOps1 _ hostOps1_writes (by decide)).trans
    ((Y2_of_ne m c main_arg0 (by decide)).trans (StableHlo.after_of_writes_sub hostOps0 _ hostOps0_writes (by decide)))

set_option maxRecDepth 8192 in
set_option maxHeartbeats 1600000 in
theorem ops1_v28 (W : Valuation τ sig (Elt Ideal)) :
    (after (hostOps1 (F := Ideal)) W (main_v28 : DevRef τ sig) : S1x128.Idx → EReal) = meanK (W (main_v24_0 : DevRef τ sig)) := by
  after_results_simp
  rfl

set_option maxRecDepth 8192 in
set_option maxHeartbeats 1600000 in
theorem ops1_v34 (W : Valuation τ sig (Elt Ideal)) :
    (after (hostOps1 (F := Ideal)) W (main_v34 : DevRef τ sig) : S1x128.Idx → EReal) = varK (W (main_v24_0 : DevRef τ sig)) (W (main_v24_1 : DevRef τ sig)) := by
  after_results_simp
  rfl

/-- The mean and variance tables are the host terms of what the first region left in its two outputs. -/
theorem Y3_v28 (c : Dev nD) :
    (Y3 m c (Proc.devRef .tc main_v28) : S1x128.Idx → EReal) = meanK (Y2 m c (Proc.devRef .tc main_v24_0)) := ops1_v28 (Y2 m c)
theorem Y3_v34 (c : Dev nD) :
    (Y3 m c (Proc.devRef .tc main_v34) : S1x128.Idx → EReal)
      = varK (Y2 m c (Proc.devRef .tc main_v24_0)) (Y2 m c (Proc.devRef .tc main_v24_1)) := ops1_v34 (Y2 m c)

/-! ## The host terms at a column -/

theorem zero_apply {s : Shape} (i : s.Idx) : constant (F := Ideal) s .f32 0x00000000#32 i = 0 := by
  rw [constant_apply]; exact Ideal.ofBits_zero_f32

theorem n_apply {s : Shape} (i : s.Idx) : constant (F := Ideal) s .f32 0x47C35000#32 i = Cert.Spec.N := by
  rw [constant_apply]; exact Cert.LibBatchNorm.ofBits_100000

/-- The halves' table with its first axis dropped is a one-row table. -/
theorem reduces2 : S2x1x128.Reduces [0] S1x128 := by decide

theorem lift2_eq (j : Fin 128) (h : Fin 2) : reduces2.lift (ix2 (0 : Fin 1) j) h = ix3 h (0 : Fin 1) j := by
  funext a
  match a with
  | ⟨0, _⟩ => exact Fin.ext rfl
  | ⟨1, _⟩ => exact Fin.ext rfl
  | ⟨2, _⟩ => exact Fin.ext rfl

/-- The mean table at column j: the two halves' totals from zero, over the row count. -/
theorem meanK_apply (s : FVec Ideal S2x1x128 .f32) (j : Fin 128) :
    meanK s (ix2 (0 : Fin 1) j) = Ideal.div (0 + ∑ h : Fin 2, s (ix3 h (0 : Fin 1) j)) Cert.Spec.N := by
  unfold meanK
  show Ideal.div (Host.reduceAdd (F := Ideal) s (constant (F := Ideal) S_ .f32 0x00000000#32) reducesTo_S2x1x128_S1x128_d0 h_S_ (ix2 (0 : Fin 1) j))
      (broadcastInDim S1x128 ![] bcast_S_S1x128 (constant (F := Ideal) S_ .f32 0x47C35000#32) (ix2 (0 : Fin 1) j)) = _
  unfold Host.reduceAdd
  rw [Ideal.hostReduceAdd_def, Ideal.hostReduceAdd_single reducesTo_S2x1x128_S1x128_d0 reduces2, zero_apply,
    Cert.LibDenseRef.scalar_apply, n_apply]
  exact congrArg (fun t => Ideal.div ((0 : EReal) + t) Cert.Spec.N) (Finset.sum_congr rfl fun k _ => congrArg s (lift2_eq j k))

/-- The variance table at column j. -/
theorem varK_apply (s1 s2 : FVec Ideal S2x1x128 .f32) (j : Fin 128) :
    varK s1 s2 (ix2 (0 : Fin 1) j)
      = max (meanK s2 (ix2 (0 : Fin 1) j) - meanK s1 (ix2 (0 : Fin 1) j) * meanK s1 (ix2 (0 : Fin 1) j)) 0 := by
  unfold varK
  show max (meanK s2 (ix2 (0 : Fin 1) j) - meanK s1 (ix2 (0 : Fin 1) j) * meanK s1 (ix2 (0 : Fin 1) j))
      (broadcastInDim S1x128 ![] bcast_S_S1x128 (constant (F := Ideal) S_ .f32 0x00000000#32) (ix2 (0 : Fin 1) j)) = _
  rw [Cert.LibDenseRef.scalar_apply, zero_apply]

end Cert.KernelIdeal.HandV

end
-- ==== Proof.AggEq.lean ====
/-
  The table of neighbourhood means is one term on both sides.

  The kernel's host code and the reference compute the neighbourhood means by the same chain of operations: count the
  edges into each node, wrap negative source indices, gather the source rows, add them into their destination rows,
  divide each row by the larger of its count and one. The two spellings differ only in the evidence of the shape
  relations and in the dimension records of the two scatter-additions and the gather, whose data fields are the same
  literals; so the two terms are equal by definition.
-/
import proofs.«155481_j76647986365164_2_alg».proof.Proof.HostI
import proofs.«155481_j76647986365164_2_alg».proof.Proof.RefRun

noncomputable section

namespace Cert.AggEq

open Idealize.ShloMosaic

/-- The degree count's scatter record is the same on both sides. -/
theorem scatter1_eq [Cert.ReferenceIdeal.Facts] :
    Cert.KernelIdeal.scatter_S100000_S1000000x1_S1000000_n_0_0_1
      = Cert.ReferenceIdeal.scatter_S100000_S1000000x1_S1000000_n_0_0_1 := rfl

/-- The row sum's scatter record is the same on both sides. -/
theorem scatter2_eq [Cert.ReferenceIdeal.Facts] :
    Cert.KernelIdeal.scatter_S100000x128_S1000000x1_S1000000x128_1_0_0_1
      = Cert.ReferenceIdeal.scatter_S100000x128_S1000000x1_S1000000x128_1_0_0_1 := rfl

/-- The gather's record is the same on both sides. -/
theorem gather_eq [Cert.ReferenceIdeal.Facts] :
    Cert.KernelIdeal.gather_S100000x128_S1000000x1_S1000000x128_1_0_n_n_0_1_1128
      = Cert.ReferenceIdeal.gather_S100000x128_S1000000x1_S1000000x128_1_0_n_n_0_1_1128 := rfl

/-- The kernel's table of neighbourhood means is the reference's. -/
theorem agg_eq [Cert.ReferenceIdeal.Facts] (a0 : FVec Ideal Cert.KernelIdeal.S100000x128 .f32)
    (a1 a2 : IVec Cert.KernelIdeal.S1000000 32) :
    Cert.KernelIdeal.HandV.aggK a0 a1 a2 = Cert.ReferenceIdeal.RefRun.aggTerm a0 a1 a2 := by
  unfold Cert.KernelIdeal.HandV.aggK Cert.ReferenceIdeal.RefRun.aggTerm
  rfl

end Cert.AggEq

end
-- ==== Proof.LibDense.lean ====
/-
  One dense layer read at an entry.

  A dense layer sends a table x of m rows and n columns to  relu (x · w + b):  entry (a, j) of the result is
  max (Σ_k x(a, k) · w(k, j) + b(j)) 0,  the sum over the n columns of x (rows of w). Here the layer is spelt the way
  a vector unit computes one block of rows: both operands pass through a change of float format (the identity on
  the extended reals) and an identity re-shaping, the product accumulates into a zero table, the bias is a one-row
  table repeated down the rows, and the rectifier is the maximum with a table of zeros. The same value holds with
  no rectifier (lin_apply). No finiteness is assumed: only that zero is neutral for + and that the dimension
  record's contraction runs over the n positions of the shared axis.
-/
import Idealize.ShloMosaic.Lib.ValueIdx
import Idealize.ShloMosaic.Lib.ValueLayout
import Idealize.ShloMosaic.Lib.Pipeline.Value
import Idealize.ShloMosaic.PureOps.Ideal.Laws
import proofs.«155481_j76647986365164_2_alg».proof.Proof.LibDot

noncomputable section

open scoped BigOperators

namespace Cert.LibDense

open Idealize.ShloMosaic Idealize.ShloMosaic.ValueIdx

/-- A one-row table repeated down m rows: entry (a, j) is the row's entry j. -/
theorem row_apply {α : Type} {m p : Nat} (b : (⟨2, ![1, p]⟩ : Shape).Idx → α)
    (hb : (⟨2, ![1, p]⟩ : Shape).Broadcasts ⟨2, ![m, p]⟩) (a : Fin m) (j : Fin p) :
    broadcastTo ⟨2, ![m, p]⟩ b hb (ix2 a j) = b (ix2 (0 : Fin 1) j) := by
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- A one-row table repeated down m rows (after an identity re-shaping): entry (a, j) is the row's entry j. -/
theorem bias_apply {m p : Nat} (b : (⟨2, ![1, p]⟩ : Shape).Idx → EReal)
    (hc : (⟨2, ![1, p]⟩ : Shape).ShapeCasts ⟨2, ![1, p]⟩) (hb : (⟨2, ![1, p]⟩ : Shape).Broadcasts ⟨2, ![m, p]⟩)
    (a : Fin m) (j : Fin p) :
    broadcastTo ⟨2, ![m, p]⟩ (shapeCast ⟨2, ![1, p]⟩ b hc) hb (ix2 a j) = b (ix2 (0 : Fin 1) j) := by
  rw [shapeCast_self]
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- The linear part  x · w + b  of the layer at entry (a, j), the operands as they are. -/
theorem lin_core {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 x hbits) (truncf .bf16 w hbits) (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [addf_apply, bias_apply b hc hb a j]
  congr 1
  refine (Ideal.matmul_constant_zero_apply d none _ _ (ix2 a j)).trans ?_
  exact Cert.Sage.LibDot.sum_plain d hr hs hl0 hl1 hr0 hr1 (fun i => x i) (fun i => w i) a j

/-- The same with both operands passed through an identity re-shaping first. -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩) (hw : (⟨2, ![n, p]⟩ : Shape).ShapeCasts ⟨2, ![n, p]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 (shapeCast ⟨2, ![n, p]⟩ w hw) hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self, shapeCast_self]
  exact lin_core d hr hs hl0 hl1 hr0 hr1 x w b hc hb hbits a j

/-- The same with only the left operand passed through an identity re-shaping. -/
theorem lin_apply_x {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 w hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self]
  exact lin_core d hr hs hl0 hl1 hr0 hr1 x w b hc hb hbits a j

end Cert.LibDense

end
-- ==== Proof.ApplyPayI.lean ====
/-
  The normalising pass's pure term read at one entry of a block of 5000 rows.

  With X the block of aggregated rows, W the weight table, b, mean, var, gamma, beta the one-row tables and x the block
  of feature rows, entry (p, q) of the term is
      x(p, q) + max (((Σ_k X(p, k) · Wᵀ(k, q) + b(q) − mean(q)) · rsqrt (var(q) + ε)) · gamma(q) + beta(q)) 0,
  the sum over the 128 columns of X, that is the rows of the transposed weight table Wᵀ (kept as one table). The
  product accumulates into a zero table, so its entry is the plain sum; every one-row table repeated down the rows is
  read at its column; the identity re-shapings disappear; the zero word is 0 and ε is the word 0x3727C5AC.
  The product's dimension record contracts the columns of the left table against the rows of the right one: its
  contraction has one axis of extent 128, the left index at result (a, j) and position k is (a, k), the right (k, j).
-/
import proofs.«155481_j76647986365164_2_alg».proof.Proof.Gen.KernelIdeal.Skeleton
import proofs.«155481_j76647986365164_2_alg».proof.Proof.LibDense
import proofs.«155481_j76647986365164_2_alg».proof.Proof.Spec

noncomputable section

open scoped BigOperators

namespace Cert.KernelIdeal.HandV

open Cert.KernelIdeal Cert.KernelIdeal.Gen Idealize.ShloMosaic Idealize.ShloMosaic.ValueIdx

/-! ## The product's dimension record -/

/-- One axis is contracted, -/
theorem contr_rank : dot_S5000x128_S128x128_S5000x128_1_0_0_1_n_n.contr.rank = 1 := by decide
/-- of extent 128. -/
theorem contr_size : dot_S5000x128_S128x128_S5000x128_1_0_0_1_n_n.contr.size ⟨0, by rw [contr_rank]; omega⟩ = 128 := by decide

/-- The left index's row is the result's row, -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rfl

/-- its column the contraction position; -/
theorem lhs_col (i : S5000x128.Idx) (k : dot_S5000x128_S128x128_S5000x128_1_0_0_1_n_n.contr.Idx) :
    (dot_S5000x128_S128x128_S5000x128_1_0_0_1_n_n.lhsIdx i k 1).val = (k ⟨0, by rw [contr_rank]; omega⟩).val :=
  DotDims.lhsIdx_val_of_single dot_S5000x128_S128x128_S5000x128_1_0_0_1_n_n (cl := 1) rfl i k

/-- the right index's row is the contraction position, -/
theorem rhs_row (i : S5000x128.Idx) (k : dot_S5000x128_S128x128_S5000x128_1_0_0_1_n_n.contr.Idx) :
    (dot_S5000x128_S128x128_S5000x128_1_0_0_1_n_n.rhsIdx i k 0).val = (k ⟨0, by rw [contr_rank]; omega⟩).val :=
  DotDims.rhsIdx_val_of_single dot_S5000x128_S128x128_S5000x128_1_0_0_1_n_n (cr := 0) rfl i k

/-- its column the result's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rfl

/-! ## The term at an entry -/

/-- The pure term of the normalising pass at entry (p, q) of a block: the feature entry plus the rectified,
    normalised, scaled and shifted linear map. The product's sum runs over the 128 columns of the row block
    (rows of the transposed weight table, kept as one table); each one-row table is read at column q. -/
theorem block_entry (v0 : FVec Ideal S5000x128 .bf16) (v2 : FVec Ideal S128x128 .bf16)
    (v4 v10 v15 v21 v25 : FVec Ideal S1x128 .f32) (v31 : FVec Ideal S5000x128 .f32) (p : Fin 5000) (q : Fin 128) :
    k1_pay1 (F := Ideal) v0 v2 v4 v10 v15 v21 v25 v31 (ix2 p q)
      = v31 (ix2 p q)
        + max (((((∑ k : Fin 128, v0 (ix2 p k) * (transpose S128x128 [1, 0] v2 transposes_S128x128_p1_0_S128x128) (ix2 k q))
                    + v4 (ix2 (0 : Fin 1) q))
                  - v15 (ix2 (0 : Fin 1) q))
                 * Ideal.rsqrt (v10 (ix2 (0 : Fin 1) q) + Cert.Spec.eps))
                * v21 (ix2 (0 : Fin 1) q)
               + v25 (ix2 (0 : Fin 1) q)) 0 := by
  unfold k1_pay1
  dsimp only
  simp only [shapeCast_self]
  have hm : matmul dot_S5000x128_S128x128_S5000x128_1_0_0_1_n_n none v0
        (transpose S128x128 [1, 0] v2 transposes_S128x128_p1_0_S128x128) (constant (F := Ideal) S5000x128 .f32 0x00000000#32) (ix2 p q)
      = ∑ k : Fin 128, v0 (ix2 p k) * (transpose S128x128 [1, 0] v2 transposes_S128x128_p1_0_S128x128) (ix2 k q) :=
    (Ideal.matmul_constant_zero_apply dot_S5000x128_S128x128_S5000x128_1_0_0_1_n_n none _ _ (ix2 p q)).trans
      (Cert.Sage.LibDot.sum_plain dot_S5000x128_S128x128_S5000x128_1_0_0_1_n_n contr_rank contr_size lhs_row lhs_col rhs_row rhs_col
        (fun i => v0 i) (fun i => (transpose S128x128 [1, 0] v2 transposes_S128x128_p1_0_S128x128) i) p q)
  rw [addf_apply, maximumf_apply, addf_apply, mulf_apply, mulf_apply, subf_apply, addf_apply, hm,
    Cert.LibDense.row_apply v4 broadcasts_S1x128_S5000x128 p q,
    Cert.LibDense.row_apply v15 broadcasts_S1x128_S5000x128 p q,
    Cert.LibDense.row_apply v21 broadcasts_S1x128_S5000x128 p q,
    Cert.LibDense.row_apply v25 broadcasts_S1x128_S5000x128 p q,
    Cert.LibDense.row_apply _ broadcasts_S1x128_S5000x128 p q]
  simp only [broadcast_apply, Ideal.ofBits_def, Ideal.ofBits_zero_f32]
  rfl

end Cert.KernelIdeal.HandV

end
-- ==== Proof.KDefs.lean ====
/-
  The linear map of the layer at one entry, and how the rows are cut into blocks.
  With X the table of aggregated rows (100000 by 128), wt the transposed weights and bj the bias by column,
      y(r, j) = (Σ_k X(r, k) · wt(k, j)) + bj(j).
  The rows are split in two halves of ten blocks of 5000: row p of block u of half h is 5000 (10 h + u) + p, and
  row p of block t (t < 20) is 5000 t + p.
-/
import Idealize.ShloMosaic.PureOps.Ideal
import Idealize.ShloMosaic.Lib.ValueIdx

noncomputable section

open scoped BigOperators

namespace Cert.KSpec

open Idealize.ShloMosaic Idealize.ShloMosaic.ValueIdx

abbrev SA : Shape := ⟨2, ![100000, 128]⟩
abbrev SW : Shape := ⟨2, ![128, 128]⟩

/-- The linear map at entry (r, j). -/
def y (X : SA.Idx → EReal) (wt : SW.Idx → EReal) (bj : Fin 128 → EReal) (r : Fin 100000) (j : Fin 128) : EReal :=
  (∑ k : Fin 128, X (ix2 r k) * wt (ix2 k j)) + bj j

/-- Row p of block u of half h. -/
def rowOf (h : Fin 2) (u : Fin 10) (p : Fin 5000) : Fin 100000 := ⟨5000 * (10 * h.val + u.val) + p.val, by omega⟩

/-- Row p of block t. -/
def rowAt (t : Fin 20) (p : Fin 5000) : Fin 100000 := ⟨5000 * t.val + p.val, by omega⟩

end Cert.KSpec

end
-- ==== Proof.ApplyValI.lean ====
/-
  The second region's output array in closed form, at any contents V of the buffers when the region is entered.

  The region's grid has 20 points. Point t stages rows [5000 t, 5000 t + 5000) of the aggregated rows and of the
  feature rows, the whole weight table and the five one-row tables (bias, mean, variance, scale, shift), and writes
  back rows [5000 t, 5000 t + 5000) of the output. What it writes at entry (p, q) of its block is the body's pure term
  of the eight blocks, which (read at an entry) is
      x(r, q) + max (((Σ_k agg(r, k) · Wᵀ(k, q) + b(q) − mean(q)) · rsqrt (var(q) + ε)) · gamma(q) + beta(q)) 0
  at row r = 5000 t + p: a row block's entry (p, k) is the array's entry (5000 t + p, k) (a block's coordinate is its
  block index times the block's size plus the coordinate inside the block, and the index maps put the row-blocked
  windows at block t along the rows), and a whole-table window's block is its table (its block index is 0 on both
  axes). So each point writes the block of ONE function of the array index; row r lies in the block of point
  r / 5000, every point is written back, the 20 blocks cover the 100000 rows, and the array ends holding that function.
-/
import proofs.«155481_j76647986365164_2_alg».proof.Proof.ApplyI
import proofs.«155481_j76647986365164_2_alg».proof.Proof.ApplyPayI
import proofs.«155481_j76647986365164_2_alg».proof.Proof.KDefs
import proofs.«155481_j76647986365164_2_alg».proof.Proof.Spec
import Idealize.ShloMosaic.Lib.Pipeline.Value

noncomputable section

open scoped BigOperators

namespace Cert.KernelIdeal.HandV

open Cert.KernelIdeal Cert.KernelIdeal.Gen Cert.KernelIdeal.Hand Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The whole-block rectangles' offsets are zero on both axes. -/
theorem zero_offsets : (![0, 0] : Fin 2 → Nat) = fun _ => 0 := funext fun a => by fin_cases a <;> rfl

/-! ## The index maps -/

/-- The printed index maps over the 20 grid points: the three row-blocked windows (aggregated rows, feature rows,
    output) sit at block t along the rows and block 0 along the columns; the six whole-table windows at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-! ## The closed form -/

/-- The layer's normalising pass at row r, column j, from the eight input tables: features xf, aggregated rows agg,
    weights w (read transposed), and the one-row tables bias, mean, variance, scale, shift. -/
def closedOf (xf agg : S100000x128.Idx → EReal) (w : FVec Ideal S128x128 .bf16) (b mean var gamma beta : S1x128.Idx → EReal)
    (r : Fin 100000) (j : Fin 128) : EReal :=
  xf (ix2 r j)
    + max (((Cert.KSpec.y agg (transpose S128x128 [1, 0] w transposes_S128x128_p1_0_S128x128) (fun j' => b (ix2 (0 : Fin 1) j')) r j
              - mean (ix2 (0 : Fin 1) j))
             * Ideal.rsqrt (var (ix2 (0 : Fin 1) j) + Cert.Spec.eps))
            * gamma (ix2 (0 : Fin 1) j)
           + beta (ix2 (0 : Fin 1) j)) 0

/-- The same, written out. -/
theorem closedOf_apply (xf agg : S100000x128.Idx → EReal) (w : FVec Ideal S128x128 .bf16) (b mean var gamma beta : S1x128.Idx → EReal)
    (r : Fin 100000) (j : Fin 128) :
    closedOf xf agg w b mean var gamma beta r j
      = xf (ix2 r j)
        + max (((Cert.KSpec.y agg (transpose S128x128 [1, 0] w transposes_S128x128_p1_0_S128x128) (fun j' => b (ix2 (0 : Fin 1) j')) r j
                  - mean (ix2 (0 : Fin 1) j))
                 * Ideal.rsqrt (var (ix2 (0 : Fin 1) j) + Cert.Spec.eps))
                * gamma (ix2 (0 : Fin 1) j)
               + beta (ix2 (0 : Fin 1) j)) 0 := rfl

/-- The output at row r, column j, from the region-entry contents of the eight input arrays. -/
def closedAt (c : Dev nD) (r : Fin 100000) (j : Fin 128) : EReal :=
  closedOf (V c main_arg0) (V c main_v19) (V c main_v20) (V c main_v21) (V c main_v28) (V c main_v34) (V c main_v22) (V c main_v23) r j

/-- The output array as one function of its index. -/
def closed (c : Dev nD) : S100000x128.Idx → EReal :=
  fun i => closedAt V c ⟨(i 0).val, idx2_lt0 i⟩ ⟨(i 1).val, idx2_lt1 i⟩

/-! ## Each window's block at a point, read off its array -/

/-- Entry (p, k) of the block of aggregated rows at point t is row 5000 t + p of the array. -/
theorem rows_agg (c : Dev nD) (t : Fin cfg1.N) (p : Fin 5000) (k : Fin 128) (i : S100000x128.Idx)
    (hi0 : (i 0).val = 5000 * t.val + p.val) (hi1 : (i 1).val = k.val) :
    (iblk1 V c 0 t : Vec Ideal S5000x128 .bf16) (ix2 p k) = (V c main_v19 : S100000x128.Idx → EReal) i := by
  obtain ⟨e0, e1, -⟩ := block_indices t
  unfold iblk1
  rw [View.read_apply]
  show (V c main_v19 : S100000x128.Idx → EReal) _ = V c main_v19 i
  congr 1
  funext a
  apply Fin.ext
  match a with
  | ⟨0, _⟩ => show win1_0.index t 0 * 5000 + 1 * p.val = (i 0).val; rw [e0, hi0]; omega
  | ⟨1, _⟩ => show win1_0.index t 1 * 128 + 1 * k.val = (i 1).val; rw [e1, hi1]; omega

/-- Entry (p, k) of the block of feature rows at point t is row 5000 t + p of the array. -/
theorem rows_feat (c : Dev nD) (t : Fin cfg1.N) (p : Fin 5000) (k : Fin 128) (i : S100000x128.Idx)
    (hi0 : (i 0).val = 5000 * t.val + p.val) (hi1 : (i 1).val = k.val) :
    (iblk1 V c 1 t : Vec Ideal S5000x128 .f32) (ix2 p k) = (V c main_arg0 : S100000x128.Idx → EReal) i := by
  obtain ⟨-, -, e0, e1, -⟩ := block_indices t
  unfold iblk1
  rw [View.read_apply]
  show (V c main_arg0 : S100000x128.Idx → EReal) _ = V c main_arg0 i
  congr 1
  funext a
  apply Fin.ext
  match a with
  | ⟨0, _⟩ => show win1_1.index t 0 * 5000 + 1 * p.val = (i 0).val; rw [e0, hi0]; omega
  | ⟨1, _⟩ => show win1_1.index t 1 * 128 + 1 * k.val = (i 1).val; rw [e1, hi1]; omega

/-- The weight window's block is the whole table at every point. -/
theorem whole_weights (c : Dev nD) (t : Fin cfg1.N) :
    (iblk1 V c 2 t : Vec Ideal S128x128 .bf16) = (V c main_v20 : S128x128.Idx → EReal) := by
  obtain ⟨-, -, -, -, e0, e1, -⟩ := block_indices t
  funext y
  unfold iblk1
  rw [View.read_apply]
  show (V c main_v20 : S128x128.Idx → EReal) _ = V c main_v20 y
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- The bias window's block is the whole row at every point. -/
theorem whole_bias (c : Dev nD) (t : Fin cfg1.N) :
    (iblk1 V c 3 t : Vec Ideal S1x128 .f32) = (V c main_v21 : S1x128.Idx → EReal) := by
  obtain ⟨-, -, -, -, -, -, e0, e1, -⟩ := block_indices t
  funext y
  unfold iblk1
  rw [View.read_apply]
  show (V c main_v21 : S1x128.Idx → EReal) _ = V c main_v21 y
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- The mean window's block is the whole row at every point. -/
theorem whole_mean (c : Dev nD) (t : Fin cfg1.N) :
    (iblk1 V c 4 t : Vec Ideal S1x128 .f32) = (V c main_v28 : S1x128.Idx → EReal) := by
  obtain ⟨-, -, -, -, -, -, -, -, e0, e1, -⟩ := block_indices t
  funext y
  unfold iblk1
  rw [View.read_apply]
  show (V c main_v28 : S1x128.Idx → EReal) _ = V c main_v28 y
  congr 1
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

/-- The variance window's block is the whole row at every point. -/
theorem whole_var (c : Dev nD) (t : Fin cfg1.N) :
    (iblk1 V c 5 t : Vec Ideal S1x128 .f32) = (V c main_v34 : S1x128.Idx → EReal) := by
  obtain ⟨-, -, -, -, -, -, -, -, -, -, e0, e1, -⟩ := block_indices t
  funext y
  unfold iblk1
  rw [View.read_apply]
  show (V c main_v34 : S1x128.Idx → EReal) _ = V c main_v34 y
  congr 1
  funext a
  apply Fin.ext
  match a with
  | ⟨0, _⟩ => show win1_5.index t 0 * 1 + 1 * (y 0).val = (y 0).val; rw [e0]; omega
  | ⟨1, _⟩ => show win1_5.index t 1 * 128 + 1 * (y 1).val = (y 1).val; rw [e1]; omega

/-- The scale window's block is the whole row at every point. -/
theorem whole_scale (c : Dev nD) (t : Fin cfg1.N) :
    (iblk1 V c 6 t : Vec Ideal S1x128 .f32) = (V c main_v22 : S1x128.Idx → EReal) := by
  obtain ⟨-, -, -, -, -, -, -, -, -, -, -, -, e0, e1, -⟩ := block_indices t
  funext y
  unfold iblk1
  rw [View.read_apply]
  show (V c main_v22 : S1x128.Idx → EReal) _ = V c main_v22 y
  congr 1
  funext a
  apply Fin.ext
  match a with
  | ⟨0, _⟩ => show win1_6.index t 0 * 1 + 1 * (y 0).val = (y 0).val; rw [e0]; omega
  | ⟨1, _⟩ => show win1_6.index t 1 * 128 + 1 * (y 1).val = (y 1).val; rw [e1]; omega

/-- The shift window's block is the whole row at every point. -/
theorem whole_shift (c : Dev nD) (t : Fin cfg1.N) :
    (iblk1 V c 7 t : Vec Ideal S1x128 .f32) = (V c main_v23 : S1x128.Idx → EReal) := by
  obtain ⟨-, -, -, -, -, -, -, -, -, -, -, -, -, -, e0, e1, -⟩ := block_indices t
  funext y
  unfold iblk1
  rw [View.read_apply]
  show (V c main_v23 : S1x128.Idx → EReal) _ = V c main_v23 y
  congr 1
  funext a
  apply Fin.ext
  match a with
  | ⟨0, _⟩ => show win1_7.index t 0 * 1 + 1 * (y 0).val = (y 0).val; rw [e0]; omega
  | ⟨1, _⟩ => show win1_7.index t 1 * 128 + 1 * (y 1).val = (y 1).val; rw [e1]; omega

/-! ## What a point writes -/

/-- Entry (p, q) of what the body leaves at point t is the closed form at row 5000 t + p, column q. -/
theorem written_entry (c : Dev nD) (t : Fin cfg1.N) (p : Fin 5000) (q : Fin 128) (r : Fin 100000)
    (hr : r.val = 5000 * t.val + p.val) :
    k1_pay1 (F := Ideal) (iblk1 V c 0 t) (iblk1 V c 2 t) (iblk1 V c 3 t) (iblk1 V c 5 t) (iblk1 V c 4 t) (iblk1 V c 6 t)
        (iblk1 V c 7 t) (iblk1 V c 1 t) (ix2 p q) = closedAt V c r q := by
  refine (block_entry (iblk1 V c 0 t) (iblk1 V c 2 t) (iblk1 V c 3 t) (iblk1 V c 5 t) (iblk1 V c 4 t) (iblk1 V c 6 t)
    (iblk1 V c 7 t) (iblk1 V c 1 t) p q).trans ?_
  have hagg : ∀ k : Fin 128, (iblk1 V c 0 t : Vec Ideal S5000x128 .bf16) (ix2 p k) = (V c main_v19 : S100000x128.Idx → EReal) (ix2 r k) :=
    fun k => rows_agg V c t p k (ix2 r k) hr rfl
  rw [rows_feat V c t p q (ix2 r q) hr rfl, whole_weights V c t, whole_bias V c t, whole_mean V c t, whole_var V c t,
    whole_scale V c t, whole_shift V c t]
  simp only [hagg]
  rfl

/-- What point t writes back is block t of the closed form. -/
theorem written_block (c : Dev nD) (t : Fin cfg1.N) :
    (dat1 (F := Ideal) V c).flushed 8 t = ((cfg1.win 8).blk t).view.read (Elt Ideal) (closed V c) := by
  show (cfg1.win 8).cut (grid1.coords t) ((dat1 V c).after 8 t) = _
  rw [after1_8]
  unfold out1_8
  rw [View.canon_unit_zero zero_offsets]
  simp only [View.ld_unit_zero (S := S5000x128) zero_offsets, View.ld_unit_zero (S := S128x128) zero_offsets,
    View.ld_unit_zero (S := S1x128) zero_offsets]
  have ht : t.val < 20 := lt_of_lt_of_eq t.isLt N_1
  obtain ⟨-, -, -, -, -, -, -, -, -, -, -, -, -, -, -, -, e0, e1⟩ := block_indices t
  funext y
  obtain ⟨p, q, rfl⟩ : ∃ (p : Fin 5000) (q : Fin 128), y = ix2 p q := ⟨y 0, y 1, eq_ix2 y⟩
  show k1_pay1 (F := Ideal) (iblk1 V c 0 t) (iblk1 V c 2 t) (iblk1 V c 3 t) (iblk1 V c 5 t) (iblk1 V c 4 t) (iblk1 V c 6 t)
      (iblk1 V c 7 t) (iblk1 V c 1 t) (ix2 p q) = closed V c (((cfg1.win 8).blk t).view.emb (ix2 p q))
  refine (written_entry V c t p q ⟨5000 * t.val + p.val, by have := p.isLt; omega⟩ rfl).trans ?_
  unfold closed
  congr 1 <;> apply Fin.ext
  · show 5000 * t.val + p.val = win1_8.index t 0 * 5000 + 1 * p.val
    rw [e0]; omega
  · show q.val = win1_8.index t 1 * 128 + 1 * q.val
    rw [e1]; omega

/-! ## The blocks cover the array -/

/-- An index of the array is in point t's block iff each coordinate is in the block's range on its axis. -/
theorem mem_block (t : Fin cfg1.N) (i : S100000x128.Idx) :
    i ∈ ((cfg1.win 8).blk t).view.set
      ↔ ∀ a : Fin 2, win1_8.index t a * S5000x128.size a ≤ (i a).val ∧ (i a).val < win1_8.index t a * S5000x128.size a + S5000x128.size a := by
  show i ∈ ((View.whole main_v35).slice (win1_8.rect t)).set ↔ _
  rw [View.set_slice_whole, Rect.mem_set_unit]
  exact Iff.rfl

/-- Row r lies in the block of point r / 5000, which is written back. -/
theorem covered (i : S100000x128.Idx) :
    ∃ t : Fin cfg1.N, (cfg1.win 8).flush t = true ∧ i ∈ ((cfg1.win 8).blk t).view.set := by
  have hi0 : (i 0).val < 100000 := idx2_lt0 i
  have hi1 : (i 1).val < 128 := idx2_lt1 i
  have hN : cfg1.N = 20 := N_1
  have hlt : (i 0).val / 5000 < cfg1.N := by rw [hN]; omega
  obtain ⟨-, -, -, -, -, -, -, -, -, -, -, -, -, -, -, -, e0, e1⟩ := block_indices ⟨(i 0).val / 5000, hlt⟩
  refine ⟨⟨(i 0).val / 5000, hlt⟩, flush1_8 _, ?_⟩
  rw [mem_block]
  intro a
  match a with
  | ⟨0, _⟩ =>
    show win1_8.index ⟨(i 0).val / 5000, hlt⟩ 0 * 5000 ≤ (i 0).val ∧ (i 0).val < win1_8.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win1_8.index ⟨(i 0).val / 5000, hlt⟩ 1 * 128 ≤ (i 1).val ∧ (i 1).val < win1_8.index ⟨(i 0).val / 5000, hlt⟩ 1 * 128 + 128
    rw [e1]
    omega

/-! ## The array after the region -/

/-- The output array ends holding the closed form. -/
theorem array_closed (c : Dev nD) : (dat1 (F := Ideal) V c).arrAt 8 cfg1.N = closed V c :=
  (dat1 V c).arrAt_eq_of_cover 8 (closed V c) (fun t _ => written_block V c t) covered

/-- The output array at row r, column j. -/
theorem apply_value (c : Dev nD) (r : Fin 100000) (j : Fin 128) :
    ((dat1 (F := Ideal) V c).arrAt 8 cfg1.N : S100000x128.Idx → EReal) (ix2 r j)
      = closedOf (V c main_arg0) (V c main_v19) (V c main_v20) (V c main_v21) (V c main_v28) (V c main_v34) (V c main_v22)
          (V c main_v23) r j := by
  rw [array_closed V c]
  rfl

end Cert.KernelIdeal.HandV

end
-- ==== Proof.LibFiniteOps.lean ====
/-
  Finiteness carried through the host's array operations, on the extended reals.

  A table is FINITE when every entry is a real number. This module carries finiteness through the operations a
  message-passing layer is made of, each read at the ideal float instance:
    - a gather reads, at every result index, SOME entry of its operand (a clamped start plus offsets), so a gather
      of a finite table is finite, whatever the indices are;
    - an accumulating scatter leaves, at every index, the operand's entry plus a finite sum of update entries (the
      updates whose target is that index; an update aimed outside the operand is dropped), so it is finite when the
      operand and the updates are; and where the operand is zero and every update is one, an entry is the NUMBER of
      updates aimed at it, which is at least one as soon as one update is aimed there;
    - a matrix product's entry is a finite sum of products of entries; a sum-reduction's entry is the initial value
      plus a finite sum of entries; point-wise sums, differences, products and maxima keep finiteness.
  Nothing here depends on the shapes' extents.
-/
import Idealize.ShloMosaic.PureOps.Ideal.Laws
import Idealize.ShloMosaic.Lib.ValueIdx
import proofs.«155481_j76647986365164_2_alg».proof.Proof.LibFinite

noncomputable section

open scoped BigOperators

namespace Cert.LibFiniteOps

open Idealize.ShloMosaic Cert.LibFinite

/-- A table all of whose entries are real numbers. -/
def Finite {ι : Type} (x : ι → EReal) : Prop := ∀ i, IsReal (x i)

/-- A gather's entry is an entry of its operand. -/
theorem gather_mem {s si t : Shape} {w : Nat} {α : Type} (d : GatherDims s si t) (x : s.Idx → α) (idx : IVec si w) (j : t.Idx) :
    ∃ i, Host.gather d x idx j = x i := ⟨_, rfl⟩

/-- A gather of a finite table is finite, whatever the indices. -/
theorem gather_finite {s si t : Shape} {w : Nat} (d : GatherDims s si t) (x : s.Idx → EReal) (idx : IVec si w) (hx : Finite x) :
    Finite (Host.gather d x idx) := fun j => by
  obtain ⟨i, hi⟩ := gather_mem d x idx j
  rw [hi]; exact hx i

/-- An accumulating scatter at an index: the operand's entry plus the sum of the updates aimed at it. -/
theorem scatterAdd_apply {s si u : Shape} {w : Nat} {φ : FTy} (d : ScatterDims s si u) (x : FVec Ideal s φ) (idx : IVec si w)
    (upd : FVec Ideal u φ) (i : s.Idx) :
    Host.scatterAdd d x idx upd i = x i + ∑ j ∈ Finset.univ.filter (fun j => d.resultIdx? j idx = some i), upd j := rfl

/-- An accumulating scatter of finite updates into a finite operand is finite. -/
theorem scatterAdd_finite {s si u : Shape} {w : Nat} {φ : FTy} (d : ScatterDims s si u) (x : FVec Ideal s φ) (idx : IVec si w)
    (upd : FVec Ideal u φ) (hx : Finite (fun i => (x i : EReal))) (hu : Finite (fun j => (upd j : EReal))) :
    Finite (fun i => (Host.scatterAdd d x idx upd i : EReal)) := fun i => by
  show IsReal (Host.scatterAdd d x idx upd i)
  rw [scatterAdd_apply]
  exact (hx i).add (isReal_sum _ _ fun j _ => hu j)

/-- One added to itself n times is the real number n. -/
theorem nsmul_one_eq (n : ℕ) : n • (1 : EReal) = ((n : ℝ) : EReal) := by
  induction n with
  | zero => simp
  | succ n ih => rw [succ_nsmul, ih, Nat.cast_succ, EReal.coe_add, EReal.coe_one]

/-- Counting: into a zero operand, with every update equal to one, an entry is the number of updates aimed at it —
    a real number, and at least one as soon as one update is aimed there. -/
theorem scatterAdd_count {s si u : Shape} {w : Nat} {φ : FTy} (d : ScatterDims s si u) (x : FVec Ideal s φ) (idx : IVec si w)
    (upd : FVec Ideal u φ) (hx : ∀ i, (x i : EReal) = 0) (hu : ∀ j, (upd j : EReal) = 1) (i : s.Idx)
    (j₀ : u.Idx) (hj : d.resultIdx? j₀ idx = some i) :
    ∃ r : ℝ, 1 ≤ r ∧ (Host.scatterAdd d x idx upd i : EReal) = (r : EReal) := by
  classical
  refine ⟨((Finset.univ.filter (fun j => d.resultIdx? j idx = some i)).card : ℝ), ?_, ?_⟩
  · have hpos : 0 < (Finset.univ.filter (fun j => d.resultIdx? j idx = some i)).card :=
      Finset.card_pos.mpr ⟨j₀, Finset.mem_filter.mpr ⟨Finset.mem_univ _, hj⟩⟩
    exact_mod_cast hpos
  · rw [scatterAdd_apply, hx i, zero_add, Finset.sum_congr rfl (fun j _ => hu j), Finset.sum_const]
    exact nsmul_one_eq _

/-- A host matrix product of finite tables is finite. -/
theorem dotGeneral_finite {sl sr so : Shape} {φ₁ φ₂ : FTy} (d : DotDims sl sr so) (prec : Option ContractPrecision)
    (l : FVec Ideal sl φ₁) (r : FVec Ideal sr φ₂) (hl : Finite (fun i => (l i : EReal))) (hr : Finite (fun i => (r i : EReal))) :
    Finite (fun j => (Host.dotGeneral d prec l r j : EReal)) := fun j => by
  show IsReal (Host.dotGeneral d prec l r j)
  simp only [Host.dotGeneral]
  rw [Ideal.dotGeneral_apply]
  exact isReal_sum _ _ fun k _ => (hl _).mul (hr _)

end Cert.LibFiniteOps

end
-- ==== Proof.FiniteI.lean ====
/-
  From the precondition to real numbers.
  The precondition says of each float input that every entry's magnitude compares below the infinity pattern; on the
  extended reals that makes every entry a real number.  Finiteness then passes through the aggregation: a gathered
  row is a row of the features; a scatter-add of finitely many reals into zeros is real; a node's count is a real at
  least 0, so the divisor max(count, 1) is a real at least 1 and the quotient is real.  Hence every entry of
  y = agg · Wᵀ + b is real: a finite sum of products of reals plus a real.
-/
import proofs.«155481_j76647986365164_2_alg».proof.Defs
import proofs.«155481_j76647986365164_2_alg».proof.Proof.HostI
import proofs.«155481_j76647986365164_2_alg».proof.Proof.KDefs
import proofs.«155481_j76647986365164_2_alg».proof.Proof.LibFinite
import proofs.«155481_j76647986365164_2_alg».proof.Proof.LibFiniteOps
import proofs.«155481_j76647986365164_2_alg».proof.Proof.LibDenseRef
import proofs.«155481_j76647986365164_2_alg».proof.Proof.Gen.Pre_finite_inputs
import Idealize.ShloMosaic.Lib.ReduceAll

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Cert.LibFinite Cert.LibFiniteOps

instance : Subsingleton Cert.Pre_finite_inputs.S_.Idx := ⟨fun a b => funext fun d => d.elim0⟩

/-- The infinity pattern is the top extended real. -/
theorem inf_top : Ideal.ofBits .f32 0x7F800000#32 = (⊤ : EReal) := by simp [Ideal.ofBits, Ideal.ieee]

/-- An entry whose magnitude compares below the infinity pattern is a real number. -/
theorem entry_real {s : Shape} (hb : Cert.Pre_finite_inputs.S_.BroadcastsInDim s (![] : Fin 0 → Fin s.rank)) (x : FVec Ideal s .f32) (i : s.Idx)
    (h : cmpf .olt (Host.absf x) (broadcastInDim s ![] hb (constant (F := Ideal) Cert.Pre_finite_inputs.S_ .f32 0x7F800000#32)) i = 1#1) :
    IsReal (x i) := by
  have hB : broadcastInDim s ![] hb (constant (F := Ideal) Cert.Pre_finite_inputs.S_ .f32 0x7F800000#32) i = (⊤ : EReal) := by
    rw [Cert.LibDenseRef.scalar_apply, constant_apply]; exact inf_top
  have h2 : Ideal.cmp .olt (max (x i) (-(x i))) (broadcastInDim s ![] hb (constant (F := Ideal) Cert.Pre_finite_inputs.S_ .f32 0x7F800000#32) i) = 1#1 := h
  rw [hB] at h2
  refine isReal_of_abs_lt_top ?_
  by_contra hn
  have h0 : Ideal.cmp .olt (max (x i) (-(x i))) (⊤ : EReal) = 0#1 := by
    unfold Ideal.cmp; simp [hn]
  rw [h0] at h2
  exact absurd h2 (by decide)

/-- Under the precondition every entry of the five float inputs is a real number. -/
theorem pre_real (m : (ℓ : Loc nD τ sig) → Buf (Elt Ideal) ℓ) (hpre : Cert.Pre_KernelIdeal m) (c : Dev nD) :
    (∀ i, IsReal (m ((c.tc : Thread nD τ).loc main_arg0) i)) ∧ (∀ i, IsReal (m ((c.tc : Thread nD τ).loc main_arg3) i))
    ∧ (∀ i, IsReal (m ((c.tc : Thread nD τ).loc main_arg4) i)) ∧ (∀ i, IsReal (m ((c.tc : Thread nD τ).loc main_arg5) i))
    ∧ (∀ i, IsReal (m ((c.tc : Thread nD τ).loc main_arg6) i)) := by
  have h := congrFun (hpre c) ValueIdx.ix0
  dsimp only [Cert.Pre_finite_inputs.fn, Cert.Pre_finite_inputs.fn_part1] at h
  obtain ⟨h1, h6⟩ := IntOp.andi_eq_one.1 h
  obtain ⟨h2, h5⟩ := IntOp.andi_eq_one.1 h1
  obtain ⟨h3, h4⟩ := IntOp.andi_eq_one.1 h2
  obtain ⟨h0, h3'⟩ := IntOp.andi_eq_one.1 h3
  exact ⟨fun i => entry_real _ _ i (Host.reduce_andi_all _ _ _ _ _ h0 i),
    fun i => entry_real _ _ i (Host.reduce_andi_all _ _ _ _ _ h3' i),
    fun i => entry_real _ _ i (Host.reduce_andi_all _ _ _ _ _ h4 i),
    fun i => entry_real _ _ i (Host.reduce_andi_all _ _ _ _ _ h5 i),
    fun i => entry_real _ _ i (Host.reduce_andi_all _ _ _ _ _ h6 i)⟩

/-! ## Through the aggregation -/

/-- A table laid along more axes reads, at each index, some entry of the table. -/
theorem bcast_mem {α : Type} {s t : Shape} {dims : Fin s.rank → Fin t.rank} (h : s.BroadcastsInDim t dims) (x : s.Idx → α) (j : t.Idx) :
    ∃ k, broadcastInDim t dims h x j = x k := ⟨_, rfl⟩

theorem zero_real {s : Shape} (i : s.Idx) : IsReal (constant (F := Ideal) s .f32 0x00000000#32 i) := by
  rw [zero_apply]; exact isReal_zero

theorem one_apply {s : Shape} (i : s.Idx) : constant (F := Ideal) s .f32 0x3F800000#32 i = 1 := by
  rw [constant_apply]
  simp [Ideal.ofBits, Ideal.ieee]
  rw [← EReal.coe_mul]; norm_num

/-- The larger of a real and one is a non-zero real. -/
theorem max_one_real {x : EReal} (hx : IsReal x) : ∃ r : ℝ, r ≠ 0 ∧ max x 1 = (r : EReal) := by
  obtain ⟨d, rfl⟩ := hx
  refine ⟨max d 1, ne_of_gt (lt_of_lt_of_le one_pos (le_max_right d 1)), ?_⟩
  rw [← EReal.coe_one]
  rcases le_total d 1 with h | h
  · rw [max_eq_right h, max_eq_right (by exact_mod_cast h)]
  · rw [max_eq_left h, max_eq_left (by exact_mod_cast h)]

/-- A table of reals divided entry by entry by max(count, 1) laid along the rows, the counts real, is a table of reals. -/
theorem quot_real (NUM : FVec Ideal S100000x128 .f32) (DEG ONES : FVec Ideal S100000 .f32)
    (hN : ∀ i, IsReal (NUM i)) (hD : ∀ k, IsReal (DEG k)) (hO : ∀ k, ONES k = 1) (i : S100000x128.Idx) :
    IsReal (Host.divf (F := Ideal) NUM
      (broadcastInDim S100000x128 ![0, 1] bcast_S100000x1_S100000x128_0_1
        (broadcastInDim S100000x1 ![0] bcast_S100000_S100000x1_0 (maximumf DEG ONES))) i) := by
  obtain ⟨k1, hk1⟩ := bcast_mem bcast_S100000x1_S100000x128_0_1 (broadcastInDim S100000x1 ![0] bcast_S100000_S100000x1_0 (maximumf DEG ONES)) i
  obtain ⟨k2, hk2⟩ := bcast_mem bcast_S100000_S100000x1_0 (maximumf DEG ONES) k1
  obtain ⟨n, hn⟩ := hN i
  have hm : maximumf DEG ONES k2 = max (DEG k2) 1 := by
    show max (DEG k2) (ONES k2) = _
    rw [hO]
  obtain ⟨r, hr, hmax⟩ := max_one_real (hD k2)
  show IsReal (Ideal.div (NUM i) (broadcastInDim S100000x128 ![0, 1] bcast_S100000x1_S100000x128_0_1
        (broadcastInDim S100000x1 ![0] bcast_S100000_S100000x1_0 (maximumf DEG ONES)) i))
  rw [hn, hk1, hk2, hm, hmax]
  exact (isReal_coe n).div_coe hr

/-- A table that reads the zero literal everywhere, or the literal one. -/
theorem zeros_real {t : Shape} (hb : S_.BroadcastsInDim t (![] : Fin 0 → Fin t.rank)) (k : t.Idx) :
    IsReal (broadcastInDim t ![] hb (constant (F := Ideal) S_ .f32 0x00000000#32) k) := by
  obtain ⟨k', hk⟩ := bcast_mem hb (constant (F := Ideal) S_ .f32 0x00000000#32) k
  rw [hk]; exact zero_real _
theorem ones_read {t : Shape} (hb : S_.BroadcastsInDim t (![] : Fin 0 → Fin t.rank)) (k : t.Idx) :
    broadcastInDim t ![] hb (constant (F := Ideal) S_ .f32 0x3F800000#32) k = 1 := by
  obtain ⟨k', hk⟩ := bcast_mem hb (constant (F := Ideal) S_ .f32 0x3F800000#32) k
  rw [hk]; exact one_apply _

/-- Every entry of the table of neighbourhood means of real features is real. -/
theorem aggK_real (a0 : FVec Ideal S100000x128 .f32) (a1 a2 : IVec S1000000 32) (h0 : ∀ i, IsReal (a0 i)) (i : S100000x128.Idx) :
    IsReal (aggK a0 a1 a2 i) := by
  unfold aggK
  refine quot_real _ _ _ ?_ ?_ (fun k => ones_read _ k) i
  · exact scatterAdd_finite _ _ _ _ (fun k => zeros_real _ k) (gather_finite _ a0 _ h0)
  · exact scatterAdd_finite _ _ _ _ (fun k => zeros_real _ k) (fun k => by
      show IsReal (broadcastInDim S1000000 ![] bcast_S_S1000000 (constant (F := Ideal) S_ .f32 0x3F800000#32) k)
      rw [ones_read]; exact isReal_one)

/-- Every entry of y is real when the aggregated rows, the weights and the bias are. -/
theorem y_real (X : Cert.KSpec.SA.Idx → EReal) (wt : Cert.KSpec.SW.Idx → EReal) (bj : Fin 128 → EReal)
    (hX : ∀ i, IsReal (X i)) (hw : ∀ i, IsReal (wt i)) (hb : ∀ j, IsReal (bj j)) (r : Fin 100000) (j : Fin 128) :
    IsReal (Cert.KSpec.y X wt bj r j) := by
  unfold Cert.KSpec.y
  exact (isReal_sum _ _ fun k _ => (hX _).mul (hw _)).add (hb j)

end Cert.KernelIdeal.HandV

end
-- ==== Proof.LibBlocks.lean ====
/-
  Sums and maxima over the rows of a tall table, taken block of rows by block of rows.

  A table of n = a·b rows is cut into a consecutive blocks of b rows; row i lies in block i / b at position
  i % b, and block t, position r is row b·t + r. In a commutative monoid a sum over all rows is the sum over the
  blocks of the sums over each block's rows, and in a complete lattice the supremum over all rows is the supremum
  over the blocks of each block's supremum: both are re-indexings along the bijection (t, r) ↦ b·t + r, and
  neither needs any finiteness of the entries (only associativity and commutativity are used).
  Also: a running total that starts from a seed and adds one block's contribution per step is the seed plus
  the sum of the contributions so far (and likewise for a running maximum), by induction on the step.
-/
import Mathlib.Algebra.BigOperators.Fin
import Mathlib.Algebra.BigOperators.Group.Finset.Basic
import Mathlib.Order.CompleteLattice.Finset
import Mathlib.Data.Fintype.Lattice
import Mathlib.Tactic.Ring
import Mathlib.Logic.Equiv.Fin.Basic
import Mathlib.Data.Fintype.BigOperators

namespace Cert.LibBlocks

/-- Row b·t + r of a table of n = a·b rows. -/
def row {a b n : ℕ} (h : a * b = n) (t : Fin a) (r : Fin b) : Fin n :=
  ⟨b * t.val + r.val, by
    have := t.isLt; have := r.isLt
    calc b * t.val + r.val < b * t.val + b := by omega
      _ = b * (t.val + 1) := by ring
      _ ≤ b * a := Nat.mul_le_mul_left _ (by omega)
      _ = n := by rw [Nat.mul_comm]; exact h⟩

@[simp] theorem row_val {a b n : ℕ} (h : a * b = n) (t : Fin a) (r : Fin b) : (row h t r).val = b * t.val + r.val := rfl

/-- The rows are exactly the block positions: (t, r) ↦ b·t + r is a bijection from blocks × positions. -/
def rowEquiv {a b n : ℕ} (h : a * b = n) : Fin a × Fin b ≃ Fin n :=
  finProdFinEquiv.trans (finCongr h)

theorem rowEquiv_apply {a b n : ℕ} (h : a * b = n) (t : Fin a) (r : Fin b) : rowEquiv h (t, r) = row h t r := by
  apply Fin.ext
  simp [rowEquiv, row, Nat.add_comm]

/-- A sum over all rows is the sum over the blocks of each block's sum. -/
theorem sum_rows {M : Type*} [AddCommMonoid M] {a b n : ℕ} (h : a * b = n) (f : Fin n → M) :
    ∑ i, f i = ∑ t : Fin a, ∑ r : Fin b, f (row h t r) := by
  rw [← Fintype.sum_prod_type' (f := fun t r => f (row h t r))]
  exact (Fintype.sum_equiv (rowEquiv h) (fun p => f (row h p.1 p.2)) f
    (fun p => by rw [← rowEquiv_apply])).symm

/-- A supremum over all rows is the supremum over the blocks of each block's supremum. -/
theorem sup_rows {L : Type*} [CompleteLattice L] {a b n : ℕ} (h : a * b = n) (f : Fin n → L) :
    Finset.univ.sup f = Finset.univ.sup fun t : Fin a => Finset.univ.sup fun r : Fin b => f (row h t r) := by
  simp only [Finset.sup_univ_eq_iSup]
  rw [← (rowEquiv h).iSup_comp (g := f), iSup_prod]
  exact iSup_congr fun t => iSup_congr fun r => by rw [rowEquiv_apply]

/-- A running total: seeded at step 0 with the seed plus the first contribution, then one contribution per step. -/
theorem running_sum {M : Type*} [AddCommMonoid M] (seed : M) (g acc : ℕ → M)
    (h0 : acc 0 = seed + g 0) (hs : ∀ n, acc (n + 1) = acc n + g (n + 1)) (n : ℕ) :
    acc n = seed + ∑ u ∈ Finset.range (n + 1), g u := by
  induction n with
  | zero => simp [h0]
  | succ n ih => rw [hs, ih, Finset.sum_range_succ _ (n + 1), add_assoc]

/-- A running maximum, likewise. -/
theorem running_sup {L : Type*} [SemilatticeSup L] [OrderBot L] (seed : L) (g acc : ℕ → L)
    (h0 : acc 0 = seed ⊔ g 0) (hs : ∀ n, acc (n + 1) = acc n ⊔ g (n + 1)) (n : ℕ) :
    acc n = seed ⊔ (Finset.range (n + 1)).sup g := by
  induction n with
  | zero => simp [h0]
  | succ n ih => rw [hs, ih, Finset.range_add_one (n := n + 1), Finset.sup_insert, sup_assoc, sup_comm (g (n + 1))]

/-- The sum over the first a naturals is the sum over Fin a. -/
theorem sum_range_fin {M : Type*} [AddCommMonoid M] (a : ℕ) (g : ℕ → M) :
    ∑ u ∈ Finset.range a, g u = ∑ t : Fin a, g t.val := (Fin.sum_univ_eq_sum_range g a).symm

/-- The supremum over the first a naturals is the supremum over Fin a. -/
theorem sup_range_fin {L : Type*} [SemilatticeSup L] [OrderBot L] (a : ℕ) (g : ℕ → L) :
    (Finset.range a).sup g = Finset.univ.sup fun t : Fin a => g t.val := by
  apply le_antisymm
  · refine Finset.sup_le fun u hu => ?_
    exact Finset.le_sup (f := fun t : Fin a => g t.val) (Finset.mem_univ (⟨u, Finset.mem_range.mp hu⟩ : Fin a))
  · refine Finset.sup_le fun t _ => ?_
    exact Finset.le_sup (f := g) (Finset.mem_range.mpr t.isLt)

end Cert.LibBlocks
-- ==== Proof.Bridge.lean ====
/-
  From the two halves' block sums to the layer's statistics.
  The kernel sums y and y² over the rows block by block: row p of block u of half h is 5000 (10 h + u) + p, so the
  three nested sums over (h, u, p) run over every row exactly once and equal the one sum over the rows (no finiteness
  is needed: addition of extended reals is commutative and associative).  Hence the kernel's mean is the layer's mean.
  The kernel's variance is max(Σy²/N − mean², 0); the layer's is Σ(y − mean)²/N.  For finitely many REAL entries the
  two agree (the second is non-negative and expands to the first), which is where the inputs' finiteness is used.
-/
import proofs.«155481_j76647986365164_2_alg».proof.Proof.Spec
import proofs.«155481_j76647986365164_2_alg».proof.Proof.KDefs
import proofs.«155481_j76647986365164_2_alg».proof.Proof.LibBatchNorm
import proofs.«155481_j76647986365164_2_alg».proof.Proof.LibBlocks

noncomputable section

open scoped BigOperators

namespace Cert.Bridge

open Idealize.ShloMosaic Idealize.ShloMosaic.ValueIdx Cert.LibFinite Cert.KSpec Cert.LibBlocks

theorem row_row (h : Fin 2) (u : Fin 10) (p : Fin 5000) :
    row (show 20 * 5000 = 100000 from rfl) (row (show 2 * 10 = 20 from rfl) h u) p = rowOf h u p :=
  Fin.ext (by simp [row, rowOf])

/-- Summing over halves, blocks and rows of a block is summing over all rows. -/
theorem sum_halves {M : Type*} [AddCommMonoid M] (f : Fin 100000 → M) :
    ∑ h : Fin 2, ∑ u : Fin 10, ∑ p : Fin 5000, f (rowOf h u p) = ∑ r, f r :=
  calc ∑ h : Fin 2, ∑ u : Fin 10, ∑ p : Fin 5000, f (rowOf h u p)
      = ∑ h : Fin 2, ∑ u : Fin 10, ∑ p : Fin 5000, f (row (show 20 * 5000 = 100000 from rfl) (row (show 2 * 10 = 20 from rfl) h u) p) := by
        simp only [row_row]
    _ = ∑ t : Fin 20, ∑ p : Fin 5000, f (row (show 20 * 5000 = 100000 from rfl) t p) :=
        (sum_rows (show 2 * 10 = 20 from rfl) (fun t => ∑ p : Fin 5000, f (row (show 20 * 5000 = 100000 from rfl) t p))).symm
    _ = ∑ r, f r := (sum_rows (show 20 * 5000 = 100000 from rfl) f).symm

variable (y : Fin 100000 → Fin 128 → EReal)

/-- Half h's sum of column j, and of its squares, block by block. -/
def S1 (h : Fin 2) (j : Fin 128) : EReal := ∑ u : Fin 10, ∑ p : Fin 5000, y (rowOf h u p) j
def S2 (h : Fin 2) (j : Fin 128) : EReal := ∑ u : Fin 10, ∑ p : Fin 5000, y (rowOf h u p) j * y (rowOf h u p) j

/-- The kernel's mean and variance of column j, from the two halves' sums. -/
def kmean (j : Fin 128) : EReal := Ideal.div (0 + ∑ h : Fin 2, S1 y h j) Cert.Spec.N
def kvar (j : Fin 128) : EReal := max (Ideal.div (0 + ∑ h : Fin 2, S2 y h j) Cert.Spec.N - kmean y j * kmean y j) 0

theorem kmean_eq (j : Fin 128) : kmean y j = Cert.Spec.mean y j := by
  unfold kmean Cert.Spec.mean S1
  rw [sum_halves (fun r => y r j)]

theorem N_eq : Cert.Spec.N = (((100000 : ℕ) : ℝ) : EReal) := by
  unfold Cert.Spec.N; norm_num

theorem kvar_eq (hy : ∀ r j, IsReal (y r j)) (j : Fin 128) : kvar y j = Cert.Spec.var y j := by
  unfold kvar kmean Cert.Spec.var Cert.Spec.mean S1 S2
  rw [sum_halves (fun r => y r j), sum_halves (fun r => y r j * y r j)]
  refine Eq.trans ?_ (Cert.LibBatchNorm.var_eq (fun r => y r j) (fun r => hy r j) (by norm_num) Cert.Spec.N N_eq)
  simp only [zero_add]

/-- The kernel's entry, with its own mean and variance, is the layer's. -/
theorem out_eq (x : Cert.Spec.SA.Idx → EReal) (gamma beta : Cert.Spec.SV.Idx → EReal) (hy : ∀ r j, IsReal (y r j))
    (r : Fin 100000) (j : Fin 128) :
    x (ix2 r j) + max (((y r j - kmean y j) * Ideal.rsqrt (kvar y j + Cert.Spec.eps)) * gamma (ix1 j) + beta (ix1 j)) 0
      = Cert.Spec.out x y gamma beta r j := by
  unfold Cert.Spec.out
  rw [kmean_eq, kvar_eq y hy]

end Cert.Bridge

end
-- ==== Proof.KValI.lean ====
/-
  The kernel's result, entry by entry, is the layer's.
  The second region leaves in the result array, at row r and column j,
      x(r,j) + max(((y(r,j) − mean(j)) · rsqrt(var(j) + ε)) · γ(j) + β(j), 0)
  of the arrays it finds.  What it finds: the features and the narrowed means and weights as the first host stretch
  left them, so y is the linear map of the neighbourhood means; the one-row bias, scale and shift tables, which read
  the vectors; and the mean and variance tables, which the second host stretch forms from the first region's two
  outputs — the two halves' block sums of y and of y².  By the re-indexing of the block sums the mean is the layer's;
  by the identity of the two variance forms on real entries — every entry of y is real under the precondition — the
  variance is the layer's.
-/
import proofs.«155481_j76647986365164_2_alg».proof.Proof.HostI
import proofs.«155481_j76647986365164_2_alg».proof.Proof.ApplyValI
import proofs.«155481_j76647986365164_2_alg».proof.Proof.FiniteI
import proofs.«155481_j76647986365164_2_alg».proof.Proof.Bridge
import proofs.«155481_j76647986365164_2_alg».proof.Proof.KDefs
import proofs.«155481_j76647986365164_2_alg».proof.Proof.Spec
import Idealize.ShloMosaic.Lib.ValueLayout
import Idealize.ShloMosaic.Lib.Pipeline.Value

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.LibFinite

variable (m : (ℓ : Loc nD τ sig) → Buf (Elt Ideal) ℓ)

/-- The linear map of the neighbourhood means, from the launch memory. -/
def yL (c : Dev nD) : Fin 100000 → Fin 128 → EReal :=
  Cert.Spec.lin (aggK (m ((c.tc : Thread nD τ).loc main_arg0)) (m ((c.tc : Thread nD τ).loc main_arg1)) (m ((c.tc : Thread nD τ).loc main_arg2)))
    (transpose S128x128 [1, 0] (m ((c.tc : Thread nD τ).loc main_arg3) : FVec Ideal S128x128 .f32) transposes_S128x128_p1_0_S128x128)
    (m ((c.tc : Thread nD τ).loc main_arg4))

/-- A vector laid as one row reads its entry. -/
theorem row_read (v : FVec Ideal S128 .f32) (j : Fin 128) :
    shapeCast S1x128 v shapeCasts_S128_S1x128 (ix2 (0 : Fin 1) j) = v (ix1 j) := by
  rw [shapeCast_apply v shapeCasts_S128_S1x128 (ix2 (0 : Fin 1) j) (ix1 j) (by
    simp [Shape.rowMajor_val_two, Shape.rowMajor_val_one])]

/-- y as the first region finds it is the linear map from the launch memory. -/
theorem y1_eq (c : Dev nD) :
    Cert.KSpec.y (Z1 m c main_v19 : S100000x128.Idx → EReal)
      (transpose S128x128 [1, 0] (Z1 m c main_v20 : FVec Ideal S128x128 .bf16) transposes_S128x128_p1_0_S128x128)
      (fun j' => (Z1 m c main_v21 : S1x128.Idx → EReal) (ix2 (0 : Fin 1) j')) = yL m c := by
  funext r j
  unfold Cert.KSpec.y yL Cert.Spec.lin
  rw [show (Z1 m c main_v19 : S100000x128.Idx → EReal) = _ from Y1_v19 m c,
    show (Z1 m c main_v20 : S128x128.Idx → EReal) = _ from Y1_v20 m c,
    show (Z1 m c main_v21 : S1x128.Idx → EReal) = _ from Y1_v21 m c]
  dsimp only
  congr 1
  exact row_read (m ((c.tc : Thread nD τ).loc main_arg4)) j

/-- and as the second region finds it. -/
theorem y3_eq (c : Dev nD) :
    Cert.KSpec.y (Z3 m c main_v19 : S100000x128.Idx → EReal)
      (transpose S128x128 [1, 0] (Z3 m c main_v20 : FVec Ideal S128x128 .bf16) transposes_S128x128_p1_0_S128x128)
      (fun j' => (Z3 m c main_v21 : S1x128.Idx → EReal) (ix2 (0 : Fin 1) j')) = yL m c := by
  rw [show (Z3 m c main_v19 : S100000x128.Idx → EReal) = Z1 m c main_v19 from Y3_v19 m c,
    show (Z3 m c main_v20 : S128x128.Idx → EReal) = Z1 m c main_v20 from Y3_v20 m c,
    show (Z3 m c main_v21 : S1x128.Idx → EReal) = Z1 m c main_v21 from Y3_v21 m c]
  exact y1_eq m c

/-- Under the precondition every entry of y is real. -/
theorem yL_real (hpre : Cert.Pre_KernelIdeal m) (c : Dev nD) (r : Fin 100000) (j : Fin 128) : IsReal (yL m c r j) := by
  obtain ⟨h0, h3, h4, -, -⟩ := pre_real m hpre c
  exact y_real _ _ (fun j' => m ((c.tc : Thread nD τ).loc main_arg4) (ix1 j'))
    (fun i => aggK_real _ _ _ h0 i)
    (fun i => by obtain ⟨k, hk⟩ : ∃ k, transpose S128x128 [1, 0] (m ((c.tc : Thread nD τ).loc main_arg3) : FVec Ideal S128x128 .f32) transposes_S128x128_p1_0_S128x128 i = m ((c.tc : Thread nD τ).loc main_arg3) k := ⟨_, rfl⟩; rw [hk]; exact h3 k)
    (fun j' => h4 _) r j

section Assembly

/- The two regions' value lemmas, as they are used. -/
variable
  (h_s1 : ∀ (V : (c : Dev nD) → (b : Ref sig .tc) → Buf (Elt Ideal) ((c : Thread nD τ).loc b)) (c : Dev nD) (h : Fin 2) (j : Fin 128),
      ((dat0 (F := Ideal) V c).arrAt 3 cfg0.N : S2x1x128.Idx → EReal) (ix3 h (0 : Fin 1) j)
        = ∑ u : Fin 10, ∑ p : Fin 5000, Cert.KSpec.y (V c main_v19 : S100000x128.Idx → EReal)
            (transpose S128x128 [1, 0] (V c main_v20 : FVec Ideal S128x128 .bf16) transposes_S128x128_p1_0_S128x128)
            (fun j' => (V c main_v21 : S1x128.Idx → EReal) (ix2 (0 : Fin 1) j')) (Cert.KSpec.rowOf h u p) j)
  (h_s2 : ∀ (V : (c : Dev nD) → (b : Ref sig .tc) → Buf (Elt Ideal) ((c : Thread nD τ).loc b)) (c : Dev nD) (h : Fin 2) (j : Fin 128),
      ((dat0 (F := Ideal) V c).arrAt 4 cfg0.N : S2x1x128.Idx → EReal) (ix3 h (0 : Fin 1) j)
        = ∑ u : Fin 10, ∑ p : Fin 5000, Cert.KSpec.y (V c main_v19 : S100000x128.Idx → EReal)
            (transpose S128x128 [1, 0] (V c main_v20 : FVec Ideal S128x128 .bf16) transposes_S128x128_p1_0_S128x128)
            (fun j' => (V c main_v21 : S1x128.Idx → EReal) (ix2 (0 : Fin 1) j')) (Cert.KSpec.rowOf h u p) j
          * Cert.KSpec.y (V c main_v19 : S100000x128.Idx → EReal)
            (transpose S128x128 [1, 0] (V c main_v20 : FVec Ideal S128x128 .bf16) transposes_S128x128_p1_0_S128x128)
            (fun j' => (V c main_v21 : S1x128.Idx → EReal) (ix2 (0 : Fin 1) j')) (Cert.KSpec.rowOf h u p) j)

include h_s1 in
/-- The mean table the second region finds is the kernel's mean of y. -/
theorem mean3 (c : Dev nD) (j : Fin 128) :
    (Z3 m c main_v28 : S1x128.Idx → EReal) (ix2 (0 : Fin 1) j) = Cert.Bridge.kmean (yL m c) j := by
  rw [show (Z3 m c main_v28 : S1x128.Idx → EReal) = _ from Y3_v28 m c, meanK_apply]
  unfold Cert.Bridge.kmean Cert.Bridge.S1
  refine congrArg (fun t => Ideal.div ((0 : EReal) + t) Cert.Spec.N) (Finset.sum_congr rfl fun h _ => ?_)
  rw [show (Y2 m c (Proc.devRef .tc main_v24_0) : S2x1x128.Idx → EReal) = _ from Y2_arr m c 3, h_s1 (Z1 m) c h j, y1_eq m c]

include h_s2 in
/-- The mean of the squares, likewise. -/
theorem meansq3 (c : Dev nD) (j : Fin 128) :
    meanK (Y2 m c (Proc.devRef .tc main_v24_1)) (ix2 (0 : Fin 1) j)
      = Ideal.div (0 + ∑ h : Fin 2, Cert.Bridge.S2 (yL m c) h j) Cert.Spec.N := by
  rw [meanK_apply]
  unfold Cert.Bridge.S2
  refine congrArg (fun t => Ideal.div ((0 : EReal) + t) Cert.Spec.N) (Finset.sum_congr rfl fun h _ => ?_)
  rw [show (Y2 m c (Proc.devRef .tc main_v24_1) : S2x1x128.Idx → EReal) = _ from Y2_arr m c 4, h_s2 (Z1 m) c h j, y1_eq m c]

include h_s1 h_s2 in
/-- The variance table the second region finds is the kernel's variance of y. -/
theorem var3 (c : Dev nD) (j : Fin 128) :
    (Z3 m c main_v34 : S1x128.Idx → EReal) (ix2 (0 : Fin 1) j) = Cert.Bridge.kvar (yL m c) j := by
  rw [show (Z3 m c main_v34 : S1x128.Idx → EReal) = _ from Y3_v34 m c, varK_apply, meansq3 m h_s2 c j]
  unfold Cert.Bridge.kvar
  rw [← mean3 m h_s1 c j, show (Z3 m c main_v28 : S1x128.Idx → EReal) = _ from Y3_v28 m c]

include h_s1 h_s2 in
/-- THE KERNEL'S VALUE: under the precondition, the result array at (r, j) is the layer's result. -/
theorem kernel_value (hpre : Cert.Pre_KernelIdeal m) (c : Dev nD) (r : Fin 100000) (j : Fin 128) :
    ((dat1 (F := Ideal) (Z3 m) c).arrAt 8 cfg1.N : S100000x128.Idx → EReal) (ix2 r j)
      = Cert.Spec.out (m ((c.tc : Thread nD τ).loc main_arg0)) (yL m c) (m ((c.tc : Thread nD τ).loc main_arg5))
          (m ((c.tc : Thread nD τ).loc main_arg6)) r j := by
  rw [apply_value (Z3 m) c r j]
  unfold closedOf
  rw [y3_eq m c, mean3 m h_s1 c j, var3 m h_s1 h_s2 c j,
    show (Z3 m c main_arg0 : S100000x128.Idx → EReal) = _ from Y3_arg0 m c,
    show (Z3 m c main_v22 : S1x128.Idx → EReal) = _ from (Y3_v22 m c).trans (Y1_v22 m c),
    show (Z3 m c main_v23 : S1x128.Idx → EReal) = _ from (Y3_v23 m c).trans (Y1_v23 m c), row_read, row_read]
  exact Cert.Bridge.out_eq (yL m c) _ _ _ (fun r j => yL_real m hpre c r j) r j

end Assembly

end Cert.KernelIdeal.HandV

end
-- ==== Proof.StatsPieceI.lean ====
/-
  The first kernel region, case by case: what each stored buffer ends with, as a term of the point's three input
  blocks and of what the accumulators held when the point began.
  At every point the first accumulator ends at (what it held) + (the column sums of y over the block), the second at
  (what it held) + (the column sums of y·y), y = agg · Wᵀ + b on the block. At a half's first point "what it held" is
  the cleared accumulator (all zeros), because the body clears it before loading it. At a half's last point each
  output block ends at the matching accumulator's new contents, given one more leading axis of extent one.
-/
import proofs.«155481_j76647986365164_2_alg».proof.Proof.StatsI
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HandV
open Cert.KernelIdeal Cert.KernelIdeal.Gen Cert.KernelIdeal.Hand

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A half's first point leaves in the first accumulator the block's column sums of y added to the cleared accumulator. -/
theorem soutA0_eq (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .bf16) (x1 : Vec F S128x128 .bf16) (x2 : Vec F S1x128 .f32) :
    sout0_A_0 c i arg2 harg2 arg3 harg3 arg4 harg4 arg5 harg5 arg6 harg6 arg7 harg7 arg8 harg8 hc0 hc1 x0 x1 x2 = k0_pay4 x0 x1 x2 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  try sl_unfold_words
  rw [View.canon_cons_unit_zero hz2]
  simp only [View.readAt_eq_ld, harg2.read_unread, harg3.read_unread, harg4.read_unread, harg7.read_unread, harg8.read_unread,
    View.ld_unit_zero (S := S5000x128) hz2, View.ld_unit_zero (S := S128x128) hz2, View.ld_unit_zero (S := S1x128) hz2, View.readCov_unit_zero (S := S1x128) _ hz2]

/-- A half's first point leaves in the second accumulator the block's column sums of y·y added to the cleared accumulator. -/
theorem soutA1_eq (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .bf16) (x1 : Vec F S128x128 .bf16) (x2 : Vec F S1x128 .f32) :
    sout0_A_1 c i arg2 harg2 arg3 harg3 arg4 harg4 arg5 harg5 arg6 harg6 arg7 harg7 arg8 harg8 hc0 hc1 x0 x1 x2 = k0_pay5 x0 x1 x2 k0_pay2 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  try sl_unfold_words
  rw [View.canon_cons_unit_zero hz2]
  simp only [View.readAt_eq_ld, harg2.read_unread, harg3.read_unread, harg4.read_unread, harg7.read_unread, harg8.read_unread,
    View.ld_unit_zero (S := S5000x128) hz2, View.ld_unit_zero (S := S128x128) hz2, View.ld_unit_zero (S := S1x128) hz2, View.readCov_unit_zero (S := S1x128) _ hz2]

/-- A middle point adds the block's column sums of y to the first accumulator. -/
theorem soutB0_eq (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .bf16) (x1 : Vec F S128x128 .bf16) (x2 : Vec F S1x128 .f32) (xs0 xs1 : Vec F S1x128 .f32) :
    sout0_B_0 c i arg2 harg2 arg3 harg3 arg4 harg4 arg5 harg5 arg6 harg6 arg7 harg7 arg8 harg8 hc0 hc1 x0 x1 x2 xs0 xs1 = k0_pay4 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  try sl_unfold_words
  rw [View.canon_unit_zero hz2]
  simp only [View.readAt_eq_ld, harg2.read_unread, harg3.read_unread, harg4.read_unread, harg7.read_unread, harg8.read_unread,
    View.ld_unit_zero (S := S5000x128) hz2, View.ld_unit_zero (S := S128x128) hz2, View.ld_unit_zero (S := S1x128) hz2]

/-- A middle point adds the block's column sums of y·y to the second accumulator. -/
theorem soutB1_eq (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .bf16) (x1 : Vec F S128x128 .bf16) (x2 : Vec F S1x128 .f32) (xs0 xs1 : Vec F S1x128 .f32) :
    sout0_B_1 c i arg2 harg2 arg3 harg3 arg4 harg4 arg5 harg5 arg6 harg6 arg7 harg7 arg8 harg8 hc0 hc1 x0 x1 x2 xs0 xs1 = k0_pay5 x0 x1 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  try sl_unfold_words
  rw [View.canon_unit_zero hz2]
  simp only [View.readAt_eq_ld, harg2.read_unread, harg3.read_unread, harg4.read_unread, harg7.read_unread, harg8.read_unread,
    View.ld_unit_zero (S := S5000x128) hz2, View.ld_unit_zero (S := S128x128) hz2, View.ld_unit_zero (S := S1x128) hz2]

/-- A half's last point adds the block's column sums of y to the first accumulator. -/
theorem soutC0_eq (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) :
    sout0_C_0 c i arg2 harg2 arg3 harg3 arg4 harg4 arg5 harg5 arg6 harg6 arg7 harg7 arg8 harg8 hc0 hc1 x0 x1 x2 xs0 xs1 = k0_pay4 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz2]
  simp only [View.readAt_eq_ld, harg2.read_unread, harg3.read_unread, harg4.read_unread, harg7.read_unread, harg8.read_unread,
    View.ld_unit_zero (S := S5000x128) hz2, View.ld_unit_zero (S := S128x128) hz2, View.ld_unit_zero (S := S1x128) hz2]

/-- A half's last point adds the block's column sums of y·y to the second accumulator. -/
theorem soutC1_eq (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) :
    sout0_C_1 c i arg2 harg2 arg3 harg3 arg4 harg4 arg5 harg5 arg6 harg6 arg7 harg7 arg8 harg8 hc0 hc1 x0 x1 x2 xs0 xs1 = k0_pay5 x0 x1 x2 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz2]
  simp only [View.readAt_eq_ld, harg2.read_unread, harg3.read_unread, harg4.read_unread, harg7.read_unread, harg8.read_unread,
    View.ld_unit_zero (S := S5000x128) hz2, View.ld_unit_zero (S := S128x128) hz2, View.ld_unit_zero (S := S1x128) hz2]

/-- A half's last point leaves in the first output block the first accumulator's new contents, one leading unit axis added. -/
theorem outC3_eq (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) :
    out0_C_3 c i arg2 harg2 arg3 harg3 arg4 harg4 arg5 harg5 arg6 harg6 arg7 harg7 arg8 harg8 hc0 hc1 x0 x1 x2 xs0 xs1 = k0_pay6 (k0_pay4 x0 x1 x2 xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz3]
  simp only [View.readAt_eq_ld, harg2.read_unread, harg3.read_unread, harg4.read_unread, harg7.read_unread, harg8.read_unread,
    View.ld_unit_zero (S := S5000x128) hz2, View.ld_unit_zero (S := S128x128) hz2, View.ld_unit_zero (S := S1x128) hz2, View.readCov_unit_zero (S := S1x128) _ hz2]

/-- A half's last point leaves in the second output block the second accumulator's new contents, one leading unit axis added. -/
theorem outC4_eq (c : Dev nD) (i : grid0.Coords) (arg2 : Memref sig .tc .vmem S5000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .bf16) (x1 : Vec F S128x128 .bf16) (x2 : Vec F S1x128 .f32) (xs0 xs1 : Vec F S1x128 .f32) :
    out0_C_4 c i arg2 harg2 arg3 harg3 arg4 harg4 arg5 harg5 arg6 harg6 arg7 harg7 arg8 harg8 hc0 hc1 x0 x1 x2 xs0 xs1 = k0_pay7 (k0_pay5 x0 x1 x2 xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz3]
  simp only [View.readAt_eq_ld, harg2.read_unread, harg3.read_unread, harg4.read_unread, harg7.read_unread, harg8.read_unread,
    View.ld_unit_zero (S := S5000x128) hz2, View.ld_unit_zero (S := S128x128) hz2, View.ld_unit_zero (S := S1x128) hz2, View.readCov_unit_zero (S := S1x128) _ hz2]

end Cert.KernelIdeal.HandV

end
-- ==== Proof.StatsPayI.lean ====
/-
  The first kernel's per-point arithmetic read entry by entry, on the extended reals.
  On a block of 5000 rows with aggregated rows x, weights w and bias b:
      y(a, j) = (Σ_k x(a, k) · wᵀ(k, j)) + b(0, j),        wᵀ the weights transposed (one table);
  the new first accumulator at column q is the old one plus Σ_a y(a, q), the new second accumulator the old one plus
  Σ_a y(a, q)²; a cleared accumulator is 0 in every column; an output block is its accumulator with one more leading
  axis of extent one. Only that 0 is neutral for + is used, no finiteness.
-/
import proofs.«155481_j76647986365164_2_alg».proof.Proof.Gen.KernelIdeal.Skeleton
import proofs.«155481_j76647986365164_2_alg».proof.Proof.LibDense
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HandV

open Cert.KernelIdeal Cert.KernelIdeal.Gen Idealize.ShloMosaic Idealize.ShloMosaic.ValueIdx

/-! ## The product's dimension record: rows free on the left, columns free on the right, one shared axis of extent 128 -/

abbrev dotK : DotDims S5000x128 S128x128 S5000x128 := dot_S5000x128_S128x128_S5000x128_1_0_0_1_n_n

theorem dotK_rank : dotK.contr.rank = 1 := rfl
theorem dotK_size : dotK.contr.size ⟨0, by rw [dotK_rank]; exact Nat.one_pos⟩ = 128 := rfl
theorem dotK_l0 (i : S5000x128.Idx) (q : dotK.contr.Idx) : (dotK.lhsIdx i q 0).val = (i 0).val := rfl
theorem dotK_l1 (i : S5000x128.Idx) (q : dotK.contr.Idx) : (dotK.lhsIdx i q 1).val = (q ⟨0, by rw [dotK_rank]; exact Nat.one_pos⟩).val :=
  DotDims.lhsIdx_val_of_single (d := dotK) (cl := 1) rfl i q
theorem dotK_r0 (i : S5000x128.Idx) (q : dotK.contr.Idx) : (dotK.rhsIdx i q 0).val = (q ⟨0, by rw [dotK_rank]; exact Nat.one_pos⟩).val :=
  DotDims.rhsIdx_val_of_single (d := dotK) (cr := 0) rfl i q
theorem dotK_r1 (i : S5000x128.Idx) (q : dotK.contr.Idx) : (dotK.rhsIdx i q 1).val = (i 1).val := rfl

/-! ## The block's linear map -/

/-- The weights transposed, as one table. -/
abbrev wT (x1 : FVec Ideal S128x128 .bf16) : S128x128.Idx → EReal :=
  transpose S128x128 [1, 0] x1 transposes_S128x128_p1_0_S128x128

/-- Entry (a, j) of y on a block: the row's product with column j of the transposed weights, plus the bias at j. -/
theorem pay3_apply (x0 : FVec Ideal S5000x128 .bf16) (x1 : FVec Ideal S128x128 .bf16) (x2 : FVec Ideal S1x128 .f32)
    (a : Fin 5000) (j : Fin 128) :
    (k0_pay3 (F := Ideal) x0 x1 x2 : S5000x128.Idx → EReal) (ix2 a j)
      = (∑ k : Fin 128, (x0 : S5000x128.Idx → EReal) (ix2 a k) * wT x1 (ix2 k j)) + (x2 : S1x128.Idx → EReal) (ix2 (0 : Fin 1) j) := by
  unfold k0_pay3
  dsimp only
  refine (addf_apply _ _ _).trans ?_
  refine congrArg₂ (fun u v : EReal => u + v) ?_ ?_
  · refine (Ideal.matmul_constant_zero_apply dotK none _ _ (ix2 a j)).trans ?_
    refine (Cert.Sage.LibDot.sum_plain dotK dotK_rank dotK_size dotK_l0 dotK_l1 dotK_r0 dotK_r1 _ _ a j).trans ?_
    refine Finset.sum_congr rfl fun k _ => ?_
    refine congrArg₂ (fun u v : EReal => u * v) (congrFun (shapeCast_self x0 _) _) ?_
    exact congrFun (congrArg (fun w : FVec Ideal S128x128 .bf16 => transpose S128x128 [1, 0] w transposes_S128x128_p1_0_S128x128) (shapeCast_self x1 _)) _
  · exact Cert.LibDense.bias_apply x2 _ _ a j

/-! ## The column sums -/

/-- A sum down the 5000 rows of a block, column q. -/
theorem colsum_apply (src : FVec Ideal S5000x128 .f32) (hacc : (0x00000000#32 : BitVec 32) = 0x00000000#32) (q : Fin 128) :
    (multiReduction (F := Ideal) .add [0] S128 src 0x00000000#32 reduces_S5000x128_S128 (.inl rfl) hacc : S128.Idx → EReal) (ix1 q)
      = ∑ p : Fin 5000, (src : S5000x128.Idx → EReal) (ix2 p q) := by
  refine (Ideal.multiReduction_add_single src 0x00000000#32 reduces_S5000x128_S128 (.inl rfl) hacc (ix1 q)).trans ?_
  show ∑ p : Fin 5000, (src : S5000x128.Idx → EReal) (reduces_S5000x128_S128.lift (ix1 q) p) = _
  refine Finset.sum_congr rfl fun p _ => congrArg src ?_
  funext c
  apply Fin.ext
  match c with
  | ⟨0, _⟩ => rfl
  | ⟨1, _⟩ => rfl

/-- A vector of 128 entries laid as one row: entry (0, q) is the vector's entry q. -/
theorem row_of_vec {α : Type} (v : S128.Idx → α) (q : Fin 128) :
    shapeCast S1x128 v shapeCasts_S128_S1x128 (ix2 (0 : Fin 1) q) = v (ix1 q) := by
  refine shapeCast_apply v shapeCasts_S128_S1x128 (ix2 (0 : Fin 1) q) (ix1 q) ?_
  rw [Shape.rowMajor_val_one, Shape.rowMajor_val_two]
  show q.val = 0 * 128 + q.val
  omega

/-- The first accumulator after a point, column q: what it held plus the block's sum of y down column q. -/
theorem pay4_apply (x0 : FVec Ideal S5000x128 .bf16) (x1 : FVec Ideal S128x128 .bf16) (x2 : FVec Ideal S1x128 .f32)
    (s : FVec Ideal S1x128 .f32) (q : Fin 128) :
    (k0_pay4 (F := Ideal) x0 x1 x2 s : S1x128.Idx → EReal) (ix2 (0 : Fin 1) q)
      = (s : S1x128.Idx → EReal) (ix2 (0 : Fin 1) q) + ∑ p : Fin 5000, (k0_pay3 (F := Ideal) x0 x1 x2 : S5000x128.Idx → EReal) (ix2 p q) := by
  unfold k0_pay4
  dsimp only
  refine (congrFun (shapeCast_self _ shapeCasts_S1x128_S1x128) _).trans ?_
  refine (addf_apply _ _ _).trans ?_
  refine congrArg (fun v : EReal => (s : S1x128.Idx → EReal) (ix2 (0 : Fin 1) q) + v) ?_
  refine (row_of_vec _ q).trans ?_
  exact colsum_apply (k0_pay3 (F := Ideal) x0 x1 x2) rfl q

/-- The second accumulator after a point, column q: what it held plus the block's sum of y·y down column q. -/
theorem pay5_apply (x0 : FVec Ideal S5000x128 .bf16) (x1 : FVec Ideal S128x128 .bf16) (x2 : FVec Ideal S1x128 .f32)
    (s : FVec Ideal S1x128 .f32) (q : Fin 128) :
    (k0_pay5 (F := Ideal) x0 x1 x2 s : S1x128.Idx → EReal) (ix2 (0 : Fin 1) q)
      = (s : S1x128.Idx → EReal) (ix2 (0 : Fin 1) q)
        + ∑ p : Fin 5000, (k0_pay3 (F := Ideal) x0 x1 x2 : S5000x128.Idx → EReal) (ix2 p q) * (k0_pay3 (F := Ideal) x0 x1 x2 : S5000x128.Idx → EReal) (ix2 p q) := by
  unfold k0_pay5
  dsimp only
  refine (congrFun (shapeCast_self _ shapeCasts_S1x128_S1x128) _).trans ?_
  refine (addf_apply _ _ _).trans ?_
  refine congrArg (fun v : EReal => (s : S1x128.Idx → EReal) (ix2 (0 : Fin 1) q) + v) ?_
  refine (row_of_vec _ q).trans ?_
  refine (colsum_apply (mulf (k0_pay3 (F := Ideal) x0 x1 x2) (k0_pay3 (F := Ideal) x0 x1 x2)) rfl q).trans ?_
  exact Finset.sum_congr rfl fun p _ => mulf_apply _ _ _

/-- A cleared accumulator is 0 in every column. -/
theorem pay1_apply (q : Fin 128) : (k0_pay1 (F := Ideal) : S1x128.Idx → EReal) (ix2 (0 : Fin 1) q) = 0 := by
  unfold k0_pay1
  refine (congrFun (shapeCast_self _ shapeCasts_S1x128_S1x128) _).trans ?_
  exact Ideal.ofBits_zero_f32

theorem pay2_apply (q : Fin 128) : (k0_pay2 (F := Ideal) : S1x128.Idx → EReal) (ix2 (0 : Fin 1) q) = 0 := by
  unfold k0_pay2
  refine (congrFun (shapeCast_self _ shapeCasts_S1x128_S1x128) _).trans ?_
  exact Ideal.ofBits_zero_f32

/-- A row given one more leading axis of extent one: entry (0, 0, q) is the row's entry (0, q). -/
theorem block_of_row {α : Type} (v : S1x128.Idx → α) (q : Fin 128) :
    shapeCast S1x1x128 v shapeCasts_S1x128_S1x1x128 (ix3 (0 : Fin 1) (0 : Fin 1) q) = v (ix2 (0 : Fin 1) q) := by
  refine shapeCast_apply v shapeCasts_S1x128_S1x1x128 (ix3 (0 : Fin 1) (0 : Fin 1) q) (ix2 (0 : Fin 1) q) ?_
  rw [Shape.rowMajor_val_two, Shape.rowMajor_val_three]
  show 0 * 128 + q.val = (0 * 1 + 0) * 128 + q.val
  omega

theorem pay6_apply (s : FVec Ideal S1x128 .f32) (q : Fin 128) :
    (k0_pay6 (F := Ideal) s : S1x1x128.Idx → EReal) (ix3 (0 : Fin 1) (0 : Fin 1) q) = (s : S1x128.Idx → EReal) (ix2 (0 : Fin 1) q) := by
  unfold k0_pay6
  exact block_of_row s q

theorem pay7_apply (s : FVec Ideal S1x128 .f32) (q : Fin 128) :
    (k0_pay7 (F := Ideal) s : S1x1x128.Idx → EReal) (ix3 (0 : Fin 1) (0 : Fin 1) q) = (s : S1x128.Idx → EReal) (ix2 (0 : Fin 1) q) := by
  unfold k0_pay7
  exact block_of_row s q

end Cert.KernelIdeal.HandV

end
-- ==== Proof.StatsValI.lean ====
/-
  The first kernel region's two output arrays as plain double sums, at any contents V of the buffers when the region
  is entered.
  With y(r, j) = (Σ_k X(r, k) · wᵀ(k, j)) + b(j) over the 100000 aggregated rows X, the weights transposed and the bias,
  the region leaves in its first output, at (h, 0, j), the sum of y(r, j) over the 50000 rows r of half h, and in its
  second output the sum of y(r, j)² over the same rows.
  Why: point t = 10 h + u of the 2 × 10 grid stages rows 5000 t … 5000 t + 4999. Its body adds Σ_p y(5000 t + p, j) to
  the first accumulator and Σ_p y(5000 t + p, j)² to the second, after clearing both when u = 0; so after point t the
  accumulators hold the sums over blocks 10 h … 10 h + u (induction on the point). At u = 9 the body copies them into
  the output blocks (h, 0, ·), which are written back there and nowhere else, and those two points cover the output.
  Only commutativity and associativity of + and 0 + x = x on the extended reals are used.
-/
import proofs.«155481_j76647986365164_2_alg».proof.Proof.StatsI
import proofs.«155481_j76647986365164_2_alg».proof.Proof.KDefs
import proofs.«155481_j76647986365164_2_alg».proof.Proof.StatsPieceI
import proofs.«155481_j76647986365164_2_alg».proof.Proof.StatsPayI
import proofs.«155481_j76647986365164_2_alg».proof.Proof.LibBlocks
import Idealize.ShloMosaic.Lib.Pipeline.Value
import Idealize.ShloMosaic.Lib.Tactic

set_option maxRecDepth 16384

noncomputable section

open scoped BigOperators

namespace Cert.KernelIdeal.HandV

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

/-! ## Running sums that restart every ten steps -/

/-- A total that restarts at every tenth step (there it is that step's term) and otherwise adds the step's term to the
    total before: after step n it is the sum of the terms from the last restart to n. -/
theorem half_sums {M : Type*} [AddCommMonoid M] (g acc : ℕ → M) (N : ℕ)
    (hA : ∀ n, n < N → n % 10 = 0 → acc n = g n)
    (hB : ∀ n, n < N → ¬n % 10 = 0 → acc n = acc (n - 1) + g n) :
    ∀ n, n < N → acc n = ∑ u ∈ Finset.range (n % 10 + 1), g (n - n % 10 + u) := by
  intro n
  induction n with
  | zero =>
    intro hn
    rw [hA 0 hn (Nat.zero_mod _)]
    simp
  | succ n ih =>
    intro hn
    by_cases h0 : (n + 1) % 10 = 0
    · rw [hA (n + 1) hn h0, h0]
      simp
    · rw [hB (n + 1) hn h0, Nat.add_sub_cancel, ih (by omega)]
      have e1 : (n + 1) % 10 = n % 10 + 1 := by omega
      have e2 : n + 1 - (n % 10 + 1) = n - n % 10 := by omega
      rw [e1, e2, Finset.sum_range_succ _ (n % 10 + 1)]
      congr 2
      omega

variable (V : (c : Dev nD) → (b : Ref sig .tc) → Buf (Elt Ideal) ((c : Thread nD τ).loc b))

/-- The layer's linear map on the region's three input arrays. -/
abbrev yV (c : Dev nD) : Fin 100000 → Fin 128 → EReal :=
  Cert.KSpec.y (V c main_v19 : S100000x128.Idx → EReal)
    (transpose S128x128 [1, 0] (V c main_v20 : FVec Ideal S128x128 .bf16) transposes_S128x128_p1_0_S128x128)
    (fun j' => (V c main_v21 : S1x128.Idx → EReal) (ix2 (0 : Fin 1) j'))

/-! ## The input blocks -/

theorem lt20 (t : Fin cfg0.N) : t.val < 20 := lt_of_lt_of_eq t.isLt (show cfg0.N = 20 from N_0)

/-- Row p of the block point t stages. -/
def rowT (t : Fin cfg0.N) (p : Fin 5000) : Fin 100000 := ⟨5000 * t.val + p.val, by have := lt20 t; omega⟩

/-- Where the three input windows' blocks sit: the rows' block t, the whole weights, the whole bias. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)

/-- The staged rows at point t are rows 5000 t … 5000 t + 4999 of the aggregated rows. -/
theorem blk0_apply (c : Dev nD) (t : Fin cfg0.N) (a : Fin 5000) (k : Fin 128) :
    (iblk0 V c 0 t : S5000x128.Idx → EReal) (ix2 a k) = (V c main_v19 : S100000x128.Idx → EReal) (ix2 (rowT t a) k) := by
  unfold iblk0
  rw [View.read_apply]
  show (V c main_v19 : S100000x128.Idx → EReal) _ = (V c main_v19 : S100000x128.Idx → EReal) _
  congr 1
  funext x
  apply Fin.ext
  match x with
  | ⟨0, _⟩ => show win0_0.index t 0 * 5000 + 1 * a.val = 5000 * t.val + a.val; rw [(idx0_0 t).1]; omega
  | ⟨1, _⟩ => show win0_0.index t 1 * 128 + 1 * k.val = k.val; rw [(idx0_0 t).2]; omega

/-- The staged weights are the weights. -/
theorem blk1_eq (c : Dev nD) (t : Fin cfg0.N) :
    (iblk0 V c 1 t : FVec Ideal S128x128 .bf16) = (V c main_v20 : FVec Ideal S128x128 .bf16) := by
  funext y
  unfold iblk0
  rw [View.read_apply]
  show (V c main_v20 : S128x128.Idx → EReal) _ = (V c main_v20 : S128x128.Idx → EReal) y
  congr 1
  funext x
  apply Fin.ext
  match x with
  | ⟨0, _⟩ => show win0_1.index t 0 * 128 + 1 * (y 0).val = (y 0).val; rw [(idx0_1 t).1]; omega
  | ⟨1, _⟩ => show win0_1.index t 1 * 128 + 1 * (y 1).val = (y 1).val; rw [(idx0_1 t).2]; omega

/-- The staged bias is the bias. -/
theorem blk2_eq (c : Dev nD) (t : Fin cfg0.N) :
    (iblk0 V c 2 t : FVec Ideal S1x128 .f32) = (V c main_v21 : FVec Ideal S1x128 .f32) := by
  funext y
  unfold iblk0
  rw [View.read_apply]
  show (V c main_v21 : S1x128.Idx → EReal) _ = (V c main_v21 : S1x128.Idx → EReal) y
  congr 1
  funext x
  apply Fin.ext
  match x with
  | ⟨0, _⟩ => show win0_2.index t 0 * 1 + 1 * (y 0).val = (y 0).val; rw [(idx0_2 t).1]; omega
  | ⟨1, _⟩ => show win0_2.index t 1 * 128 + 1 * (y 1).val = (y 1).val; rw [(idx0_2 t).2]; omega

/-- y on a block whose rows are rows r(·) of a table X, with weights W and bias B: y of the table at row r(p). -/
theorem y_of_reads (X0 : FVec Ideal S5000x128 .bf16) (X1 : FVec Ideal S128x128 .bf16) (X2 : FVec Ideal S1x128 .f32)
    (X : S100000x128.Idx → EReal) (W : FVec Ideal S128x128 .bf16) (B : S1x128.Idx → EReal) (r : Fin 5000 → Fin 100000)
    (h0 : ∀ a k, (X0 : S5000x128.Idx → EReal) (ix2 a k) = X (ix2 (r a) k)) (h1 : X1 = W) (h2 : (X2 : S1x128.Idx → EReal) = B)
    (p : Fin 5000) (q : Fin 128) :
    (k0_pay3 (F := Ideal) X0 X1 X2 : S5000x128.Idx → EReal) (ix2 p q)
      = Cert.KSpec.y X (transpose S128x128 [1, 0] W transposes_S128x128_p1_0_S128x128) (fun j' => B (ix2 (0 : Fin 1) j')) (r p) q := by
  subst h1 h2
  refine (pay3_apply X0 X1 X2 p q).trans ?_
  unfold Cert.KSpec.y
  refine congrArg₂ (fun u v : EReal => u + v) (Finset.sum_congr rfl fun k _ => ?_) rfl
  exact congrArg (fun u : EReal => u * wT X1 (ix2 k q)) (h0 p k)

/-- y on the block point t stages. -/
theorem y_blk (c : Dev nD) (t : Fin cfg0.N) (p : Fin 5000) (q : Fin 128) :
    (k0_pay3 (F := Ideal) (iblk0 V c 0 t) (iblk0 V c 1 t) (iblk0 V c 2 t) : S5000x128.Idx → EReal) (ix2 p q) = yV V c (rowT t p) q :=
  y_of_reads (iblk0 V c 0 t) (iblk0 V c 1 t) (iblk0 V c 2 t) (V c main_v19) (V c main_v20) (V c main_v21) (rowT t)
    (blk0_apply V c t) (blk1_eq V c t) (blk2_eq V c t) p q

/-! ## The accumulators after each point -/

/-- The three staged blocks at point t, at their literal shapes. -/
abbrev B0 (c : Dev nD) (t : Fin cfg0.N) : Vec Ideal S5000x128 .bf16 := iblk0 V c 0 t
abbrev B1 (c : Dev nD) (t : Fin cfg0.N) : Vec Ideal S128x128 .bf16 := iblk0 V c 1 t
abbrev B2 (c : Dev nD) (t : Fin cfg0.N) : Vec Ideal S1x128 .f32 := iblk0 V c 2 t

/-- y at row r as a function of the row's number (0 past the last row, which no block reaches). -/
def yN (c : Dev nD) (r : ℕ) (q : Fin 128) : EReal := if h : r < 100000 then yV V c ⟨r, h⟩ q else 0

theorem yN_row (c : Dev nD) (t : Fin cfg0.N) (p : Fin 5000) (q : Fin 128) :
    yV V c (rowT t p) q = yN V c (5000 * t.val + p.val) q := by
  unfold yN
  rw [dif_pos (show 5000 * t.val + p.val < 100000 from (rowT t p).isLt)]
  rfl

/-- Block n's sum of y down column q, and of y·y. -/
def g0 (c : Dev nD) (q : Fin 128) (n : ℕ) : EReal := ∑ p : Fin 5000, yN V c (5000 * n + p.val) q
def g1 (c : Dev nD) (q : Fin 128) (n : ℕ) : EReal := ∑ p : Fin 5000, yN V c (5000 * n + p.val) q * yN V c (5000 * n + p.val) q

theorem blocksum0 (c : Dev nD) (q : Fin 128) (t : Fin cfg0.N) :
    ∑ p : Fin 5000, (k0_pay3 (F := Ideal) (B0 V c t) (B1 V c t) (B2 V c t) : S5000x128.Idx → EReal) (ix2 p q) = g0 V c q t.val :=
  Finset.sum_congr rfl fun p _ => (y_blk V c t p q).trans (yN_row V c t p q)

theorem blocksum1 (c : Dev nD) (q : Fin 128) (t : Fin cfg0.N) :
    ∑ p : Fin 5000, (k0_pay3 (F := Ideal) (B0 V c t) (B1 V c t) (B2 V c t) : S5000x128.Idx → EReal) (ix2 p q) * (k0_pay3 (F := Ideal) (B0 V c t) (B1 V c t) (B2 V c t) : S5000x128.Idx → EReal) (ix2 p q)
      = g1 V c q t.val :=
  Finset.sum_congr rfl fun p _ => congrArg₂ (fun u v : EReal => u * v) ((y_blk V c t p q).trans (yN_row V c t p q)) ((y_blk V c t p q).trans (yN_row V c t p q))

/-- At a half's first point the first accumulator ends at the block's sum. -/
theorem step0_A (c : Dev nD) (q : Fin 128) (t : Fin cfg0.N) (h0 : t.val % 10 = 0) :
    ((outsAt0 V c t.val t.isLt).2.2.1 : S1x128.Idx → EReal) (ix2 (0 : Fin 1) q) = g0 V c q t.val := by
  rw [outsAt0_A V c t h0]
  refine (congrFun (soutA0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cA0 t h0) (cA1 t h0) (B0 V c t) (B1 V c t) (B2 V c t)) (ix2 (0 : Fin 1) q)).trans ?_
  refine (pay4_apply (B0 V c t) (B1 V c t) (B2 V c t) k0_pay1 q).trans ?_
  rw [pay1_apply, zero_add]
  exact blocksum0 V c q t

theorem step1_A (c : Dev nD) (q : Fin 128) (t : Fin cfg0.N) (h0 : t.val % 10 = 0) :
    ((outsAt0 V c t.val t.isLt).2.2.2 : S1x128.Idx → EReal) (ix2 (0 : Fin 1) q) = g1 V c q t.val := by
  rw [outsAt0_A V c t h0]
  refine (congrFun (soutA1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cA0 t h0) (cA1 t h0) (B0 V c t) (B1 V c t) (B2 V c t)) (ix2 (0 : Fin 1) q)).trans ?_
  refine (pay5_apply (B0 V c t) (B1 V c t) (B2 V c t) k0_pay2 q).trans ?_
  rw [pay2_apply, zero_add]
  exact blocksum1 V c q t

/-- At every other point it ends at what the point before left plus the block's sum. -/
theorem step0_B (c : Dev nD) (q : Fin 128) (t : Fin cfg0.N) (h0 : ¬t.val % 10 = 0) :
    ((outsAt0 V c t.val t.isLt).2.2.1 : S1x128.Idx → EReal) (ix2 (0 : Fin 1) q)
      = ((outsAt0 V c (t.val - 1) (Nat.lt_of_le_of_lt (Nat.sub_le _ _) t.isLt)).2.2.1 : S1x128.Idx → EReal) (ix2 (0 : Fin 1) q) + g0 V c q t.val := by
  by_cases h1 : t.val % 10 = 9
  · rw [outsAt0_C V c t h0 h1]
    refine (congrFun (soutC0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (B0 V c t) (B1 V c t) (B2 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 (0 : Fin 1) q)).trans ?_
    refine (pay4_apply (B0 V c t) (B1 V c t) (B2 V c t) (outsAt0 V c (t.val - 1) (Nat.lt_of_le_of_lt (Nat.sub_le _ _) t.isLt)).2.2.1 q).trans ?_
    exact congrArg (fun v : EReal => ((outsAt0 V c (t.val - 1) (Nat.lt_of_le_of_lt (Nat.sub_le _ _) t.isLt)).2.2.1 : S1x128.Idx → EReal) (ix2 (0 : Fin 1) q) + v) (blocksum0 V c q t)
  · rw [outsAt0_B V c t h0 h1]
    refine (congrFun (soutB0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cB1 t h1) (B0 V c t) (B1 V c t) (B2 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 (0 : Fin 1) q)).trans ?_
    refine (pay4_apply (B0 V c t) (B1 V c t) (B2 V c t) (outsAt0 V c (t.val - 1) (Nat.lt_of_le_of_lt (Nat.sub_le _ _) t.isLt)).2.2.1 q).trans ?_
    exact congrArg (fun v : EReal => ((outsAt0 V c (t.val - 1) (Nat.lt_of_le_of_lt (Nat.sub_le _ _) t.isLt)).2.2.1 : S1x128.Idx → EReal) (ix2 (0 : Fin 1) q) + v) (blocksum0 V c q t)

theorem step1_B (c : Dev nD) (q : Fin 128) (t : Fin cfg0.N) (h0 : ¬t.val % 10 = 0) :
    ((outsAt0 V c t.val t.isLt).2.2.2 : S1x128.Idx → EReal) (ix2 (0 : Fin 1) q)
      = ((outsAt0 V c (t.val - 1) (Nat.lt_of_le_of_lt (Nat.sub_le _ _) t.isLt)).2.2.2 : S1x128.Idx → EReal) (ix2 (0 : Fin 1) q) + g1 V c q t.val := by
  by_cases h1 : t.val % 10 = 9
  · rw [outsAt0_C V c t h0 h1]
    refine (congrFun (soutC1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (B0 V c t) (B1 V c t) (B2 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 (0 : Fin 1) q)).trans ?_
    refine (pay5_apply (B0 V c t) (B1 V c t) (B2 V c t) (outsAt0 V c (t.val - 1) (Nat.lt_of_le_of_lt (Nat.sub_le _ _) t.isLt)).2.2.2 q).trans ?_
    exact congrArg (fun v : EReal => ((outsAt0 V c (t.val - 1) (Nat.lt_of_le_of_lt (Nat.sub_le _ _) t.isLt)).2.2.2 : S1x128.Idx → EReal) (ix2 (0 : Fin 1) q) + v) (blocksum1 V c q t)
  · rw [outsAt0_B V c t h0 h1]
    refine (congrFun (soutB1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cB1 t h1) (B0 V c t) (B1 V c t) (B2 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 (0 : Fin 1) q)).trans ?_
    refine (pay5_apply (B0 V c t) (B1 V c t) (B2 V c t) (outsAt0 V c (t.val - 1) (Nat.lt_of_le_of_lt (Nat.sub_le _ _) t.isLt)).2.2.2 q).trans ?_
    exact congrArg (fun v : EReal => ((outsAt0 V c (t.val - 1) (Nat.lt_of_le_of_lt (Nat.sub_le _ _) t.isLt)).2.2.2 : S1x128.Idx → EReal) (ix2 (0 : Fin 1) q) + v) (blocksum1 V c q t)

/-- The accumulators' column q after point n (0 past the last point). -/
def acc0 (c : Dev nD) (q : Fin 128) (n : ℕ) : EReal :=
  if hn : n < cfg0.N then ((outsAt0 V c n hn).2.2.1 : S1x128.Idx → EReal) (ix2 (0 : Fin 1) q) else 0
def acc1 (c : Dev nD) (q : Fin 128) (n : ℕ) : EReal :=
  if hn : n < cfg0.N then ((outsAt0 V c n hn).2.2.2 : S1x128.Idx → EReal) (ix2 (0 : Fin 1) q) else 0

/-- THE INVARIANT: after point n the first accumulator holds the sums of y over the blocks of n's half up to n. -/
theorem acc0_eq (c : Dev nD) (q : Fin 128) (n : ℕ) (hn : n < cfg0.N) :
    ((outsAt0 V c n hn).2.2.1 : S1x128.Idx → EReal) (ix2 (0 : Fin 1) q) = ∑ u ∈ Finset.range (n % 10 + 1), g0 V c q (n - n % 10 + u) := by
  have key := half_sums (g0 V c q) (acc0 V c q) cfg0.N
    (fun n hn h0 => by unfold acc0; rw [dif_pos hn]; exact step0_A V c q ⟨n, hn⟩ h0)
    (fun n hn h0 => by
      unfold acc0; rw [dif_pos hn, dif_pos (Nat.lt_of_le_of_lt (Nat.sub_le n 1) hn)]; exact step0_B V c q ⟨n, hn⟩ h0) n hn
  unfold acc0 at key
  rw [dif_pos hn] at key
  exact key

/-- And the second the sums of y·y. -/
theorem acc1_eq (c : Dev nD) (q : Fin 128) (n : ℕ) (hn : n < cfg0.N) :
    ((outsAt0 V c n hn).2.2.2 : S1x128.Idx → EReal) (ix2 (0 : Fin 1) q) = ∑ u ∈ Finset.range (n % 10 + 1), g1 V c q (n - n % 10 + u) := by
  have key := half_sums (g1 V c q) (acc1 V c q) cfg0.N
    (fun n hn h0 => by unfold acc1; rw [dif_pos hn]; exact step1_A V c q ⟨n, hn⟩ h0)
    (fun n hn h0 => by
      unfold acc1; rw [dif_pos hn, dif_pos (Nat.lt_of_le_of_lt (Nat.sub_le n 1) hn)]; exact step1_B V c q ⟨n, hn⟩ h0) n hn
  unfold acc1 at key
  rw [dif_pos hn] at key
  exact key

/-! ## The outputs at a half's last point -/

/-- Half h's total of y down column q, and of y·y: the sums over its ten blocks. -/
def T0 (c : Dev nD) (h : ℕ) (q : Fin 128) : EReal := ∑ u ∈ Finset.range 10, g0 V c q (10 * h + u)
def T1 (c : Dev nD) (h : ℕ) (q : Fin 128) : EReal := ∑ u ∈ Finset.range 10, g1 V c q (10 * h + u)

/-- At a half's last point the output block's column q is the accumulator's column q. -/
theorem out3_last (c : Dev nD) (q : Fin 128) (t : Fin cfg0.N) (h0 : ¬t.val % 10 = 0) (h1 : t.val % 10 = 9) :
    ((outsAt0 V c t.val t.isLt).1 : S1x1x128.Idx → EReal) (ix3 (0 : Fin 1) (0 : Fin 1) q)
      = ((outsAt0 V c t.val t.isLt).2.2.1 : S1x128.Idx → EReal) (ix2 (0 : Fin 1) q) := by
  rw [outsAt0_C V c t h0 h1]
  unfold caseC
  dsimp only
  refine (congrFun (outC3_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (B0 V c t) (B1 V c t) (B2 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix3 (0 : Fin 1) (0 : Fin 1) q)).trans ?_
  refine (pay6_apply (k0_pay4 (F := Ideal) (B0 V c t) (B1 V c t) (B2 V c t) (outsAt0 V c (t.val - 1) (Nat.lt_of_le_of_lt (Nat.sub_le _ _) t.isLt)).2.2.1) q).trans ?_
  exact (congrFun (soutC0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (B0 V c t) (B1 V c t) (B2 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 (0 : Fin 1) q)).symm

/-- So it is the half's total. -/
theorem out3_val (c : Dev nD) (q : Fin 128) (t : Fin cfg0.N) (h1 : t.val % 10 = 9) :
    ((outsAt0 V c t.val t.isLt).1 : S1x1x128.Idx → EReal) (ix3 (0 : Fin 1) (0 : Fin 1) q) = T0 V c (t.val / 10) q := by
  refine (out3_last V c q t (by omega) h1).trans ?_
  refine (acc0_eq V c q t.val t.isLt).trans ?_
  unfold T0
  have e9 : t.val % 10 + 1 = 10 := by omega
  have e10 : t.val - t.val % 10 = 10 * (t.val / 10) := by omega
  rw [e9, e10]

/-- At a half's last point the output block's column q is the accumulator's column q. -/
theorem out4_last (c : Dev nD) (q : Fin 128) (t : Fin cfg0.N) (h0 : ¬t.val % 10 = 0) (h1 : t.val % 10 = 9) :
    ((outsAt0 V c t.val t.isLt).2.1 : S1x1x128.Idx → EReal) (ix3 (0 : Fin 1) (0 : Fin 1) q)
      = ((outsAt0 V c t.val t.isLt).2.2.2 : S1x128.Idx → EReal) (ix2 (0 : Fin 1) q) := by
  rw [outsAt0_C V c t h0 h1]
  unfold caseC
  dsimp only
  refine (congrFun (outC4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (B0 V c t) (B1 V c t) (B2 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix3 (0 : Fin 1) (0 : Fin 1) q)).trans ?_
  refine (pay7_apply (k0_pay5 (F := Ideal) (B0 V c t) (B1 V c t) (B2 V c t) (outsAt0 V c (t.val - 1) (Nat.lt_of_le_of_lt (Nat.sub_le _ _) t.isLt)).2.2.2) q).trans ?_
  exact (congrFun (soutC1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (cB0 t h0) (cC1 t h1) (B0 V c t) (B1 V c t) (B2 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 (0 : Fin 1) q)).symm

/-- So it is the half's total. -/
theorem out4_val (c : Dev nD) (q : Fin 128) (t : Fin cfg0.N) (h1 : t.val % 10 = 9) :
    ((outsAt0 V c t.val t.isLt).2.1 : S1x1x128.Idx → EReal) (ix3 (0 : Fin 1) (0 : Fin 1) q) = T1 V c (t.val / 10) q := by
  refine (out4_last V c q t (by omega) h1).trans ?_
  refine (acc1_eq V c q t.val t.isLt).trans ?_
  unfold T1
  have e9 : t.val % 10 + 1 = 10 := by omega
  have e10 : t.val - t.val % 10 = 10 * (t.val / 10) := by omega
  rw [e9, e10]

/-! ## From the blocks to the arrays -/

/-- Output one as the region leaves it: at (h, ·, j) half h's total. -/
def G3 (c : Dev nD) : S2x1x128.Idx → EReal := fun i => T0 V c (i 0).val ⟨(i 2).val, (i 2).isLt⟩

/-- Where the output's block sits at point t: block (t / 10, 0, 0), of extents (1, 1, 128). -/
theorem geo0_3 : ∀ t : Fin cfg0.N, win0_3.index t 0 = t.val / 10 ∧ win0_3.index t 1 = 0 ∧ win0_3.index t 2 = 0 :=
  (by decide +kernel : ∀ t : Fin grid0.N, win0_3.index t 0 = t.val / 10 ∧ win0_3.index t 1 = 0 ∧ win0_3.index t 2 = 0)
theorem xs0_3 : ∀ t : Fin cfg0.N, win0_3.xsize (grid0.coords t) 0 = 1 ∧ win0_3.xsize (grid0.coords t) 1 = 1 ∧ win0_3.xsize (grid0.coords t) 2 = 128 :=
  (by decide +kernel : ∀ t : Fin grid0.N, win0_3.xsize (grid0.coords t) 0 = 1 ∧ win0_3.xsize (grid0.coords t) 1 = 1 ∧ win0_3.xsize (grid0.coords t) 2 = 128)

/-- What a half's last point writes back is the half's block of the totals. -/
theorem flushed3_eq (c : Dev nD) (t : Fin cfg0.N) (hf : (cfg0.win 3).flush t = true) :
    (dat0 V c).flushed 3 t = ((cfg0.win 3).blk t).view.read (Elt Ideal) (G3 V c) := by
  have h1 : t.val % 10 = 9 := (flush0_3 t).mp hf
  show (cfg0.win 3).cut (grid0.coords t) ((dat0 V c).after 3 t) = _
  rw [after0_3]
  refine funext fun (x : S1x1x128.Idx) => ?_
  rw [View.read_apply]
  obtain ⟨x0, x1, q, rfl⟩ : ∃ (x0 : Fin 1) (x1 : Fin 1) (q : Fin 128), x = ix3 x0 x1 q := ⟨x 0, x 1, x 2, eq_ix3 x⟩
  obtain rfl : x0 = 0 := Subsingleton.elim _ _
  obtain rfl : x1 = 0 := Subsingleton.elim _ _
  show ((outsAt0 V c t.val t.isLt).1 : S1x1x128.Idx → EReal) (ix3 (0 : Fin 1) (0 : Fin 1) q)
    = G3 V c (((cfg0.win 3).blk t).view.emb (ix3 (0 : Fin 1) (0 : Fin 1) q))
  rw [out3_val V c q t h1]
  unfold G3
  congr 1
  · show t.val / 10 = win0_3.index t 0 * 1 + 1 * 0
    rw [(geo0_3 t).1]; omega
  · apply Fin.ext
    show q.val = win0_3.index t 2 * 128 + 1 * q.val
    rw [(geo0_3 t).2.2]; omega

/-- Entry (h, ·, j) of the output lies in the block the last point of half h writes back. -/
theorem cover3 (c : Dev nD) (i : S2x1x128.Idx) :
    ∃ t : Fin cfg0.N, (cfg0.win 3).flush t = true ∧ i ∈ ((cfg0.win 3).blk t).view.set := by
  have hN : cfg0.N = 20 := N_0
  have i0 : (i 0 : ℕ) < 2 := (i 0).isLt
  have i1 : (i 1 : ℕ) < 1 := (i 1).isLt
  have i2 : (i 2 : ℕ) < 128 := (i 2).isLt
  obtain ⟨T, hT⟩ : ∃ T : Fin cfg0.N, T.val = 10 * (i 0 : ℕ) + 9 := ⟨⟨10 * (i 0 : ℕ) + 9, by rw [hN]; omega⟩, rfl⟩
  refine ⟨T, (flush0_3 T).mpr (by rw [hT]; omega), ?_⟩
  show i ∈ ((View.whole main_v24_0).slice (win0_3.rect T)).set
  rw [View.set_slice_whole, Rect.mem_set_unit]
  intro a
  match a with
  | ⟨0, _⟩ =>
    show win0_3.index T 0 * 1 ≤ (i 0 : ℕ) ∧ (i 0 : ℕ) < win0_3.index T 0 * 1 + win0_3.xsize (grid0.coords T) 0
    rw [(geo0_3 T).1, (xs0_3 T).1, hT]; omega
  | ⟨1, _⟩ =>
    show win0_3.index T 1 * 1 ≤ (i 1 : ℕ) ∧ (i 1 : ℕ) < win0_3.index T 1 * 1 + win0_3.xsize (grid0.coords T) 1
    rw [(geo0_3 T).2.1, (xs0_3 T).2.1]; omega
  | ⟨2, _⟩ =>
    show win0_3.index T 2 * 128 ≤ (i 2 : ℕ) ∧ (i 2 : ℕ) < win0_3.index T 2 * 128 + win0_3.xsize (grid0.coords T) 2
    rw [(geo0_3 T).2.2, (xs0_3 T).2.2]; omega

/-- So the output array ends holding the totals. -/
theorem final3 (c : Dev nD) : ((dat0 V c).arrAt 3 cfg0.N : S2x1x128.Idx → EReal) = G3 V c :=
  (dat0 V c).arrAt_eq_of_cover 3 (G3 V c) (flushed3_eq V c) (cover3 c)

/-- Output two as the region leaves it: at (h, ·, j) half h's total. -/
def G4 (c : Dev nD) : S2x1x128.Idx → EReal := fun i => T1 V c (i 0).val ⟨(i 2).val, (i 2).isLt⟩

/-- Where the output's block sits at point t: block (t / 10, 0, 0), of extents (1, 1, 128). -/
theorem geo0_4 : ∀ t : Fin cfg0.N, win0_4.index t 0 = t.val / 10 ∧ win0_4.index t 1 = 0 ∧ win0_4.index t 2 = 0 :=
  (by decide +kernel : ∀ t : Fin grid0.N, win0_4.index t 0 = t.val / 10 ∧ win0_4.index t 1 = 0 ∧ win0_4.index t 2 = 0)
theorem xs0_4 : ∀ t : Fin cfg0.N, win0_4.xsize (grid0.coords t) 0 = 1 ∧ win0_4.xsize (grid0.coords t) 1 = 1 ∧ win0_4.xsize (grid0.coords t) 2 = 128 :=
  (by decide +kernel : ∀ t : Fin grid0.N, win0_4.xsize (grid0.coords t) 0 = 1 ∧ win0_4.xsize (grid0.coords t) 1 = 1 ∧ win0_4.xsize (grid0.coords t) 2 = 128)

/-- What a half's last point writes back is the half's block of the totals. -/
theorem flushed4_eq (c : Dev nD) (t : Fin cfg0.N) (hf : (cfg0.win 4).flush t = true) :
    (dat0 V c).flushed 4 t = ((cfg0.win 4).blk t).view.read (Elt Ideal) (G4 V c) := by
  have h1 : t.val % 10 = 9 := (flush0_4 t).mp hf
  show (cfg0.win 4).cut (grid0.coords t) ((dat0 V c).after 4 t) = _
  rw [after0_4]
  refine funext fun (x : S1x1x128.Idx) => ?_
  rw [View.read_apply]
  obtain ⟨x0, x1, q, rfl⟩ : ∃ (x0 : Fin 1) (x1 : Fin 1) (q : Fin 128), x = ix3 x0 x1 q := ⟨x 0, x 1, x 2, eq_ix3 x⟩
  obtain rfl : x0 = 0 := Subsingleton.elim _ _
  obtain rfl : x1 = 0 := Subsingleton.elim _ _
  show ((outsAt0 V c t.val t.isLt).2.1 : S1x1x128.Idx → EReal) (ix3 (0 : Fin 1) (0 : Fin 1) q)
    = G4 V c (((cfg0.win 4).blk t).view.emb (ix3 (0 : Fin 1) (0 : Fin 1) q))
  rw [out4_val V c q t h1]
  unfold G4
  congr 1
  · show t.val / 10 = win0_4.index t 0 * 1 + 1 * 0
    rw [(geo0_4 t).1]; omega
  · apply Fin.ext
    show q.val = win0_4.index t 2 * 128 + 1 * q.val
    rw [(geo0_4 t).2.2]; omega

/-- Entry (h, ·, j) of the output lies in the block the last point of half h writes back. -/
theorem cover4 (c : Dev nD) (i : S2x1x128.Idx) :
    ∃ t : Fin cfg0.N, (cfg0.win 4).flush t = true ∧ i ∈ ((cfg0.win 4).blk t).view.set := by
  have hN : cfg0.N = 20 := N_0
  have i0 : (i 0 : ℕ) < 2 := (i 0).isLt
  have i1 : (i 1 : ℕ) < 1 := (i 1).isLt
  have i2 : (i 2 : ℕ) < 128 := (i 2).isLt
  obtain ⟨T, hT⟩ : ∃ T : Fin cfg0.N, T.val = 10 * (i 0 : ℕ) + 9 := ⟨⟨10 * (i 0 : ℕ) + 9, by rw [hN]; omega⟩, rfl⟩
  refine ⟨T, (flush0_4 T).mpr (by rw [hT]; omega), ?_⟩
  show i ∈ ((View.whole main_v24_1).slice (win0_4.rect T)).set
  rw [View.set_slice_whole, Rect.mem_set_unit]
  intro a
  match a with
  | ⟨0, _⟩ =>
    show win0_4.index T 0 * 1 ≤ (i 0 : ℕ) ∧ (i 0 : ℕ) < win0_4.index T 0 * 1 + win0_4.xsize (grid0.coords T) 0
    rw [(geo0_4 T).1, (xs0_4 T).1, hT]; omega
  | ⟨1, _⟩ =>
    show win0_4.index T 1 * 1 ≤ (i 1 : ℕ) ∧ (i 1 : ℕ) < win0_4.index T 1 * 1 + win0_4.xsize (grid0.coords T) 1
    rw [(geo0_4 T).2.1, (xs0_4 T).2.1]; omega
  | ⟨2, _⟩ =>
    show win0_4.index T 2 * 128 ≤ (i 2 : ℕ) ∧ (i 2 : ℕ) < win0_4.index T 2 * 128 + win0_4.xsize (grid0.coords T) 2
    rw [(geo0_4 T).2.2, (xs0_4 T).2.2]; omega

/-- So the output array ends holding the totals. -/
theorem final4 (c : Dev nD) : ((dat0 V c).arrAt 4 cfg0.N : S2x1x128.Idx → EReal) = G4 V c :=
  (dat0 V c).arrAt_eq_of_cover 4 (G4 V c) (flushed4_eq V c) (cover4 c)

/-! ## The two outputs as double sums -/

theorem yN_rowOf (c : Dev nD) (h : Fin 2) (u : Fin 10) (p : Fin 5000) (j : Fin 128) :
    yN V c (5000 * (10 * h.val + u.val) + p.val) j = yV V c (Cert.KSpec.rowOf h u p) j := by
  unfold yN
  rw [dif_pos (show 5000 * (10 * h.val + u.val) + p.val < 100000 from (Cert.KSpec.rowOf h u p).isLt)]
  rfl

/-- The first output at (h, 0, j): the sum of y(r, j) over the rows r of half h, block by block. -/
theorem stats_sum (c : Dev nD) (h : Fin 2) (j : Fin 128) :
    ((dat0 (F := Ideal) V c).arrAt 3 cfg0.N : S2x1x128.Idx → EReal) (ix3 h (0 : Fin 1) j)
      = ∑ u : Fin 10, ∑ p : Fin 5000, yV V c (Cert.KSpec.rowOf h u p) j := by
  refine (congrFun (final3 V c) (ix3 h (0 : Fin 1) j)).trans ?_
  show T0 V c h.val j = _
  unfold T0
  rw [Cert.LibBlocks.sum_range_fin 10 (fun u => g0 V c j (10 * h.val + u))]
  refine Finset.sum_congr rfl fun u _ => ?_
  unfold g0
  exact Finset.sum_congr rfl fun p _ => yN_rowOf V c h u p j

/-- The second output at (h, 0, j): the sum of y(r, j)² over the same rows. -/
theorem stats_sumsq (c : Dev nD) (h : Fin 2) (j : Fin 128) :
    ((dat0 (F := Ideal) V c).arrAt 4 cfg0.N : S2x1x128.Idx → EReal) (ix3 h (0 : Fin 1) j)
      = ∑ u : Fin 10, ∑ p : Fin 5000, yV V c (Cert.KSpec.rowOf h u p) j * yV V c (Cert.KSpec.rowOf h u p) j := by
  refine (congrFun (final4 V c) (ix3 h (0 : Fin 1) j)).trans ?_
  show T1 V c h.val j = _
  unfold T1
  rw [Cert.LibBlocks.sum_range_fin 10 (fun u => g1 V c j (10 * h.val + u))]
  refine Finset.sum_congr rfl fun u _ => ?_
  unfold g1
  exact Finset.sum_congr rfl fun p _ => congrArg₂ (fun a b : EReal => a * b) (yN_rowOf V c h u p j) (yN_rowOf V c h u p j)

end Cert.KernelIdeal.HandV

end
-- ==== Proof.lean ====
/-
  The certificate's claim: both kernel programs and the reference run to the end, fault nowhere and leave their seven
  argument arrays unchanged; the idealized kernel is the word-level kernel's own text read over the extended reals
  (nothing was rewritten); and, from memories that agree on the arguments and satisfy the precondition (every float
  input finite), the idealized kernel and the idealized reference end with the same result, entry by entry.
  The layer: neighbourhood means of the features over the incoming edges, a linear map, batch normalisation over the
  nodes, a rectifier, a residual sum.  The kernel computes the batch statistics from block sums of y and y² and the
  variance as max(Σy²/N − mean², 0); the reference computes Σ(y − mean)²/N.  Over the extended reals the two variances
  agree because every entry of y is a real number when the inputs are finite; everything else is the same arithmetic
  in another order of summation.  The witness of the common result is the kernel's own result array.
-/
import proofs.«155481_j76647986365164_2_alg».proof.Defs
import proofs.«155481_j76647986365164_2_alg».proof.Proof.Gen.Kernel
import proofs.«155481_j76647986365164_2_alg».proof.Proof.Gen.KernelIdeal
import proofs.«155481_j76647986365164_2_alg».proof.Proof.Gen.ReferenceIdeal
import proofs.«155481_j76647986365164_2_alg».proof.Proof.Gen.Pre_finite_inputs
import proofs.«155481_j76647986365164_2_alg».proof.Proof.RunB
import proofs.«155481_j76647986365164_2_alg».proof.Proof.RunI
import proofs.«155481_j76647986365164_2_alg».proof.Proof.RefRun
import proofs.«155481_j76647986365164_2_alg».proof.Proof.RefValue
import proofs.«155481_j76647986365164_2_alg».proof.Proof.RefFrame
import proofs.«155481_j76647986365164_2_alg».proof.Proof.AggEq
import proofs.«155481_j76647986365164_2_alg».proof.Proof.KValI
import proofs.«155481_j76647986365164_2_alg».proof.Proof.StatsValI
import Idealize.ShloMosaic.Adequacy
import Idealize.ShloMosaic.Init

noncomputable section

namespace Cert.Proof

open Idealize.ShloMosaic Idealize.ShloMosaic.ValueIdx Idealize.SL.Sem

/-- The word-level kernel's frame: its run with the result's clause dropped. -/
theorem frame_p : Cert.frame_Kernel := fun m ρ _ =>
  (θ_run (Cert.Kernel.defs (F := Bits)) _ _).mono (fun _ h c => (h c).2) (Cert.Kernel.Hand.run (F := Bits) m ρ)

/-- The idealized kernel's frame, likewise. -/
theorem frame_pi : Cert.frame_KernelIdeal := fun m ρ _ =>
  (θ_run (Cert.KernelIdeal.defs (F := Ideal)) _ _).mono (fun _ h c => (h c).2) (Cert.KernelIdeal.Hand.run (F := Ideal) m ρ)

/-- The reference's frame: its run with the result dropped. -/
theorem frame_ri : Cert.frame_ReferenceIdeal := Cert.ReferenceIdeal.RefFrame.frame_ri

/-- The ideal pass rewrote nothing. -/
theorem preserves : Cert.preserves_Kernel_KernelIdeal := trivial

/-- The two idealized programs end with equal results: the kernel's result array is the reference's. -/
theorem algebraic : Cert.algebraic_KernelIdeal_ReferenceIdeal := by
  intro m ρ m' ρ' hpre hagree
  refine ⟨fun c => (Cert.KernelIdeal.Hand.dat1 (F := Ideal) (Cert.KernelIdeal.Hand.Z3 m) c).arrAt 8 Cert.KernelIdeal.cfg1.N,
    Cert.KernelIdeal.Hand.run (F := Ideal) m ρ, ?_⟩
  refine (θ_run (Cert.ReferenceIdeal.defs (F := Ideal)) _ _).mono (fun _ h c => ⟨(h c).1.trans ?_, (h c).2⟩)
    (Cert.ReferenceIdeal.RefRun.run m' ρ')
  obtain ⟨e0, e1, e2, e3, e4, e5, e6⟩ := hagree c
  rw [e0, e1, e2, e3, e4, e5, e6]
  funext i
  obtain ⟨r, j, rfl⟩ : ∃ (r : Fin 100000) (j : Fin 128), i = ix2 r j := ⟨i 0, i 1, eq_ix2 i⟩
  rw [Cert.ReferenceIdeal.RefValue.result_apply]
  refine Eq.trans ?_ (Cert.KernelIdeal.HandV.kernel_value m (fun V c h j => Cert.KernelIdeal.HandV.stats_sum V c h j) (fun V c h j => Cert.KernelIdeal.HandV.stats_sumsq V c h j) hpre c r j).symm
  unfold Cert.KernelIdeal.HandV.yL
  rw [Cert.AggEq.agg_eq]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
